-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S8192x512 : Shape := ⟨2, ![8192, 512]⟩
abbrev S3x512 : Shape := ⟨2, ![3, 512]⟩
abbrev S3 : Shape := ⟨1, ![3]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S3x512 : S_.BroadcastsInDim S3x512 (![] : Fin 0 → Fin S3x512.rank)
  reducesTo_S3x512_S_d0_1 : S3x512.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S4096x512 .f32) (main_arg1 : FVec F S8192x512 .f32) (main_arg2 : FVec F S3x512 .f32) (main_arg3 : FVec F S3 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S3x512 .f32 := Host.absf main_arg2
  let main_cst_2 : FVec F S_ .f32 := constant S_ .f32 0x7F800000#32
  let main_v10 : FVec F S3x512 .f32 := broadcastInDim S3x512 ![] bcast_S_S3x512 main_cst_2
  let main_v11 : IVec S3x512 1 := cmpf .olt main_v9 main_v10
  let main_c_3 : IVec S_ 1 := constantI S_ 1 1#1
  let main_v12 : IVec S_ 1 := (fun x v => Host.reduce IntOp.andi x v reducesTo_S3x512_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S4096x512 : Shape := ⟨2, ![4096, 512]⟩
abbrev S8192x512 : Shape := ⟨2, ![8192, 512]⟩
abbrev S3x512 : Shape := ⟨2, ![3, 512]⟩
abbrev S3 : Shape := ⟨1, ![3]⟩
abbrev S4096x1 : Shape := ⟨2, ![4096, 1]⟩
abbrev S512x512 : Shape := ⟨2, ![512, 512]⟩
abbrev S512x1 : Shape := ⟨2, ![512, 1]⟩
abbrev S512 : Shape := ⟨1, ![512]⟩
abbrev S1x3 : Shape := ⟨2, ![1, 3]⟩
abbrev S4096x8192 : Shape := ⟨2, ![4096, 8192]⟩
abbrev S512x3 : Shape := ⟨2, ![512, 3]⟩

abbrev nBuf : Space → Nat
  | .hbm => 8
  | .vmem => 25
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S3x512, .f32⟩
  | .hbm, ⟨3, _⟩ => ⟨S3, .f32⟩
  | .hbm, ⟨4, _⟩ => ⟨S4096x1, .f32⟩
  | .hbm, ⟨5, _⟩ => ⟨S4096x1, .f32⟩
  | .hbm, ⟨6, _⟩ => ⟨S1x3, .f32⟩
  | .hbm, ⟨7, _⟩ => ⟨S4096x8192, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S3x512, .f32⟩
  | .local _ .vmem, ⟨15, _⟩ => ⟨S1x3, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x512, .f32⟩
  | .local _ .vmem, ⟨21, _⟩ => ⟨S512x512, .f32⟩
  | .local _ .vmem, ⟨22, _⟩ => ⟨S512x1, .f32⟩
  | .local _ .vmem, ⟨23, _⟩ => ⟨S512x1, .f32⟩
  | .local _ .vmem, ⟨24, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S3x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  reduces_S512x512_S512 : S512x512.Reduces [1] S512
  shapeCasts_S512_S512x1 : S512.ShapeCasts S512x1
  shapeCasts_S3_S1x3 : S3.ShapeCasts S1x3
  inb_S3x512_S3x512_0_0 : ∀ a, (![0, 0] : Fin 2 → Nat) a + S3x512.size a ≤ S3x512.size a
  h_S3x512 : 0 < S3x512.numel
  transposes_S3x512_p1_0_S512x3 : S3x512.Transposes [1, 0] S512x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S512x3 : S1x3.Broadcasts S512x3
  slices_S512x3_o0_0_S512x1 : S512x3.Slices ![0, 0] S512x1
  slices_S512x3_o0_1_S512x1 : S512x3.Slices ![0, 1] S512x1
  slices_S512x3_o0_2_S512x1 : S512x3.Slices ![0, 2] S512x1
  broadcasts_S512x1_S512x512 : S512x1.Broadcasts S512x512
  dot_S512x512_S512x512_S512x512_1_0_0_1_n_n_wf : DotDims.WF S512x512 S512x512 S512x512 [1] [0] [0] [1] [] []
  dot_S512x512_S512x3_S512x3_1_0_0_1_n_n_wf : DotDims.WF S512x512 S512x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x512.size a
  hwx1_0 : ∀ i : grid1.Coords, EltTy.bits .f32 = 32 ∨ (Rect.block (s := S4096x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S8192x512.size a
  hwx1_1 : ∀ i : grid1.Coords, EltTy.bits .f32 = 32 ∨ (Rect.block (s := S8192x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x512.size a ≤ S3x512.size a
  hwx1_2 : ∀ i : grid1.Coords, EltTy.bits .f32 = 32 ∨ (Rect.block (s := S3x512) S3x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x3.size a ≤ S1x3.size a
  hwx1_3 : ∀ i : grid1.Coords, EltTy.bits .f32 = 32 ∨ (Rect.block (s := S1x3) S1x3.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S4096x1.size a
  hwx1_4 : ∀ i : grid1.Coords, EltTy.bits .f32 = 32 ∨ (Rect.block (s := S4096x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S4096x1.size a
  hwx1_5 : ∀ i : grid1.Coords, EltTy.bits .f32 = 32 ∨ (Rect.block (s := S4096x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S4096x8192.size a
  hwx1_6 : ∀ i : grid1.Coords, EltTy.bits .f32 = 32 ∨ (Rect.block (s := S4096x8192) S512x512.size (cc1_transform_6 i) (hinb1_6 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x3_S512x3_1_0_0_1_n_n : DotDims S512x512 S512x3 S512x3 where
  lhsContracting := [1]
  rhsContracting := [0]
  lhsNonContracting := [0]
  rhsNonContracting := [1]
  lhsBatch := []
  rhsBatch := []
  wf := dot_S512x512_S512x3_S512x3_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S3x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x3.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0_0) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0_1) S512x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v2) S512x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4096x512 : Shape := ⟨2, ![4096, 512]⟩
abbrev S8192x512 : Shape := ⟨2, ![8192, 512]⟩
abbrev S3x512 : Shape := ⟨2, ![3, 512]⟩
abbrev S3 : Shape := ⟨1, ![3]⟩
abbrev S512x3 : Shape := ⟨2, ![512, 3]⟩
abbrev S4096x3 : Shape := ⟨2, ![4096, 3]⟩
abbrev S1x3 : Shape := ⟨2, ![1, 3]⟩
abbrev S_ : Shape := ⟨0, ![]⟩
abbrev S4096x1 : Shape := ⟨2, ![4096, 1]⟩
abbrev S512x8192 : Shape := ⟨2, ![512, 8192]⟩
abbrev S4096x8192 : Shape := ⟨2, ![4096, 8192]⟩
abbrev S4096 : Shape := ⟨1, ![4096]⟩

abbrev nBuf : Space → Nat
  | .hbm => 102
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S3x512, .f32⟩
  | .hbm, ⟨3, _⟩ => ⟨S3, .f32⟩
  | .hbm, ⟨4, _⟩ => ⟨S512x3, .f32⟩
  | .hbm, ⟨5, _⟩ => ⟨S4096x3, .f32⟩
  | .hbm, ⟨6, _⟩ => ⟨S1x3, .f32⟩
  | .hbm, ⟨7, _⟩ => ⟨S4096x3, .f32⟩
  | .hbm, ⟨8, _⟩ => ⟨S4096x3, .f32⟩
  | .hbm, ⟨9, _⟩ => ⟨S4096x3, .f32⟩
  | .hbm, ⟨10, _⟩ => ⟨S4096x3, .f32⟩
  | .hbm, ⟨11, _⟩ => ⟨S_, .f32⟩
  | .hbm, ⟨12, _⟩ => ⟨S4096x3, .f32⟩
  | .hbm, ⟨13, _⟩ => ⟨S4096x3, .f32⟩
  | .hbm, ⟨14, _⟩ => ⟨S_, .f32⟩
  | .hbm, ⟨15, _⟩ => ⟨S4096x3, .f32⟩
  | .hbm, ⟨16, _⟩ => ⟨S4096x3, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096x3, .f32⟩
  | .hbm, ⟨21, _⟩ => ⟨S4096x3, .f32⟩
  | .hbm, ⟨22, _⟩ => ⟨S_, .f32⟩
  | .hbm, ⟨23, _⟩ => ⟨S4096x3, .f32⟩
  | .hbm, ⟨24, _⟩ => ⟨S4096x3, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S512x8192, .f32⟩
  | .hbm, ⟨34, _⟩ => ⟨S4096x8192, .f32⟩
  | .hbm, ⟨35, _⟩ => ⟨S_, .f32⟩
  | .hbm, ⟨36, _⟩ => ⟨S4096x8192, .f32⟩
  | .hbm, ⟨37, _⟩ => ⟨S4096x8192, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x8192, .f32⟩
  | .hbm, ⟨45, _⟩ => ⟨S4096x8192, .f32⟩
  | .hbm, ⟨46, _⟩ => ⟨S4096x1, .f32⟩
  | .hbm, ⟨47, _⟩ => ⟨S4096x8192, .f32⟩
  | .hbm, ⟨48, _⟩ => ⟨S4096x8192, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x8192, .f32⟩
  | .hbm, ⟨57, _⟩ => ⟨S4096x8192, .f32⟩
  | .hbm, ⟨58, _⟩ => ⟨S4096x8192, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x8192, .f32⟩
  | .hbm, ⟨63, _⟩ => ⟨S4096x8192, .f32⟩
  | .hbm, ⟨64, _⟩ => ⟨S_, .f32⟩
  | .hbm, ⟨65, _⟩ => ⟨S4096x8192, .f32⟩
  | .hbm, ⟨66, _⟩ => ⟨S4096x8192, .f32⟩
  | .hbm, ⟨67, _⟩ => ⟨S4096x8192, .f32⟩
  | .hbm, ⟨68, _⟩ => ⟨S4096x8192, .f32⟩
  | .hbm, ⟨69, _⟩ => ⟨S4096x8192, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S4096x8192, .f32⟩
  | .hbm, ⟨74, _⟩ => ⟨S4096x8192, .f32⟩
  | .hbm, ⟨75, _⟩ => ⟨S_, .f32⟩
  | .hbm, ⟨76, _⟩ => ⟨S4096x8192, .f32⟩
  | .hbm, ⟨77, _⟩ => ⟨S4096x8192, .f32⟩
  | .hbm, ⟨78, _⟩ => ⟨S4096x8192, .f32⟩
  | .hbm, ⟨79, _⟩ => ⟨S4096x8192, .f32⟩
  | .hbm, ⟨80, _⟩ => ⟨S4096x8192, .f32⟩
  | .hbm, ⟨81, _⟩ => ⟨S4096x8192, .i1⟩
  | .hbm, ⟨82, _⟩ => ⟨S4096x8192, .f32⟩
  | .hbm, ⟨83, _⟩ => ⟨S4096x8192, .i1⟩
  | .hbm, ⟨84, _⟩ => ⟨S_, .f32⟩
  | .hbm, ⟨85, _⟩ => ⟨S_, .f32⟩
  | .hbm, ⟨86, _⟩ => ⟨S4096x8192, .f32⟩
  | .hbm, ⟨87, _⟩ => ⟨S4096x8192, .f32⟩
  | .hbm, ⟨88, _⟩ => ⟨S_, .f32⟩
  | .hbm, ⟨89, _⟩ => ⟨S_, .f32⟩
  | .hbm, ⟨90, _⟩ => ⟨S4096x8192, .f32⟩
  | .hbm, ⟨91, _⟩ => ⟨S4096x8192, .f32⟩
  | .hbm, ⟨92, _⟩ => ⟨S_, .f32⟩
  | .hbm, ⟨93, _⟩ => ⟨S_, .f32⟩
  | .hbm, ⟨94, _⟩ => ⟨S4096x8192, .f32⟩
  | .hbm, ⟨95, _⟩ => ⟨S4096x8192, .f32⟩
  | .hbm, ⟨96, _⟩ => ⟨S4096x8192, .f32⟩
  | .hbm, ⟨97, _⟩ => ⟨S_, .f32⟩
  | .hbm, ⟨98, _⟩ => ⟨S_, .f32⟩
  | .hbm, ⟨99, _⟩ => ⟨S4096x8192, .f32⟩
  | .hbm, ⟨100, _⟩ => ⟨S4096x8192, .f32⟩
  | .hbm, ⟨101, _⟩ => ⟨S4096x8192, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_call1_v0 : Ref sig .tc := ⟨.hbm, 85, rfl⟩
abbrev main_call1_v1 : Ref sig .tc := ⟨.hbm, 86, rfl⟩
abbrev main_v61 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_cst_15 : Ref sig .tc := ⟨.hbm, 92, rfl⟩
abbrev main_call3_v0 : Ref sig .tc := ⟨.hbm, 93, rfl⟩
abbrev main_call3_v1 : Ref sig .tc := ⟨.hbm, 94, rfl⟩
abbrev main_v63 : Ref sig .tc := ⟨.hbm, 95, rfl⟩
abbrev main_v64 : Ref sig .tc := ⟨.hbm, 96, rfl⟩
abbrev main_cst_16 : Ref sig .tc := ⟨.hbm, 97, rfl⟩
abbrev main_call4_v0 : Ref sig .tc := ⟨.hbm, 98, rfl⟩
abbrev main_call4_v1 : Ref sig .tc := ⟨.hbm, 99, rfl⟩
abbrev main_v65 : Ref sig .tc := ⟨.hbm, 100, rfl⟩
abbrev main_v66 : Ref sig .tc := ⟨.hbm, 101, rfl⟩

abbrev nD : Nat := 1
abbrev τ : Topo := Topo.v7x

variable {F : FTy → Type} [FloatOps F]

class Facts₀ : Prop where
  transposes_S3x512_S512x3_1_0 : S3x512.Transposes [1, 0] S512x3
  bcast_S3_S1x3_1 : S3.BroadcastsInDim S1x3 (![1] : Fin 1 → Fin S1x3.rank)
  bcast_S1x3_S4096x3_0_1 : S1x3.BroadcastsInDim S4096x3 (![0, 1] : Fin 2 → Fin S4096x3.rank)
  bcast_S_S4096x3 : S_.BroadcastsInDim S4096x3 (![] : Fin 0 → Fin S4096x3.rank)
  slices_S4096x3_S4096x1_0_0 : S4096x3.Slices ![0, 0] S4096x1
  slices_S4096x3_S4096x1_0_1 : S4096x3.Slices ![0, 1] S4096x1
  slices_S4096x3_S4096x1_0_2 : S4096x3.Slices ![0, 2] S4096x1
  bcast_S_S4096x1 : S_.BroadcastsInDim S4096x1 (![] : Fin 0 → Fin S4096x1.rank)
  transposes_S8192x512_S512x8192_1_0 : S8192x512.Transposes [1, 0] S512x8192
  bcast_S_S4096x8192 : S_.BroadcastsInDim S4096x8192 (![] : Fin 0 → Fin S4096x8192.rank)
  reducesTo_S4096x8192_S4096_d1 : S4096x8192.ReducesTo [1] S4096
  h_S_ : 0 < S_.numel
  bcast_S4096_S4096x1_0 : S4096.BroadcastsInDim S4096x1 (![0] : Fin 1 → Fin S4096x1.rank)
  bcast_S4096x1_S4096x8192_0_1 : S4096x1.BroadcastsInDim S4096x8192 (![0, 1] : Fin 2 → Fin S4096x8192.rank)
  dot_S4096x512_S512x3_S4096x3_1_0_0_1_n_n_wf : DotDims.WF S4096x512 S512x3 S4096x3 [1] [0] [0] [1] [] []
  dot_S4096x512_S512x8192_S4096x8192_1_0_0_1_n_n_wf : DotDims.WF S4096x512 S512x8192 S4096x8192 [1] [0] [0] [1] [] []

variable [Facts₀]

def dot_S4096x512_S512x3_S4096x3_1_0_0_1_n_n : DotDims S4096x512 S512x3 S4096x3 where
  lhsContracting := [1]
  rhsContracting := [0]
  lhsNonContracting := [0]
  rhsNonContracting := [1]
  lhsBatch := []
  rhsBatch := []
  wf := dot_S4096x512_S512x3_S4096x3_1_0_0_1_n_n_wf
def dot_S4096x512_S512x8192_S4096x8192_1_0_0_1_n_n : DotDims S4096x512 S512x8192 S4096x8192 where
  lhsContracting := [1]
  rhsContracting := [0]
  lhsNonContracting := [0]
  rhsNonContracting := [1]
  lhsBatch := []
  rhsBatch := []
  wf := dot_S4096x512_S512x8192_S4096x8192_1_0_0_1_n_n_wf

class Facts : Prop extends Facts₀ where

variable [Facts]
-- ==== Proof.BodyDefs.lean ====
import proofs.«155337_j27762668601764_1_alg».proof.Proof.Gen.KernelIdeal.Launch
import proofs.«155337_j27762668601764_1_alg».proof.Proof.Gen.KernelIdeal.Skeleton
import proofs.«155337_j27762668601764_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The two kernels' bodies: what is shared -/

/-- The whole of a buffer of each shape the bodies touch, as their loads and stores name it. -/
abbrev rC : Rect S512x1 := Rect.unit (s := S512x1) ![0, 0] S512x1.size inb_S512x1_S512x1_0_0
abbrev rT : Rect S512x512 := Rect.unit (s := S512x512) ![0, 0] S512x512.size inb_S512x512_S512x512_0_0
abbrev rW : Rect S3x512 := Rect.unit (s := S3x512) ![0, 0] S3x512.size inb_S3x512_S3x512_0_0
abbrev rB : Rect S1x3 := Rect.unit (s := S1x3) ![0, 0] S1x3.size inb_S1x3_S1x3_0_0

/-- The first kernel. The first column of a row of tiles: the running values are reset there. -/
abbrev cond0_0 (i : grid0.Coords) : Prop := (Scalar.cmpi .ne (Scalar.extui (Scalar.cmpi .eq (BitVec.ofNat 32 (i 1).val) 0#32)) 0#32) = 1#1
/-- The last column: the running values are written out there. -/
abbrev cond0_1 (i : grid0.Coords) : Prop := k0_cond2 i = 1#1
/-- The second kernel. The first column of a row of tiles: the three thresholds are computed and kept there. -/
abbrev cond1_0 (i : grid1.Coords) : Prop := (Scalar.cmpi .ne (Scalar.extui (Scalar.cmpi .eq (BitVec.ofNat 32 (i 1).val) 0#32)) 0#32) = 1#1

theorem hzC : (![0, 0] : Fin S512x1.rank → Nat) = fun _ => 0 := by funext a; fin_cases a <;> rfl
theorem hzT : (![0, 0] : Fin S512x512.rank → Nat) = fun _ => 0 := by funext a; fin_cases a <;> rfl
theorem hzW : (![0, 0] : Fin S3x512.rank → Nat) = fun _ => 0 := by funext a; fin_cases a <;> rfl
theorem hzB : (![0, 0] : Fin S1x3.rank → Nat) = fun _ => 0 := by funext a; fin_cases a <;> rfl

/-- A buffer whose last store was of the whole shape reads back as that store's payload, whatever came before. -/
theorem read_writes_whole {sg : RefSig} {κ : Kind} {sp : Space} {S : Shape} {e : EltTy} {off : Fin S.rank → Nat} (h : off = fun _ => 0)
    (inb : ∀ a, off a + S.size a ≤ S.size a) (v : View sg κ sp S e) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩)]
  exact View.canon_cons_unit_zero h inb w L

/-- The tile the second kernel stores: the scaled products, normalised by the row's least and greatest entry, masked
    between the thresholds a, b with exponent 1 / s. -/
def tile1 (x0 x1 : Vec F S512x512 .f32) (x4 x5 a b s : Vec F S512x1 .f32) : Vec F S512x512 .f32 :=
  k1_pay1 (k1_pay7 x0 x1) (k1_pay8 x0 x1 x4 x5) a b (k1_pay10 x0 x1 x4 x5 a s) (k1_pay11 x0 x1 x4 x5 b s) (Scalar.ofBits .f32 0x2B8CBCCC#32)

end Cert.KernelIdeal.Hand

end
-- ==== Proof.R0A.lean ====
import proofs.«155337_j27762668601764_1_alg».proof.Proof.Gen.KernelIdeal.Launch
import proofs.«155337_j27762668601764_1_alg».proof.Proof.Gen.KernelIdeal.Skeleton
import proofs.«155337_j27762668601764_1_alg».proof.Proof.Gen.KernelIdeal.Points
import proofs.«155337_j27762668601764_1_alg».proof.Proof.BodyDefs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first column: the running values start from +inf / -inf, whatever the scratch held. -/
theorem run0_A (c : Dev nD) (E : Set ℕ) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : cond0_0 i) (hc1 : ¬cond0_1 i)
    (x0 x1 : Vec F S512x512 .f32) (xi2 xi3 : Vec F S512x1 .f32) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare (k0_pay4 x0 x1 k0_pay1) ∗ owns (c : Thread nD τ) arg7 fullShare (k0_pay5 x0 x1 k0_pay2)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%f3, %hf3, H3⟩, ⟨%ds0, %fs0, %hfs0, HS0⟩, ⟨%ds1, %fs1, %hfs1, HS1⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HS0]
  · iexists _; isplitr
    swap; · iexact HS0
    ipureintro
    sl_unfold_run_names
    simp only [View.readCov_cons_toLoadRect, View.readAt_eq_ld, hf0, hf1, View.ld_unit_zero (S := S512x512) hzT, View.ld_unit_zero (S := S512x1) hzC, View.ld_unit_zero (S := S3x512) hzW, View.ld_unit_zero (S := S1x3) hzB]
    exact read_writes_whole (S := S512x1) hzC _ _ _ _ _
  iexists _; isplitr
  swap; · iexact HS1
  ipureintro
  sl_unfold_run_names
  simp only [View.readCov_cons_toLoadRect, View.readAt_eq_ld, hf0, hf1, View.ld_unit_zero (S := S512x512) hzT, View.ld_unit_zero (S := S512x1) hzC, View.ld_unit_zero (S := S3x512) hzW, View.ld_unit_zero (S := S1x3) hzB]
  exact read_writes_whole (S := S512x1) hzC _ _ _ _ _

end Cert.KernelIdeal.Hand

end
-- ==== Proof.R0B.lean ====
import proofs.«155337_j27762668601764_1_alg».proof.Proof.Gen.KernelIdeal.Launch
import proofs.«155337_j27762668601764_1_alg».proof.Proof.Gen.KernelIdeal.Skeleton
import proofs.«155337_j27762668601764_1_alg».proof.Proof.Gen.KernelIdeal.Points
import proofs.«155337_j27762668601764_1_alg».proof.Proof.BodyDefs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle column: both running values are folded with the tile's row minima / maxima; nothing is written out. -/
theorem run0_B (c : Dev nD) (E : Set ℕ) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬cond0_0 i) (hc1 : ¬cond0_1 i)
    (x0 x1 : Vec F S512x512 .f32) (xi2 xi3 xs0 xs1 : Vec F S512x1 .f32) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare (k0_pay4 x0 x1 xs0) ∗ owns (c : Thread nD τ) arg7 fullShare (k0_pay5 x0 x1 xs1)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hfs0; obtain rfl := harg7.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HS0]
  · iexists _; isplitr
    swap; · iexact HS0
    ipureintro
    sl_unfold_run_names
    simp only [View.readCov_cons_toLoadRect, View.readAt_eq_ld, hf0, hf1, hfs0, View.ld_unit_zero (S := S512x512) hzT, View.ld_unit_zero (S := S512x1) hzC, View.ld_unit_zero (S := S3x512) hzW, View.ld_unit_zero (S := S1x3) hzB]
    exact read_writes_whole (S := S512x1) hzC _ _ _ _ _
  iexists _; isplitr
  swap; · iexact HS1
  ipureintro
  sl_unfold_run_names
  simp only [View.readCov_cons_toLoadRect, View.readAt_eq_ld, hf0, hf1, hfs1, View.ld_unit_zero (S := S512x512) hzT, View.ld_unit_zero (S := S512x1) hzC, View.ld_unit_zero (S := S3x512) hzW, View.ld_unit_zero (S := S1x3) hzB]
  exact read_writes_whole (S := S512x1) hzC _ _ _ _ _

end Cert.KernelIdeal.Hand

end
-- ==== Proof.R0C.lean ====
import proofs.«155337_j27762668601764_1_alg».proof.Proof.Gen.KernelIdeal.Launch
import proofs.«155337_j27762668601764_1_alg».proof.Proof.Gen.KernelIdeal.Skeleton
import proofs.«155337_j27762668601764_1_alg».proof.Proof.Gen.KernelIdeal.Points
import proofs.«155337_j27762668601764_1_alg».proof.Proof.BodyDefs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last column: the folded running values are also written out to the two result blocks. -/
theorem run0_C (c : Dev nD) (E : Set ℕ) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬cond0_0 i) (hc1 : cond0_1 i)
    (x0 x1 : Vec F S512x512 .f32) (xs0 xs1 : Vec F S512x1 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare (k0_pay4 x0 x1 xs0) ∗ owns (c : Thread nD τ) arg5 fullShare (k0_pay5 x0 x1 xs1) ∗ owns (c : Thread nD τ) arg6 fullShare (k0_pay4 x0 x1 xs0) ∗ owns (c : Thread nD τ) arg7 fullShare (k0_pay5 x0 x1 xs1)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%d2, %f2, %hf2, H2⟩, ⟨%d3, %f3, %hf3, H3⟩, ⟨%fs0, %hfs0, HS0⟩, ⟨%fs1, %hfs1, HS1⟩, Hk⟩
  obtain rfl := harg2.eq_unread hf0; obtain rfl := harg3.eq_unread hf1
  obtain rfl := harg6.eq_unread hfs0; obtain rfl := harg7.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_run_names
    simp only [View.readCov_cons_toLoadRect, View.readAt_eq_ld, hf0, hf1, hfs0, View.ld_unit_zero (S := S512x512) hzT, View.ld_unit_zero (S := S512x1) hzC, View.ld_unit_zero (S := S3x512) hzW, View.ld_unit_zero (S := S1x3) hzB]
    exact read_writes_whole (S := S512x1) hzC _ _ _ _ _
  isplitl [H3]
  · iexists _; isplitr
    swap; · iexact H3
    ipureintro
    sl_unfold_run_names
    simp only [View.readCov_cons_toLoadRect, View.readAt_eq_ld, hf0, hf1, hfs1, View.ld_unit_zero (S := S512x512) hzT, View.ld_unit_zero (S := S512x1) hzC, View.ld_unit_zero (S := S3x512) hzW, View.ld_unit_zero (S := S1x3) hzB]
    exact read_writes_whole (S := S512x1) hzC _ _ _ _ _
  isplitl [HS0]
  · iexists _; isplitr
    swap; · iexact HS0
    ipureintro
    sl_unfold_run_names
    simp only [View.readCov_cons_toLoadRect, View.readAt_eq_ld, hf0, hf1, hfs0, View.ld_unit_zero (S := S512x512) hzT, View.ld_unit_zero (S := S512x1) hzC, View.ld_unit_zero (S := S3x512) hzW, View.ld_unit_zero (S := S1x3) hzB]
    exact read_writes_whole (S := S512x1) hzC _ _ _ _ _
  iexists _; isplitr
  swap; · iexact HS1
  ipureintro
  sl_unfold_run_names
  simp only [View.readCov_cons_toLoadRect, View.readAt_eq_ld, hf0, hf1, hfs1, View.ld_unit_zero (S := S512x512) hzT, View.ld_unit_zero (S := S512x1) hzC, View.ld_unit_zero (S := S3x512) hzW, View.ld_unit_zero (S := S1x3) hzB]
  exact read_writes_whole (S := S512x1) hzC _ _ _ _ _

end Cert.KernelIdeal.Hand

end
-- ==== Proof.R0Data.lean ====
import proofs.«155337_j27762668601764_1_alg».proof.Proof.Gen.KernelIdeal.Launch
import proofs.«155337_j27762668601764_1_alg».proof.Proof.Gen.KernelIdeal.Skeleton
import proofs.«155337_j27762668601764_1_alg».proof.Proof.Gen.KernelIdeal.Points
import proofs.«155337_j27762668601764_1_alg».proof.Proof.R0A
import proofs.«155337_j27762668601764_1_alg».proof.Proof.R0B
import proofs.«155337_j27762668601764_1_alg».proof.Proof.R0C
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region: its proof data and body obligation, at the contents `V` the region is entered with -/

section R0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The grid: 8 rows of 16 columns of tiles; point t is row t / 16, column t % 16 -/

theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
/-- The two result windows are written only in the last column, and written back only there. -/
theorem idleAt0_2 : ∀ t : Fin cfg0.N, ¬t.val % 16 = 15 → cfg0.idle 2 (grid0.coords t) = true := by decide +kernel
theorem idleAt0_3 : ∀ t : Fin cfg0.N, ¬t.val % 16 = 15 → cfg0.idle 3 (grid0.coords t) = true := by decide +kernel
theorem liveAt0_2 : ∀ t : Fin cfg0.N, t.val % 16 = 15 → cfg0.idle 2 (grid0.coords t) = false := by decide +kernel
theorem liveAt0_3 : ∀ t : Fin cfg0.N, t.val % 16 = 15 → cfg0.idle 3 (grid0.coords t) = false := by decide +kernel
theorem noFlush0_2 : ∀ t : Fin cfg0.N, ¬t.val % 16 = 15 → (cfg0.win 2).flush t = false := by decide +kernel
theorem noFlush0_3 : ∀ t : Fin cfg0.N, ¬t.val % 16 = 15 → (cfg0.win 3).flush t = false := by decide +kernel

/-! ## The memrefs the body is called with -/

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
/-- The two scratch columns: the running least and the running greatest entry of each of the tile's 512 rows. -/
abbrev scM0_0 : Memref sig .tc .vmem S512x1 .f32 := Memref.whole cc0_scratch0
abbrev scM0_1 : Memref sig .tc .vmem S512x1 .f32 := Memref.whole cc0_scratch1

/-- The scoped buffers the first kernel never touches, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The class invariant with the two scratch columns named. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-! ## The running values after each point -/

/-- The two scratch columns after the body at position `n`: in the first column of a row of tiles the fold starts
    from +inf / -inf, elsewhere from what the point before left. -/
def acc0 (c : Dev nD) : (n : ℕ) → n < cfg0.N → Vec F S512x1 .f32 × Vec F S512x1 .f32
  | 0, hn => (k0_pay4 (iblk0 V c 0 ⟨0, hn⟩) (iblk0 V c 1 ⟨0, hn⟩) k0_pay1, k0_pay5 (iblk0 V c 0 ⟨0, hn⟩) (iblk0 V c 1 ⟨0, hn⟩) k0_pay2)
  | n + 1, hn =>
    if (n + 1) % 16 = 0 then
      (k0_pay4 (iblk0 V c 0 ⟨n + 1, hn⟩) (iblk0 V c 1 ⟨n + 1, hn⟩) k0_pay1, k0_pay5 (iblk0 V c 0 ⟨n + 1, hn⟩) (iblk0 V c 1 ⟨n + 1, hn⟩) k0_pay2)
    else
      (k0_pay4 (iblk0 V c 0 ⟨n + 1, hn⟩) (iblk0 V c 1 ⟨n + 1, hn⟩) (acc0 c n (Nat.lt_of_succ_lt hn)).1,
       k0_pay5 (iblk0 V c 0 ⟨n + 1, hn⟩) (iblk0 V c 1 ⟨n + 1, hn⟩) (acc0 c n (Nat.lt_of_succ_lt hn)).2)

theorem acc0_first (c : Dev nD) (t : Fin cfg0.N) (h : t.val % 16 = 0) :
    acc0 V c t.val t.isLt = (k0_pay4 (iblk0 V c 0 t) (iblk0 V c 1 t) k0_pay1, k0_pay5 (iblk0 V c 0 t) (iblk0 V c 1 t) k0_pay2) := by
  obtain ⟨n, hn⟩ := t
  cases n with
  | zero => rfl
  | succ n => exact (if_pos h).trans rfl

theorem acc0_later (c : Dev nD) (t : Fin cfg0.N) (h : ¬t.val % 16 = 0) :
    acc0 V c t.val t.isLt = (k0_pay4 (iblk0 V c 0 t) (iblk0 V c 1 t) (acc0 V c (t.val - 1) (Nat.lt_of_le_of_lt (Nat.sub_le _ _) t.isLt)).1,
      k0_pay5 (iblk0 V c 0 t) (iblk0 V c 1 t) (acc0 V c (t.val - 1) (Nat.lt_of_le_of_lt (Nat.sub_le _ _) t.isLt)).2) := by
  obtain ⟨n, hn⟩ := t
  cases n with
  | zero => exact absurd (Nat.zero_mod _) h
  | succ n => exact (if_neg h).trans rfl

/-- The region invariant before position `n`: at entry the class's; afterwards the two scratch columns at what the
    point before left, the other scoped buffers at anything, the generator register at some state. -/
def PhiS0 (c : Dev nD) : (n : ℕ) → n ≤ cfg0.N → sProp 𝕄
  | 0, _ => Pipeline.ΦA spec0 c
  | n + 1, hn => iprop((owns (c : Thread nD τ) scM0_0 fullShare (acc0 V c n hn).1 ∗ owns (c : Thread nD τ) scM0_1 fullShare (acc0 V c n hn).2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0_0 fullShare (acc0 V c n hn).1 ∗ owns (c : Thread nD τ) scM0_1 fullShare (acc0 V c n hn).2 ∗ rest0 (F := F) c) ∗ (∃ r, prngReg c r)) := rfl
theorem PhiS0_pos (c : Dev nD) (n : ℕ) (h : n ≤ cfg0.N) (hz : n ≠ 0) :
    PhiS0 V c n h = iprop((owns (c : Thread nD τ) scM0_0 fullShare (acc0 V c (n - 1) (by omega)).1 ∗ owns (c : Thread nD τ) scM0_1 fullShare (acc0 V c (n - 1) (by omega)).2 ∗ rest0 (F := F) c) ∗ (∃ r, prngReg c r)) := by
  cases n with
  | zero => exact absurd rfl hz
  | succ n => rfl

/-! ## The proof data -/

/-- The arrays as the region finds them; after the body each input's buffer at its block, each result's at the
    running value (written only in the last column, where it is the row's least / greatest entry); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end R0

end Cert.KernelIdeal.Hand

end
-- ==== Proof.R0Ob.lean ====
import proofs.«155337_j27762668601764_1_alg».proof.Proof.Gen.KernelIdeal.Launch
import proofs.«155337_j27762668601764_1_alg».proof.Proof.Gen.KernelIdeal.Skeleton
import proofs.«155337_j27762668601764_1_alg».proof.Proof.Gen.KernelIdeal.Points
import proofs.«155337_j27762668601764_1_alg».proof.Proof.R0Data
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region: the body obligation -/

section R0

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the column decides the case; the invariant hands the
    body the two running columns at what the point before left (at anything in a first column) and takes them back
    at this point's values; the result buffers are written in the last column and untouched elsewhere. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · have h1 : ¬t.val % 16 = 15 := by omega
    rw [Dat.leavesExact_idle (dat0 V c) 2 t (idleAt0_2 t h1) (noFlush0_2 t h1),
      Dat.leavesExact_idle (dat0 V c) 3 t (idleAt0_3 t h1) (noFlush0_3 t h1)]
    rw [acc0_first V c t h0]
    by_cases hz : t.val = 0
    · rw [PhiS0_castSucc V c t, PhiS0_zero V c _ _ hz, PhiA0_eq]
      iintro ⟨⟨⟨HS0, HS1, Hr⟩, Hg⟩, Ho, ⟨%d0, H0⟩, ⟨%d1, H1⟩, ⟨%d2, H2⟩, ⟨%d3, H3⟩⟩
      iapply (run0_A c Set.univ (grid0.coords t) _ _ _ _ _ _ _ _ _ _ _ _ ((hcond0_0 t).mpr h0) (fun h => h1 ((hcond0_1 t).mp h)) (iblk0 V c 0 t) (iblk0 V c 1 t) ((dat0 V c).before 2 t d2) ((dat0 V c).before 3 t d3) _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexists _; iexact H2
      iexists _; iexact H3
    · rw [PhiS0_castSucc V c t, PhiS0_pos V c _ _ hz]
      iintro ⟨⟨⟨HS0, HS1, Hr⟩, Hg⟩, Ho, ⟨%d0, H0⟩, ⟨%d1, H1⟩, ⟨%d2, H2⟩, ⟨%d3, H3⟩⟩
      iapply (run0_A c Set.univ (grid0.coords t) _ _ _ _ _ _ _ _ _ _ _ _ ((hcond0_0 t).mpr h0) (fun h => h1 ((hcond0_1 t).mp h)) (iblk0 V c 0 t) (iblk0 V c 1 t) ((dat0 V c).before 2 t d2) ((dat0 V c).before 3 t d3) _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexists _; iexact H2
      iexists _; iexact H3
  · have hz : t.val ≠ 0 := fun h => h0 (by rw [h])
    rw [acc0_later V c t h0]
    rw [PhiS0_castSucc V c t, PhiS0_pos V c _ _ hz]
    by_cases h1 : t.val % 16 = 15
    · rw [show (dat0 V c).leavesExact 2 t = owns (c : Thread nD τ) (ms0_2 t) fullShare ((dat0 V c).after 2 t) from by
        unfold Dat.leavesExact; rw [liveAt0_2 t h1], after0_2]
      rw [show (dat0 V c).leavesExact 3 t = owns (c : Thread nD τ) (ms0_3 t) fullShare ((dat0 V c).after 3 t) from by
        unfold Dat.leavesExact; rw [liveAt0_3 t h1], after0_3]
      rw [acc0_later V c t h0]
      iintro ⟨⟨⟨HS0, HS1, Hr⟩, Hg⟩, Ho, ⟨%d0, H0⟩, ⟨%d1, H1⟩, ⟨%d2, H2⟩, ⟨%d3, H3⟩⟩
      iapply (run0_C c Set.univ (grid0.coords t) _ _ _ _ _ _ _ _ _ _ _ _ (fun h => h0 ((hcond0_0 t).mp h)) ((hcond0_1 t).mpr h1) (iblk0 V c 0 t) (iblk0 V c 1 t) (acc0 V c (t.val - 1) (Nat.lt_of_le_of_lt (Nat.sub_le _ _) t.isLt)).1 (acc0 V c (t.val - 1) (Nat.lt_of_le_of_lt (Nat.sub_le _ _) t.isLt)).2 _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      iexact H3
    · rw [Dat.leavesExact_idle (dat0 V c) 2 t (idleAt0_2 t h1) (noFlush0_2 t h1),
        Dat.leavesExact_idle (dat0 V c) 3 t (idleAt0_3 t h1) (noFlush0_3 t h1)]
      iintro ⟨⟨⟨HS0, HS1, Hr⟩, Hg⟩, Ho, ⟨%d0, H0⟩, ⟨%d1, H1⟩, ⟨%d2, H2⟩, ⟨%d3, H3⟩⟩
      iapply (run0_B c Set.univ (grid0.coords t) _ _ _ _ _ _ _ _ _ _ _ _ (fun h => h0 ((hcond0_0 t).mp h)) (fun h => h1 ((hcond0_1 t).mp h)) (iblk0 V c 0 t) (iblk0 V c 1 t) ((dat0 V c).before 2 t d2) ((dat0 V c).before 3 t d3) (acc0 V c (t.val - 1) (Nat.lt_of_le_of_lt (Nat.sub_le _ _) t.isLt)).1 (acc0 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the running columns' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end R0

end Cert.KernelIdeal.Hand

end
-- ==== Proof.R1A.lean ====
import proofs.«155337_j27762668601764_1_alg».proof.Proof.Gen.KernelIdeal.Launch
import proofs.«155337_j27762668601764_1_alg».proof.Proof.Gen.KernelIdeal.Skeleton
import proofs.«155337_j27762668601764_1_alg».proof.Proof.Gen.KernelIdeal.Points
import proofs.«155337_j27762668601764_1_alg».proof.Proof.BodyDefs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first column: the thresholds are computed from the row tile of x, W and the bias, kept, and used. -/
theorem run1_A (c : Dev nD) (E : Set ℕ) (i : grid1.Coords) (arg2 : Memref sig .tc .vmem S512x512 .f32) (harg2 : arg2.IsWhole) (arg3 : Memref sig .tc .vmem S512x512 .f32) (harg3 : arg3.IsWhole) (arg4 : Memref sig .tc .vmem S3x512 .f32) (harg4 : arg4.IsWhole) (arg5 : Memref sig .tc .vmem S1x3 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : cond1_0 i)
    (x0 x1 : Vec F S512x512 .f32) (x2 : Vec F S3x512 .f32) (x3 : Vec F S1x3 .f32) (x4 x5 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (tile1 x0 x1 x4 x5 (k1_pay4 x0 x2 x3) (k1_pay5 x0 x2 x3) (k1_pay6 x0 x2 x3)) ∗ owns (c : Thread nD τ) arg9 fullShare (k1_pay4 x0 x2 x3) ∗ owns (c : Thread nD τ) arg10 fullShare (k1_pay5 x0 x2 x3) ∗ owns (c : Thread nD τ) arg11 fullShare (k1_pay6 x0 x2 x3)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩, ⟨%ds0, %fs0, %hfs0, HS0⟩, ⟨%ds1, %fs1, %hfs1, HS1⟩, ⟨%ds2, %fs2, %hfs2, HS2⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_run_names
    simp only [View.readCov_cons_toLoadRect, View.readAt_eq_ld, tile1, hf0, hf1, hf2, hf3, hf4, hf5, View.ld_unit_zero (S := S512x512) hzT, View.ld_unit_zero (S := S512x1) hzC, View.ld_unit_zero (S := S3x512) hzW, View.ld_unit_zero (S := S1x3) hzB]
    exact read_writes_whole (S := S512x512) hzT _ _ _ _ _
  isplitl [HS0]
  · iexists _; isplitr
    swap; · iexact HS0
    ipureintro
    sl_unfold_run_names
    simp only [View.readCov_cons_toLoadRect, View.readAt_eq_ld, hf0, hf2, hf3, View.ld_unit_zero (S := S512x512) hzT, View.ld_unit_zero (S := S512x1) hzC, View.ld_unit_zero (S := S3x512) hzW, View.ld_unit_zero (S := S1x3) hzB]
    exact read_writes_whole (S := S512x1) hzC _ _ _ _ _
  isplitl [HS1]
  · iexists _; isplitr
    swap; · iexact HS1
    ipureintro
    sl_unfold_run_names
    simp only [View.readCov_cons_toLoadRect, View.readAt_eq_ld, hf0, hf2, hf3, View.ld_unit_zero (S := S512x512) hzT, View.ld_unit_zero (S := S512x1) hzC, View.ld_unit_zero (S := S3x512) hzW, View.ld_unit_zero (S := S1x3) hzB]
    exact read_writes_whole (S := S512x1) hzC _ _ _ _ _
  iexists _; isplitr
  swap; · iexact HS2
  ipureintro
  sl_unfold_run_names
  simp only [View.readCov_cons_toLoadRect, View.readAt_eq_ld, hf0, hf2, hf3, View.ld_unit_zero (S := S512x512) hzT, View.ld_unit_zero (S := S512x1) hzC, View.ld_unit_zero (S := S3x512) hzW, View.ld_unit_zero (S := S1x3) hzB]
  exact read_writes_whole (S := S512x1) hzC _ _ _ _ _

end Cert.KernelIdeal.Hand

end
-- ==== Proof.R1B.lean ====
import proofs.«155337_j27762668601764_1_alg».proof.Proof.Gen.KernelIdeal.Launch
import proofs.«155337_j27762668601764_1_alg».proof.Proof.Gen.KernelIdeal.Skeleton
import proofs.«155337_j27762668601764_1_alg».proof.Proof.Gen.KernelIdeal.Points
import proofs.«155337_j27762668601764_1_alg».proof.Proof.BodyDefs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A later column: the kept thresholds are read, the tile stored. -/
theorem run1_B (c : Dev nD) (E : Set ℕ) (i : grid1.Coords) (arg2 : Memref sig .tc .vmem S512x512 .f32) (harg2 : arg2.IsWhole) (arg3 : Memref sig .tc .vmem S512x512 .f32) (harg3 : arg3.IsWhole) (arg4 : Memref sig .tc .vmem S3x512 .f32) (harg4 : arg4.IsWhole) (arg5 : Memref sig .tc .vmem S1x3 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : ¬cond1_0 i)
    (x0 x1 : Vec F S512x512 .f32) (x2 : Vec F S3x512 .f32) (x3 : Vec F S1x3 .f32) (x4 x5 xs0 xs1 xs2 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (tile1 x0 x1 x4 x5 xs0 xs1 xs2) ∗ owns (c : Thread nD τ) arg9 fullShare xs0 ∗ owns (c : Thread nD τ) arg10 fullShare xs1 ∗ owns (c : Thread nD τ) arg11 fullShare xs2) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hfs0; obtain rfl := harg10.eq_unread hfs1; obtain rfl := harg11.eq_unread hfs2
  sl_exec (disch := first | exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_run_names
    simp only [View.readCov_cons_toLoadRect, View.readAt_eq_ld, tile1, hf0, hf1, hf4, hf5, hfs0, hfs1, hfs2, View.ld_unit_zero (S := S512x512) hzT, View.ld_unit_zero (S := S512x1) hzC, View.ld_unit_zero (S := S3x512) hzW, View.ld_unit_zero (S := S1x3) hzB]
    exact read_writes_whole (S := S512x512) hzT _ _ _ _ _
  isplitl [HS0]
  · iexists _; isplitr; · ipureintro; exact hfs0
    iexact HS0
  isplitl [HS1]
  · iexists _; isplitr; · ipureintro; exact hfs1
    iexact HS1
  iexists _; isplitr; · ipureintro; exact hfs2
  iexact HS2

end Cert.KernelIdeal.Hand

end
-- ==== Proof.R1Data.lean ====
import proofs.«155337_j27762668601764_1_alg».proof.Proof.Gen.KernelIdeal.Launch
import proofs.«155337_j27762668601764_1_alg».proof.Proof.Gen.KernelIdeal.Skeleton
import proofs.«155337_j27762668601764_1_alg».proof.Proof.Gen.KernelIdeal.Points
import proofs.«155337_j27762668601764_1_alg».proof.Proof.R1A
import proofs.«155337_j27762668601764_1_alg».proof.Proof.R1B
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region: its proof data, at the contents `V` the region is entered with -/

section R1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem hcond1_0 : ∀ t : Fin cfg1.N, cond1_0 (grid1.coords t) ↔ t.val % 16 = 0 :=
  (by decide +kernel : ∀ t : Fin grid1.N, cond1_0 (grid1.coords t) ↔ t.val % 16 = 0)

/-- The three scratch columns: the thresholds a, b and the exponent's s of each of the tile's 512 rows. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1 .f32 := Memref.whole cc1_scratch2

/-- The class invariant with the three scratch columns named (they come last among the scoped buffers the windows do not stage). -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The three scratch columns after the body at position `n`: computed in the first column of a row of tiles from the
    row tile of x, W and the bias; kept through the rest of the row. -/
def sc1 (c : Dev nD) : (n : ℕ) → n < cfg1.N → Vec F S512x1 .f32 × Vec F S512x1 .f32 × Vec F S512x1 .f32
  | 0, hn => (k1_pay4 (iblk1 V c 0 ⟨0, hn⟩) (iblk1 V c 2 ⟨0, hn⟩) (iblk1 V c 3 ⟨0, hn⟩), k1_pay5 (iblk1 V c 0 ⟨0, hn⟩) (iblk1 V c 2 ⟨0, hn⟩) (iblk1 V c 3 ⟨0, hn⟩), k1_pay6 (iblk1 V c 0 ⟨0, hn⟩) (iblk1 V c 2 ⟨0, hn⟩) (iblk1 V c 3 ⟨0, hn⟩))
  | n + 1, hn =>
    if (n + 1) % 16 = 0 then (k1_pay4 (iblk1 V c 0 ⟨n + 1, hn⟩) (iblk1 V c 2 ⟨n + 1, hn⟩) (iblk1 V c 3 ⟨n + 1, hn⟩), k1_pay5 (iblk1 V c 0 ⟨n + 1, hn⟩) (iblk1 V c 2 ⟨n + 1, hn⟩) (iblk1 V c 3 ⟨n + 1, hn⟩), k1_pay6 (iblk1 V c 0 ⟨n + 1, hn⟩) (iblk1 V c 2 ⟨n + 1, hn⟩) (iblk1 V c 3 ⟨n + 1, hn⟩))
    else sc1 c n (Nat.lt_of_succ_lt hn)

theorem sc1_first (c : Dev nD) (t : Fin cfg1.N) (h : t.val % 16 = 0) :
    sc1 V c t.val t.isLt = (k1_pay4 (iblk1 V c 0 t) (iblk1 V c 2 t) (iblk1 V c 3 t), k1_pay5 (iblk1 V c 0 t) (iblk1 V c 2 t) (iblk1 V c 3 t), k1_pay6 (iblk1 V c 0 t) (iblk1 V c 2 t) (iblk1 V c 3 t)) := by
  obtain ⟨n, hn⟩ := t
  cases n with
  | zero => rfl
  | succ n => exact (if_pos h).trans rfl

theorem sc1_later (c : Dev nD) (t : Fin cfg1.N) (h : ¬t.val % 16 = 0) :
    sc1 V c t.val t.isLt = sc1 V c (t.val - 1) (Nat.lt_of_le_of_lt (Nat.sub_le _ _) t.isLt) := by
  obtain ⟨n, hn⟩ := t
  cases n with
  | zero => exact absurd (Nat.zero_mod _) h
  | succ n => exact (if_neg h).trans rfl

/-- The region invariant before position `n`: at entry the class's; afterwards the three scratch columns at what the
    point before left. -/
def PhiS1 (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare (sc1 V c n hn).1 ∗ owns (c : Thread nD τ) scM1_1 fullShare (sc1 V c n hn).2.1 ∗ owns (c : Thread nD τ) scM1_2 fullShare (sc1 V c n hn).2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare (sc1 V c n hn).1 ∗ owns (c : Thread nD τ) scM1_1 fullShare (sc1 V c n hn).2.1 ∗ owns (c : Thread nD τ) scM1_2 fullShare (sc1 V c n hn).2.2) ∗ (∃ r, prngReg c r)) := rfl
theorem PhiS1_pos (c : Dev nD) (n : ℕ) (h : n ≤ cfg1.N) (hz : n ≠ 0) :
    PhiS1 V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare (sc1 V c (n - 1) (by omega)).1 ∗ owns (c : Thread nD τ) scM1_1 fullShare (sc1 V c (n - 1) (by omega)).2.1 ∗ owns (c : Thread nD τ) scM1_2 fullShare (sc1 V c (n - 1) (by omega)).2.2) ∗ (∃ r, prngReg c r)) := by
  cases n with
  | zero => exact absurd rfl hz
  | succ n => rfl

/-- The arrays as the region finds them; after the body each input's buffer at its block and the result's at the
    masked tile, its thresholds those of the row of tiles; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => tile1 (iblk1 V c 0 t) (iblk1 V c 1 t) (iblk1 V c 4 t) (iblk1 V c 5 t) (sc1 V c t.val t.isLt).1 (sc1 V c t.val t.isLt).2.1 (sc1 V c t.val t.isLt).2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = tile1 (iblk1 V c 0 t) (iblk1 V c 1 t) (iblk1 V c 4 t) (iblk1 V c 5 t) (sc1 V c t.val t.isLt).1 (sc1 V c t.val t.isLt).2.1 (sc1 V c t.val t.isLt).2.2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

end R1

end Cert.KernelIdeal.Hand

end
-- ==== Proof.R1Ob.lean ====
import proofs.«155337_j27762668601764_1_alg».proof.Proof.Gen.KernelIdeal.Launch
import proofs.«155337_j27762668601764_1_alg».proof.Proof.Gen.KernelIdeal.Skeleton
import proofs.«155337_j27762668601764_1_alg».proof.Proof.Gen.KernelIdeal.Points
import proofs.«155337_j27762668601764_1_alg».proof.Proof.R1Data
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region: the body obligation -/

section R1

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4800000 in
/-- The body at any point: the six inputs' buffers hold their blocks; in the first column of a row of tiles the three
    thresholds are computed and the invariant takes them, elsewhere it hands them over and takes them back unchanged;
    the result's buffer ends at the masked tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6]
  have hN : t.val < 128 := lt_of_lt_of_eq t.isLt (show cfg1.N = 128 from N_1)
  by_cases h0 : t.val % 16 = 0
  · rw [sc1_first V c t h0]
    by_cases hz : t.val = 0
    · rw [PhiS1_castSucc V c t, PhiS1_zero V c _ _ hz, PhiA1_eq]
      iintro ⟨⟨⟨R0, R1, R2, R3, R4, R5, R6, R7, R8, R9, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run1_A c Set.univ (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [R0 R1 R2 R3 R4 R5 R6 R7 R8 R9 HS0 HS1 HS2 Hg]
      · isplitl [R0 R1 R2 R3 R4 R5 R6 R7 R8 R9 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS1_castSucc V c t, PhiS1_pos V c _ _ hz]
      iintro ⟨⟨⟨R0, R1, R2, R3, R4, R5, R6, R7, R8, R9, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run1_A c Set.univ (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      isplitl [HS1]; · iexists _; iexact HS1
      isplitl [HS2]; · iexists _; iexact HS2
      iintro ⟨H0, H1, H2, H3, H4, H5, H6, HS0, HS1, HS2⟩
      isplitl [R0 R1 R2 R3 R4 R5 R6 R7 R8 R9 HS0 HS1 HS2 Hg]
      · isplitl [R0 R1 R2 R3 R4 R5 R6 R7 R8 R9 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun h => h0 (by rw [h])
    rw [sc1_later V c t h0]
    rw [PhiS1_castSucc V c t, PhiS1_pos V c _ _ hz]
    · iintro ⟨⟨⟨R0, R1, R2, R3, R4, R5, R6, R7, R8, R9, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run1_B c Set.univ (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (sc1 V c (t.val - 1) (Nat.lt_of_le_of_lt (Nat.sub_le _ _) t.isLt)).1 (sc1 V c (t.val - 1) (Nat.lt_of_le_of_lt (Nat.sub_le _ _) t.isLt)).2.1 (sc1 V c (t.val - 1) (Nat.lt_of_le_of_lt (Nat.sub_le _ _) t.isLt)).2.2 _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [R0 R1 R2 R3 R4 R5 R6 R7 R8 R9 HS0 HS1 HS2 Hg]
      · isplitl [R0 R1 R2 R3 R4 R5 R6 R7 R8 R9 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the kept thresholds are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨R0, R1, R2, R3, R4, R5, R6, R7, R8, R9, HS0, HS1, HS2⟩, Hg⟩
  isplitl [R0 R1 R2 R3 R4 R5 R6 R7 R8 R9 HS0 HS1 HS2]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HS0]; · iexists _; iexact HS0
    isplitl [HS1]; · iexists _; iexact HS1
    iexists _; iexact HS2
  iexact Hg

end R1

end Cert.KernelIdeal.Hand

end
-- ==== Proof.Run.lean ====
import proofs.«155337_j27762668601764_1_alg».proof.Proof.Gen.KernelIdeal.Launch
import proofs.«155337_j27762668601764_1_alg».proof.Proof.Gen.KernelIdeal.Skeleton
import proofs.«155337_j27762668601764_1_alg».proof.Proof.Gen.KernelIdeal.Points
import proofs.«155337_j27762668601764_1_alg».proof.Proof.R0Ob
import proofs.«155337_j27762668601764_1_alg».proof.Proof.R1Ob
import proofs.«155337_j27762668601764_1_alg».proof.Proof.Gen.KernelIdeal.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's three items — the first region, the reshape of the bias, the second region — from the launch to
    the return, every unscoped buffer's contents named at each boundary -/

variable (m : (ℓ : Loc nD τ sig) → Buf (Elt F) ℓ) (ρ : Dev nD → PrngReg)

/-- Core `c`'s buffers at launch. -/
abbrev W0 : Dev nD → Valuation τ sig (Elt F) := fun c b => m (c, b)
abbrev U0 : (c : Dev nD) → (b : Ref sig .tc) → Buf (Elt F) ((c : Thread nD τ).loc b) := fun c b => W0 m c b
/-- After the first region: its arrays at what its write-backs leave, every other buffer as before. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)
/-- After the reshape of the bias. -/
abbrev W2 (c : Dev nD) : Valuation τ sig (Elt F) := StableHlo.after hostOps1 (W1 m c)
abbrev U2 : (c : Dev nD) → (b : Ref sig .tc) → Buf (Elt F) ((c : Thread nD τ).loc b) := fun c b => W2 m c b
theorem W2_of (c : Dev nD) (r : Ref sig .tc) (h : r ∉ hostOps1_W) : W2 m c r = W1 m c r :=
  StableHlo.after_of_writes_sub hostOps1 _ hostOps1_writes h
/-- After the second region. -/
def W3 (c : Dev nD) : Valuation τ sig (Elt F) :=
  Pipeline.withArrays spec1 c (W2 m c) fun w => (dat1 (U2 m) c).arrAt w cfg1.N
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (U2 m) c).arrAt_in 0 rfl _).trans (A_eq1 (U2 m) c 0))
    _ = W1 m c (Proc.devRef .tc main_arg0) := W2_of m c main_arg0 (by decide)
    _ = W0 m c (Proc.devRef .tc main_arg0) := (W1_arr m c 0).trans (((dat0 (U0 m) c).arrAt_in 0 rfl _).trans (A_eq0 (U0 m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 1).trans (((dat1 (U2 m) c).arrAt_in 1 rfl _).trans (A_eq1 (U2 m) c 1))
    _ = W1 m c (Proc.devRef .tc main_arg1) := W2_of m c main_arg1 (by decide)
    _ = W0 m c (Proc.devRef .tc main_arg1) := (W1_arr m c 1).trans (((dat0 (U0 m) c).arrAt_in 1 rfl _).trans (A_eq0 (U0 m) c 1))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 2).trans (((dat1 (U2 m) c).arrAt_in 2 rfl _).trans (A_eq1 (U2 m) c 2))
    _ = W1 m c (Proc.devRef .tc main_arg2) := W2_of m c main_arg2 (by decide)
    _ = W0 m c (Proc.devRef .tc main_arg2) := W1_of_ne m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of m c main_arg3 (by decide)
    _ = W0 m c (Proc.devRef .tc main_arg3) := W1_of_ne m c main_arg3 (by decide)
    _ = m ((c : Thread nD τ).loc main_arg3) := rfl
/-- The result buffer ends at what the second region's write-backs leave. -/
theorem W3_main_v2 (c : Dev nD) : W3 m c (Proc.devRef .tc main_v2) = (dat1 (U2 m) c).arrAt 6 cfg1.N := W3_arr m c 6

/-! ## The proof data family and the thread state -/

abbrev admK : (p : Fin 2) → (pcfgs (F := F) p).Adm := fun p => (cfgs p).toPCfg_adm
def pdatsK : (p : Fin 2) → (c : Dev nD) → Dat τ (Elt F) Unit ℕ (UR sig nD τ) ℕ (Pipeline.pin (pcfgs (F := F)) admK p) c
  | ⟨0, _⟩ => fun c => dat0 (U0 m) c
  | ⟨1, _⟩ => fun c => dat1 (U2 m) c
abbrev 𝒱K : Variants := Variants.none
abbrev LK : GSem nD τ sig → Finset Unit := fun _ => ∅
abbrev lvK : GSem nD τ sig → Unit → ℕ := fun _ _ => 0
/-- What rides beside the buffers through every item: the generator register at some state, and nothing owed. -/
abbrev RK (c : Dev nD) : sProp 𝕄 := iprop((∃ r, prngReg c r) ∗ ∃ W, owes (c : Thread nD τ) (0 : CellTallies nD τ sig Unit) W)
abbrev hsegK (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnK (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region: entered from every unscoped buffer at the launch contents, left at `W1`. -/
def reg0 : Pipeline.RegionSeg (pcfgs (F := F)) admK (pdatsK m) () defs₀ 𝒱K LK lvK 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ LK lvK 0 fun _ _ => rfl
  pre c := iprop(StableHlo.held (c : Thread nD τ) (Pipeline.ucRefs τ sig) (W0 m c) ∗ RK c)
  post c := iprop(StableHlo.held (c : Thread nD τ) (Pipeline.ucRefs τ sig) (W1 m c) ∗ RK c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) admK (pdatsK m) launch0.win launch0.arr_whole c
      ((pdatsK m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (U0 m) c)
    unfold Pipeline.ΦA
    iintro ⟨Hp, -, Hr⟩
    isplitl [Hr]; · iexact Hr
    iexact Hp
  hout c := by
    refine (hout0 (U0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdatsK m) ((pdatsK m 0 c).share_full fun _ => rfl)
      (U0 m c) (U1 m c) ((pdatsK m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. -/
def reg1 : Pipeline.RegionSeg (pcfgs (F := F)) admK (pdatsK m) () defs₀ 𝒱K LK lvK 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ LK lvK 1 fun _ _ => rfl
  pre c := iprop(StableHlo.held (c : Thread nD τ) (Pipeline.ucRefs τ sig) (W2 m c) ∗ RK c)
  post c := iprop(TnK m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) admK (pdatsK m) launch1.win launch1.arr_whole c
      ((pdatsK m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (U2 m) c)
    unfold Pipeline.ΦA
    iintro ⟨Hp, -, Hr⟩
    isplitl [Hr]; · iexact Hr
    iexact Hp
  hout c := by
    refine (hout1 (U2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdatsK m) ((pdatsK m 1 c).share_full fun _ => rfl)
      (U2 m c) (U3 m c) ((pdatsK m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsK : List (Pipeline.Seg (pcfgs (F := F)) admK (pdatsK m) () defs₀ 𝒱K LK lvK) :=
  [ .region (reg0 m),
    .host (hsegK hostOps1 hostOps1_sub hostOps1_fresh (W1 m)),
    .region (reg1 m) ]
theorem main_runK (c : Dev nD) : main (F := F) c = Pipeline.Seg.run (segsK m) := (main_chain c).trans (by chain_rfl)

set_option backward.isDefEq.respectTransparency.types false in
/-- From any memory with zero counters every weakly fair execution of @main terminates, nothing faulting, and every
    final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) admK (pdatsK m) () cellOf_inj emb₁ defs₀ 𝒱K LK lvK m ρ main (segsK m)
    (fun c Q => by rw [main_runK m c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RK c)) (Tₙ := TnK m)
    (hch := ⟨fun _ => .rfl, fun _ => .rfl, fun _ => .rfl, fun _ => .rfl⟩)
    (hinit := by
      refine Pipeline.initEach LK lvK fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩) (run_all m ρ)

/-- The run with the result named: the result buffer ends at what the second region's write-backs leave. -/
theorem run_result : θ_run defs (onTc (τ := τ) (main (F := F))) ⟨m, fun _ => 0, ρ⟩ (fun r => ∀ c : Dev nD,
      r.2.mem ((c.tc : Thread nD τ).loc main_v2) = (dat1 (U2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c _ (mem_uc main_v2 (by decide))).trans (W3_main_v2 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩) (run_all m ρ)

end Cert.KernelIdeal.Hand

end
-- ==== Proof.Bits.BodyDefs.lean ====
import proofs.«155337_j27762668601764_1_alg».proof.Proof.Gen.Kernel.Launch
import proofs.«155337_j27762668601764_1_alg».proof.Proof.Gen.Kernel.Skeleton
import proofs.«155337_j27762668601764_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The two kernels' bodies: what is shared -/

/-- The whole of a buffer of each shape the bodies touch, as their loads and stores name it. -/
abbrev rC : Rect S512x1 := Rect.unit (s := S512x1) ![0, 0] S512x1.size inb_S512x1_S512x1_0_0
abbrev rT : Rect S512x512 := Rect.unit (s := S512x512) ![0, 0] S512x512.size inb_S512x512_S512x512_0_0
abbrev rW : Rect S3x512 := Rect.unit (s := S3x512) ![0, 0] S3x512.size inb_S3x512_S3x512_0_0
abbrev rB : Rect S1x3 := Rect.unit (s := S1x3) ![0, 0] S1x3.size inb_S1x3_S1x3_0_0

/-- The first kernel. The first column of a row of tiles: the running values are reset there. -/
abbrev cond0_0 (i : grid0.Coords) : Prop := (Scalar.cmpi .ne (Scalar.extui (Scalar.cmpi .eq (BitVec.ofNat 32 (i 1).val) 0#32)) 0#32) = 1#1
/-- The last column: the running values are written out there. -/
abbrev cond0_1 (i : grid0.Coords) : Prop := k0_cond2 i = 1#1
/-- The second kernel. The first column of a row of tiles: the three thresholds are computed and kept there. -/
abbrev cond1_0 (i : grid1.Coords) : Prop := (Scalar.cmpi .ne (Scalar.extui (Scalar.cmpi .eq (BitVec.ofNat 32 (i 1).val) 0#32)) 0#32) = 1#1

theorem hzC : (![0, 0] : Fin S512x1.rank → Nat) = fun _ => 0 := by funext a; fin_cases a <;> rfl
theorem hzT : (![0, 0] : Fin S512x512.rank → Nat) = fun _ => 0 := by funext a; fin_cases a <;> rfl
theorem hzW : (![0, 0] : Fin S3x512.rank → Nat) = fun _ => 0 := by funext a; fin_cases a <;> rfl
theorem hzB : (![0, 0] : Fin S1x3.rank → Nat) = fun _ => 0 := by funext a; fin_cases a <;> rfl

/-- A buffer whose last store was of the whole shape reads back as that store's payload, whatever came before. -/
theorem read_writes_whole {sg : RefSig} {κ : Kind} {sp : Space} {S : Shape} {e : EltTy} {off : Fin S.rank → Nat} (h : off = fun _ => 0)
    (inb : ∀ a, off a + S.size a ≤ S.size a) (v : View sg κ sp S e) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩)]
  exact View.canon_cons_unit_zero h inb w L

/-- The tile the second kernel stores: the scaled products, normalised by the row's least and greatest entry, masked
    between the thresholds a, b with exponent 1 / s. -/
def tile1 (x0 x1 : Vec F S512x512 .f32) (x4 x5 a b s : Vec F S512x1 .f32) : Vec F S512x512 .f32 :=
  k1_pay1 (k1_pay7 x0 x1) (k1_pay8 x0 x1 x4 x5) a b (k1_pay10 x0 x1 x4 x5 a s) (k1_pay11 x0 x1 x4 x5 b s) (Scalar.ofBits .f32 0x2B8CBCCC#32)

end Cert.Kernel.Hand

end
-- ==== Proof.Bits.R0A.lean ====
import proofs.«155337_j27762668601764_1_alg».proof.Proof.Gen.Kernel.Launch
import proofs.«155337_j27762668601764_1_alg».proof.Proof.Gen.Kernel.Skeleton
import proofs.«155337_j27762668601764_1_alg».proof.Proof.Gen.Kernel.Points
import proofs.«155337_j27762668601764_1_alg».proof.Proof.Bits.BodyDefs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first column: the running values start from +inf / -inf, whatever the scratch held. -/
theorem run0_A (c : Dev nD) (E : Set ℕ) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : cond0_0 i) (hc1 : ¬cond0_1 i)
    (x0 x1 : Vec F S512x512 .f32) (xi2 xi3 : Vec F S512x1 .f32) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare (k0_pay4 x0 x1 k0_pay1) ∗ owns (c : Thread nD τ) arg7 fullShare (k0_pay5 x0 x1 k0_pay2)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%f3, %hf3, H3⟩, ⟨%ds0, %fs0, %hfs0, HS0⟩, ⟨%ds1, %fs1, %hfs1, HS1⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HS0]
  · iexists _; isplitr
    swap; · iexact HS0
    ipureintro
    sl_unfold_run_names
    simp only [View.readCov_cons_toLoadRect, View.readAt_eq_ld, hf0, hf1, View.ld_unit_zero (S := S512x512) hzT, View.ld_unit_zero (S := S512x1) hzC, View.ld_unit_zero (S := S3x512) hzW, View.ld_unit_zero (S := S1x3) hzB]
    exact read_writes_whole (S := S512x1) hzC _ _ _ _ _
  iexists _; isplitr
  swap; · iexact HS1
  ipureintro
  sl_unfold_run_names
  simp only [View.readCov_cons_toLoadRect, View.readAt_eq_ld, hf0, hf1, View.ld_unit_zero (S := S512x512) hzT, View.ld_unit_zero (S := S512x1) hzC, View.ld_unit_zero (S := S3x512) hzW, View.ld_unit_zero (S := S1x3) hzB]
  exact read_writes_whole (S := S512x1) hzC _ _ _ _ _

end Cert.Kernel.Hand

end
-- ==== Proof.Bits.R0B.lean ====
import proofs.«155337_j27762668601764_1_alg».proof.Proof.Gen.Kernel.Launch
import proofs.«155337_j27762668601764_1_alg».proof.Proof.Gen.Kernel.Skeleton
import proofs.«155337_j27762668601764_1_alg».proof.Proof.Gen.Kernel.Points
import proofs.«155337_j27762668601764_1_alg».proof.Proof.Bits.BodyDefs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle column: both running values are folded with the tile's row minima / maxima; nothing is written out. -/
theorem run0_B (c : Dev nD) (E : Set ℕ) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬cond0_0 i) (hc1 : ¬cond0_1 i)
    (x0 x1 : Vec F S512x512 .f32) (xi2 xi3 xs0 xs1 : Vec F S512x1 .f32) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare (k0_pay4 x0 x1 xs0) ∗ owns (c : Thread nD τ) arg7 fullShare (k0_pay5 x0 x1 xs1)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hfs0; obtain rfl := harg7.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HS0]
  · iexists _; isplitr
    swap; · iexact HS0
    ipureintro
    sl_unfold_run_names
    simp only [View.readCov_cons_toLoadRect, View.readAt_eq_ld, hf0, hf1, hfs0, View.ld_unit_zero (S := S512x512) hzT, View.ld_unit_zero (S := S512x1) hzC, View.ld_unit_zero (S := S3x512) hzW, View.ld_unit_zero (S := S1x3) hzB]
    exact read_writes_whole (S := S512x1) hzC _ _ _ _ _
  iexists _; isplitr
  swap; · iexact HS1
  ipureintro
  sl_unfold_run_names
  simp only [View.readCov_cons_toLoadRect, View.readAt_eq_ld, hf0, hf1, hfs1, View.ld_unit_zero (S := S512x512) hzT, View.ld_unit_zero (S := S512x1) hzC, View.ld_unit_zero (S := S3x512) hzW, View.ld_unit_zero (S := S1x3) hzB]
  exact read_writes_whole (S := S512x1) hzC _ _ _ _ _

end Cert.Kernel.Hand

end
-- ==== Proof.Bits.R0C.lean ====
import proofs.«155337_j27762668601764_1_alg».proof.Proof.Gen.Kernel.Launch
import proofs.«155337_j27762668601764_1_alg».proof.Proof.Gen.Kernel.Skeleton
import proofs.«155337_j27762668601764_1_alg».proof.Proof.Gen.Kernel.Points
import proofs.«155337_j27762668601764_1_alg».proof.Proof.Bits.BodyDefs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last column: the folded running values are also written out to the two result blocks. -/
theorem run0_C (c : Dev nD) (E : Set ℕ) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)
    (hc0 : ¬cond0_0 i) (hc1 : cond0_1 i)
    (x0 x1 : Vec F S512x512 .f32) (xs0 xs1 : Vec F S512x1 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare (k0_pay4 x0 x1 xs0) ∗ owns (c : Thread nD τ) arg5 fullShare (k0_pay5 x0 x1 xs1) ∗ owns (c : Thread nD τ) arg6 fullShare (k0_pay4 x0 x1 xs0) ∗ owns (c : Thread nD τ) arg7 fullShare (k0_pay5 x0 x1 xs1)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%d2, %f2, %hf2, H2⟩, ⟨%d3, %f3, %hf3, H3⟩, ⟨%fs0, %hfs0, HS0⟩, ⟨%fs1, %hfs1, HS1⟩, Hk⟩
  obtain rfl := harg2.eq_unread hf0; obtain rfl := harg3.eq_unread hf1
  obtain rfl := harg6.eq_unread hfs0; obtain rfl := harg7.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_run_names
    simp only [View.readCov_cons_toLoadRect, View.readAt_eq_ld, hf0, hf1, hfs0, View.ld_unit_zero (S := S512x512) hzT, View.ld_unit_zero (S := S512x1) hzC, View.ld_unit_zero (S := S3x512) hzW, View.ld_unit_zero (S := S1x3) hzB]
    exact read_writes_whole (S := S512x1) hzC _ _ _ _ _
  isplitl [H3]
  · iexists _; isplitr
    swap; · iexact H3
    ipureintro
    sl_unfold_run_names
    simp only [View.readCov_cons_toLoadRect, View.readAt_eq_ld, hf0, hf1, hfs1, View.ld_unit_zero (S := S512x512) hzT, View.ld_unit_zero (S := S512x1) hzC, View.ld_unit_zero (S := S3x512) hzW, View.ld_unit_zero (S := S1x3) hzB]
    exact read_writes_whole (S := S512x1) hzC _ _ _ _ _
  isplitl [HS0]
  · iexists _; isplitr
    swap; · iexact HS0
    ipureintro
    sl_unfold_run_names
    simp only [View.readCov_cons_toLoadRect, View.readAt_eq_ld, hf0, hf1, hfs0, View.ld_unit_zero (S := S512x512) hzT, View.ld_unit_zero (S := S512x1) hzC, View.ld_unit_zero (S := S3x512) hzW, View.ld_unit_zero (S := S1x3) hzB]
    exact read_writes_whole (S := S512x1) hzC _ _ _ _ _
  iexists _; isplitr
  swap; · iexact HS1
  ipureintro
  sl_unfold_run_names
  simp only [View.readCov_cons_toLoadRect, View.readAt_eq_ld, hf0, hf1, hfs1, View.ld_unit_zero (S := S512x512) hzT, View.ld_unit_zero (S := S512x1) hzC, View.ld_unit_zero (S := S3x512) hzW, View.ld_unit_zero (S := S1x3) hzB]
  exact read_writes_whole (S := S512x1) hzC _ _ _ _ _

end Cert.Kernel.Hand

end
-- ==== Proof.Bits.R0Data.lean ====
import proofs.«155337_j27762668601764_1_alg».proof.Proof.Gen.Kernel.Launch
import proofs.«155337_j27762668601764_1_alg».proof.Proof.Gen.Kernel.Skeleton
import proofs.«155337_j27762668601764_1_alg».proof.Proof.Gen.Kernel.Points
import proofs.«155337_j27762668601764_1_alg».proof.Proof.Bits.R0A
import proofs.«155337_j27762668601764_1_alg».proof.Proof.Bits.R0B
import proofs.«155337_j27762668601764_1_alg».proof.Proof.Bits.R0C
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region: its proof data and body obligation, at the contents `V` the region is entered with -/

section R0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The grid: 8 rows of 16 columns of tiles; point t is row t / 16, column t % 16 -/

theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
/-- The two result windows are written only in the last column, and written back only there. -/
theorem idleAt0_2 : ∀ t : Fin cfg0.N, ¬t.val % 16 = 15 → cfg0.idle 2 (grid0.coords t) = true := by decide +kernel
theorem idleAt0_3 : ∀ t : Fin cfg0.N, ¬t.val % 16 = 15 → cfg0.idle 3 (grid0.coords t) = true := by decide +kernel
theorem liveAt0_2 : ∀ t : Fin cfg0.N, t.val % 16 = 15 → cfg0.idle 2 (grid0.coords t) = false := by decide +kernel
theorem liveAt0_3 : ∀ t : Fin cfg0.N, t.val % 16 = 15 → cfg0.idle 3 (grid0.coords t) = false := by decide +kernel
theorem noFlush0_2 : ∀ t : Fin cfg0.N, ¬t.val % 16 = 15 → (cfg0.win 2).flush t = false := by decide +kernel
theorem noFlush0_3 : ∀ t : Fin cfg0.N, ¬t.val % 16 = 15 → (cfg0.win 3).flush t = false := by decide +kernel

/-! ## The memrefs the body is called with -/

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
/-- The two scratch columns: the running least and the running greatest entry of each of the tile's 512 rows. -/
abbrev scM0_0 : Memref sig .tc .vmem S512x1 .f32 := Memref.whole cc0_scratch0
abbrev scM0_1 : Memref sig .tc .vmem S512x1 .f32 := Memref.whole cc0_scratch1

/-- The scoped buffers the first kernel never touches, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The class invariant with the two scratch columns named. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-! ## The running values after each point -/

/-- The two scratch columns after the body at position `n`: in the first column of a row of tiles the fold starts
    from +inf / -inf, elsewhere from what the point before left. -/
def acc0 (c : Dev nD) : (n : ℕ) → n < cfg0.N → Vec F S512x1 .f32 × Vec F S512x1 .f32
  | 0, hn => (k0_pay4 (iblk0 V c 0 ⟨0, hn⟩) (iblk0 V c 1 ⟨0, hn⟩) k0_pay1, k0_pay5 (iblk0 V c 0 ⟨0, hn⟩) (iblk0 V c 1 ⟨0, hn⟩) k0_pay2)
  | n + 1, hn =>
    if (n + 1) % 16 = 0 then
      (k0_pay4 (iblk0 V c 0 ⟨n + 1, hn⟩) (iblk0 V c 1 ⟨n + 1, hn⟩) k0_pay1, k0_pay5 (iblk0 V c 0 ⟨n + 1, hn⟩) (iblk0 V c 1 ⟨n + 1, hn⟩) k0_pay2)
    else
      (k0_pay4 (iblk0 V c 0 ⟨n + 1, hn⟩) (iblk0 V c 1 ⟨n + 1, hn⟩) (acc0 c n (Nat.lt_of_succ_lt hn)).1,
       k0_pay5 (iblk0 V c 0 ⟨n + 1, hn⟩) (iblk0 V c 1 ⟨n + 1, hn⟩) (acc0 c n (Nat.lt_of_succ_lt hn)).2)

theorem acc0_first (c : Dev nD) (t : Fin cfg0.N) (h : t.val % 16 = 0) :
    acc0 V c t.val t.isLt = (k0_pay4 (iblk0 V c 0 t) (iblk0 V c 1 t) k0_pay1, k0_pay5 (iblk0 V c 0 t) (iblk0 V c 1 t) k0_pay2) := by
  obtain ⟨n, hn⟩ := t
  cases n with
  | zero => rfl
  | succ n => exact (if_pos h).trans rfl

theorem acc0_later (c : Dev nD) (t : Fin cfg0.N) (h : ¬t.val % 16 = 0) :
    acc0 V c t.val t.isLt = (k0_pay4 (iblk0 V c 0 t) (iblk0 V c 1 t) (acc0 V c (t.val - 1) (Nat.lt_of_le_of_lt (Nat.sub_le _ _) t.isLt)).1,
      k0_pay5 (iblk0 V c 0 t) (iblk0 V c 1 t) (acc0 V c (t.val - 1) (Nat.lt_of_le_of_lt (Nat.sub_le _ _) t.isLt)).2) := by
  obtain ⟨n, hn⟩ := t
  cases n with
  | zero => exact absurd (Nat.zero_mod _) h
  | succ n => exact (if_neg h).trans rfl

/-- The region invariant before position `n`: at entry the class's; afterwards the two scratch columns at what the
    point before left, the other scoped buffers at anything, the generator register at some state. -/
def PhiS0 (c : Dev nD) : (n : ℕ) → n ≤ cfg0.N → sProp 𝕄
  | 0, _ => Pipeline.ΦA spec0 c
  | n + 1, hn => iprop((owns (c : Thread nD τ) scM0_0 fullShare (acc0 V c n hn).1 ∗ owns (c : Thread nD τ) scM0_1 fullShare (acc0 V c n hn).2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0_0 fullShare (acc0 V c n hn).1 ∗ owns (c : Thread nD τ) scM0_1 fullShare (acc0 V c n hn).2 ∗ rest0 (F := F) c) ∗ (∃ r, prngReg c r)) := rfl
theorem PhiS0_pos (c : Dev nD) (n : ℕ) (h : n ≤ cfg0.N) (hz : n ≠ 0) :
    PhiS0 V c n h = iprop((owns (c : Thread nD τ) scM0_0 fullShare (acc0 V c (n - 1) (by omega)).1 ∗ owns (c : Thread nD τ) scM0_1 fullShare (acc0 V c (n - 1) (by omega)).2 ∗ rest0 (F := F) c) ∗ (∃ r, prngReg c r)) := by
  cases n with
  | zero => exact absurd rfl hz
  | succ n => rfl

/-! ## The proof data -/

/-- The arrays as the region finds them; after the body each input's buffer at its block, each result's at the
    running value (written only in the last column, where it is the row's least / greatest entry); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end R0

end Cert.Kernel.Hand

end
-- ==== Proof.Bits.R0Ob.lean ====
import proofs.«155337_j27762668601764_1_alg».proof.Proof.Gen.Kernel.Launch
import proofs.«155337_j27762668601764_1_alg».proof.Proof.Gen.Kernel.Skeleton
import proofs.«155337_j27762668601764_1_alg».proof.Proof.Gen.Kernel.Points
import proofs.«155337_j27762668601764_1_alg».proof.Proof.Bits.R0Data
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region: the body obligation -/

section R0

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the column decides the case; the invariant hands the
    body the two running columns at what the point before left (at anything in a first column) and takes them back
    at this point's values; the result buffers are written in the last column and untouched elsewhere. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · have h1 : ¬t.val % 16 = 15 := by omega
    rw [Dat.leavesExact_idle (dat0 V c) 2 t (idleAt0_2 t h1) (noFlush0_2 t h1),
      Dat.leavesExact_idle (dat0 V c) 3 t (idleAt0_3 t h1) (noFlush0_3 t h1)]
    rw [acc0_first V c t h0]
    by_cases hz : t.val = 0
    · rw [PhiS0_castSucc V c t, PhiS0_zero V c _ _ hz, PhiA0_eq]
      iintro ⟨⟨⟨HS0, HS1, Hr⟩, Hg⟩, Ho, ⟨%d0, H0⟩, ⟨%d1, H1⟩, ⟨%d2, H2⟩, ⟨%d3, H3⟩⟩
      iapply (run0_A c Set.univ (grid0.coords t) _ _ _ _ _ _ _ _ _ _ _ _ ((hcond0_0 t).mpr h0) (fun h => h1 ((hcond0_1 t).mp h)) (iblk0 V c 0 t) (iblk0 V c 1 t) ((dat0 V c).before 2 t d2) ((dat0 V c).before 3 t d3) _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexists _; iexact H2
      iexists _; iexact H3
    · rw [PhiS0_castSucc V c t, PhiS0_pos V c _ _ hz]
      iintro ⟨⟨⟨HS0, HS1, Hr⟩, Hg⟩, Ho, ⟨%d0, H0⟩, ⟨%d1, H1⟩, ⟨%d2, H2⟩, ⟨%d3, H3⟩⟩
      iapply (run0_A c Set.univ (grid0.coords t) _ _ _ _ _ _ _ _ _ _ _ _ ((hcond0_0 t).mpr h0) (fun h => h1 ((hcond0_1 t).mp h)) (iblk0 V c 0 t) (iblk0 V c 1 t) ((dat0 V c).before 2 t d2) ((dat0 V c).before 3 t d3) _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexists _; iexact H2
      iexists _; iexact H3
  · have hz : t.val ≠ 0 := fun h => h0 (by rw [h])
    rw [acc0_later V c t h0]
    rw [PhiS0_castSucc V c t, PhiS0_pos V c _ _ hz]
    by_cases h1 : t.val % 16 = 15
    · rw [show (dat0 V c).leavesExact 2 t = owns (c : Thread nD τ) (ms0_2 t) fullShare ((dat0 V c).after 2 t) from by
        unfold Dat.leavesExact; rw [liveAt0_2 t h1], after0_2]
      rw [show (dat0 V c).leavesExact 3 t = owns (c : Thread nD τ) (ms0_3 t) fullShare ((dat0 V c).after 3 t) from by
        unfold Dat.leavesExact; rw [liveAt0_3 t h1], after0_3]
      rw [acc0_later V c t h0]
      iintro ⟨⟨⟨HS0, HS1, Hr⟩, Hg⟩, Ho, ⟨%d0, H0⟩, ⟨%d1, H1⟩, ⟨%d2, H2⟩, ⟨%d3, H3⟩⟩
      iapply (run0_C c Set.univ (grid0.coords t) _ _ _ _ _ _ _ _ _ _ _ _ (fun h => h0 ((hcond0_0 t).mp h)) ((hcond0_1 t).mpr h1) (iblk0 V c 0 t) (iblk0 V c 1 t) (acc0 V c (t.val - 1) (Nat.lt_of_le_of_lt (Nat.sub_le _ _) t.isLt)).1 (acc0 V c (t.val - 1) (Nat.lt_of_le_of_lt (Nat.sub_le _ _) t.isLt)).2 _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      iexact H3
    · rw [Dat.leavesExact_idle (dat0 V c) 2 t (idleAt0_2 t h1) (noFlush0_2 t h1),
        Dat.leavesExact_idle (dat0 V c) 3 t (idleAt0_3 t h1) (noFlush0_3 t h1)]
      iintro ⟨⟨⟨HS0, HS1, Hr⟩, Hg⟩, Ho, ⟨%d0, H0⟩, ⟨%d1, H1⟩, ⟨%d2, H2⟩, ⟨%d3, H3⟩⟩
      iapply (run0_B c Set.univ (grid0.coords t) _ _ _ _ _ _ _ _ _ _ _ _ (fun h => h0 ((hcond0_0 t).mp h)) (fun h => h1 ((hcond0_1 t).mp h)) (iblk0 V c 0 t) (iblk0 V c 1 t) ((dat0 V c).before 2 t d2) ((dat0 V c).before 3 t d3) (acc0 V c (t.val - 1) (Nat.lt_of_le_of_lt (Nat.sub_le _ _) t.isLt)).1 (acc0 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the running columns' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end R0

end Cert.Kernel.Hand

end
-- ==== Proof.Bits.R1A.lean ====
import proofs.«155337_j27762668601764_1_alg».proof.Proof.Gen.Kernel.Launch
import proofs.«155337_j27762668601764_1_alg».proof.Proof.Gen.Kernel.Skeleton
import proofs.«155337_j27762668601764_1_alg».proof.Proof.Gen.Kernel.Points
import proofs.«155337_j27762668601764_1_alg».proof.Proof.Bits.BodyDefs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first column: the thresholds are computed from the row tile of x, W and the bias, kept, and used. -/
theorem run1_A (c : Dev nD) (E : Set ℕ) (i : grid1.Coords) (arg2 : Memref sig .tc .vmem S512x512 .f32) (harg2 : arg2.IsWhole) (arg3 : Memref sig .tc .vmem S512x512 .f32) (harg3 : arg3.IsWhole) (arg4 : Memref sig .tc .vmem S3x512 .f32) (harg4 : arg4.IsWhole) (arg5 : Memref sig .tc .vmem S1x3 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : cond1_0 i)
    (x0 x1 : Vec F S512x512 .f32) (x2 : Vec F S3x512 .f32) (x3 : Vec F S1x3 .f32) (x4 x5 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (tile1 x0 x1 x4 x5 (k1_pay4 x0 x2 x3) (k1_pay5 x0 x2 x3) (k1_pay6 x0 x2 x3)) ∗ owns (c : Thread nD τ) arg9 fullShare (k1_pay4 x0 x2 x3) ∗ owns (c : Thread nD τ) arg10 fullShare (k1_pay5 x0 x2 x3) ∗ owns (c : Thread nD τ) arg11 fullShare (k1_pay6 x0 x2 x3)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩, ⟨%ds0, %fs0, %hfs0, HS0⟩, ⟨%ds1, %fs1, %hfs1, HS1⟩, ⟨%ds2, %fs2, %hfs2, HS2⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_run_names
    simp only [View.readCov_cons_toLoadRect, View.readAt_eq_ld, tile1, hf0, hf1, hf2, hf3, hf4, hf5, View.ld_unit_zero (S := S512x512) hzT, View.ld_unit_zero (S := S512x1) hzC, View.ld_unit_zero (S := S3x512) hzW, View.ld_unit_zero (S := S1x3) hzB]
    exact read_writes_whole (S := S512x512) hzT _ _ _ _ _
  isplitl [HS0]
  · iexists _; isplitr
    swap; · iexact HS0
    ipureintro
    sl_unfold_run_names
    simp only [View.readCov_cons_toLoadRect, View.readAt_eq_ld, hf0, hf2, hf3, View.ld_unit_zero (S := S512x512) hzT, View.ld_unit_zero (S := S512x1) hzC, View.ld_unit_zero (S := S3x512) hzW, View.ld_unit_zero (S := S1x3) hzB]
    exact read_writes_whole (S := S512x1) hzC _ _ _ _ _
  isplitl [HS1]
  · iexists _; isplitr
    swap; · iexact HS1
    ipureintro
    sl_unfold_run_names
    simp only [View.readCov_cons_toLoadRect, View.readAt_eq_ld, hf0, hf2, hf3, View.ld_unit_zero (S := S512x512) hzT, View.ld_unit_zero (S := S512x1) hzC, View.ld_unit_zero (S := S3x512) hzW, View.ld_unit_zero (S := S1x3) hzB]
    exact read_writes_whole (S := S512x1) hzC _ _ _ _ _
  iexists _; isplitr
  swap; · iexact HS2
  ipureintro
  sl_unfold_run_names
  simp only [View.readCov_cons_toLoadRect, View.readAt_eq_ld, hf0, hf2, hf3, View.ld_unit_zero (S := S512x512) hzT, View.ld_unit_zero (S := S512x1) hzC, View.ld_unit_zero (S := S3x512) hzW, View.ld_unit_zero (S := S1x3) hzB]
  exact read_writes_whole (S := S512x1) hzC _ _ _ _ _

end Cert.Kernel.Hand

end
-- ==== Proof.Bits.R1B.lean ====
import proofs.«155337_j27762668601764_1_alg».proof.Proof.Gen.Kernel.Launch
import proofs.«155337_j27762668601764_1_alg».proof.Proof.Gen.Kernel.Skeleton
import proofs.«155337_j27762668601764_1_alg».proof.Proof.Gen.Kernel.Points
import proofs.«155337_j27762668601764_1_alg».proof.Proof.Bits.BodyDefs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A later column: the kept thresholds are read, the tile stored. -/
theorem run1_B (c : Dev nD) (E : Set ℕ) (i : grid1.Coords) (arg2 : Memref sig .tc .vmem S512x512 .f32) (harg2 : arg2.IsWhole) (arg3 : Memref sig .tc .vmem S512x512 .f32) (harg3 : arg3.IsWhole) (arg4 : Memref sig .tc .vmem S3x512 .f32) (harg4 : arg4.IsWhole) (arg5 : Memref sig .tc .vmem S1x3 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : ¬cond1_0 i)
    (x0 x1 : Vec F S512x512 .f32) (x2 : Vec F S3x512 .f32) (x3 : Vec F S1x3 .f32) (x4 x5 xs0 xs1 xs2 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (tile1 x0 x1 x4 x5 xs0 xs1 xs2) ∗ owns (c : Thread nD τ) arg9 fullShare xs0 ∗ owns (c : Thread nD τ) arg10 fullShare xs1 ∗ owns (c : Thread nD τ) arg11 fullShare xs2) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hfs0; obtain rfl := harg10.eq_unread hfs1; obtain rfl := harg11.eq_unread hfs2
  sl_exec (disch := first | exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_run_names
    simp only [View.readCov_cons_toLoadRect, View.readAt_eq_ld, tile1, hf0, hf1, hf4, hf5, hfs0, hfs1, hfs2, View.ld_unit_zero (S := S512x512) hzT, View.ld_unit_zero (S := S512x1) hzC, View.ld_unit_zero (S := S3x512) hzW, View.ld_unit_zero (S := S1x3) hzB]
    exact read_writes_whole (S := S512x512) hzT _ _ _ _ _
  isplitl [HS0]
  · iexists _; isplitr; · ipureintro; exact hfs0
    iexact HS0
  isplitl [HS1]
  · iexists _; isplitr; · ipureintro; exact hfs1
    iexact HS1
  iexists _; isplitr; · ipureintro; exact hfs2
  iexact HS2

end Cert.Kernel.Hand

end
-- ==== Proof.Bits.R1Data.lean ====
import proofs.«155337_j27762668601764_1_alg».proof.Proof.Gen.Kernel.Launch
import proofs.«155337_j27762668601764_1_alg».proof.Proof.Gen.Kernel.Skeleton
import proofs.«155337_j27762668601764_1_alg».proof.Proof.Gen.Kernel.Points
import proofs.«155337_j27762668601764_1_alg».proof.Proof.Bits.R1A
import proofs.«155337_j27762668601764_1_alg».proof.Proof.Bits.R1B
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region: its proof data, at the contents `V` the region is entered with -/

section R1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem hcond1_0 : ∀ t : Fin cfg1.N, cond1_0 (grid1.coords t) ↔ t.val % 16 = 0 :=
  (by decide +kernel : ∀ t : Fin grid1.N, cond1_0 (grid1.coords t) ↔ t.val % 16 = 0)

/-- The three scratch columns: the thresholds a, b and the exponent's s of each of the tile's 512 rows. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1 .f32 := Memref.whole cc1_scratch2

/-- The class invariant with the three scratch columns named (they come last among the scoped buffers the windows do not stage). -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The three scratch columns after the body at position `n`: computed in the first column of a row of tiles from the
    row tile of x, W and the bias; kept through the rest of the row. -/
def sc1 (c : Dev nD) : (n : ℕ) → n < cfg1.N → Vec F S512x1 .f32 × Vec F S512x1 .f32 × Vec F S512x1 .f32
  | 0, hn => (k1_pay4 (iblk1 V c 0 ⟨0, hn⟩) (iblk1 V c 2 ⟨0, hn⟩) (iblk1 V c 3 ⟨0, hn⟩), k1_pay5 (iblk1 V c 0 ⟨0, hn⟩) (iblk1 V c 2 ⟨0, hn⟩) (iblk1 V c 3 ⟨0, hn⟩), k1_pay6 (iblk1 V c 0 ⟨0, hn⟩) (iblk1 V c 2 ⟨0, hn⟩) (iblk1 V c 3 ⟨0, hn⟩))
  | n + 1, hn =>
    if (n + 1) % 16 = 0 then (k1_pay4 (iblk1 V c 0 ⟨n + 1, hn⟩) (iblk1 V c 2 ⟨n + 1, hn⟩) (iblk1 V c 3 ⟨n + 1, hn⟩), k1_pay5 (iblk1 V c 0 ⟨n + 1, hn⟩) (iblk1 V c 2 ⟨n + 1, hn⟩) (iblk1 V c 3 ⟨n + 1, hn⟩), k1_pay6 (iblk1 V c 0 ⟨n + 1, hn⟩) (iblk1 V c 2 ⟨n + 1, hn⟩) (iblk1 V c 3 ⟨n + 1, hn⟩))
    else sc1 c n (Nat.lt_of_succ_lt hn)

theorem sc1_first (c : Dev nD) (t : Fin cfg1.N) (h : t.val % 16 = 0) :
    sc1 V c t.val t.isLt = (k1_pay4 (iblk1 V c 0 t) (iblk1 V c 2 t) (iblk1 V c 3 t), k1_pay5 (iblk1 V c 0 t) (iblk1 V c 2 t) (iblk1 V c 3 t), k1_pay6 (iblk1 V c 0 t) (iblk1 V c 2 t) (iblk1 V c 3 t)) := by
  obtain ⟨n, hn⟩ := t
  cases n with
  | zero => rfl
  | succ n => exact (if_pos h).trans rfl

theorem sc1_later (c : Dev nD) (t : Fin cfg1.N) (h : ¬t.val % 16 = 0) :
    sc1 V c t.val t.isLt = sc1 V c (t.val - 1) (Nat.lt_of_le_of_lt (Nat.sub_le _ _) t.isLt) := by
  obtain ⟨n, hn⟩ := t
  cases n with
  | zero => exact absurd (Nat.zero_mod _) h
  | succ n => exact (if_neg h).trans rfl

/-- The region invariant before position `n`: at entry the class's; afterwards the three scratch columns at what the
    point before left. -/
def PhiS1 (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare (sc1 V c n hn).1 ∗ owns (c : Thread nD τ) scM1_1 fullShare (sc1 V c n hn).2.1 ∗ owns (c : Thread nD τ) scM1_2 fullShare (sc1 V c n hn).2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare (sc1 V c n hn).1 ∗ owns (c : Thread nD τ) scM1_1 fullShare (sc1 V c n hn).2.1 ∗ owns (c : Thread nD τ) scM1_2 fullShare (sc1 V c n hn).2.2) ∗ (∃ r, prngReg c r)) := rfl
theorem PhiS1_pos (c : Dev nD) (n : ℕ) (h : n ≤ cfg1.N) (hz : n ≠ 0) :
    PhiS1 V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare (sc1 V c (n - 1) (by omega)).1 ∗ owns (c : Thread nD τ) scM1_1 fullShare (sc1 V c (n - 1) (by omega)).2.1 ∗ owns (c : Thread nD τ) scM1_2 fullShare (sc1 V c (n - 1) (by omega)).2.2) ∗ (∃ r, prngReg c r)) := by
  cases n with
  | zero => exact absurd rfl hz
  | succ n => rfl

/-- The arrays as the region finds them; after the body each input's buffer at its block and the result's at the
    masked tile, its thresholds those of the row of tiles; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => tile1 (iblk1 V c 0 t) (iblk1 V c 1 t) (iblk1 V c 4 t) (iblk1 V c 5 t) (sc1 V c t.val t.isLt).1 (sc1 V c t.val t.isLt).2.1 (sc1 V c t.val t.isLt).2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = tile1 (iblk1 V c 0 t) (iblk1 V c 1 t) (iblk1 V c 4 t) (iblk1 V c 5 t) (sc1 V c t.val t.isLt).1 (sc1 V c t.val t.isLt).2.1 (sc1 V c t.val t.isLt).2.2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

end R1

end Cert.Kernel.Hand

end
-- ==== Proof.Bits.R1Ob.lean ====
import proofs.«155337_j27762668601764_1_alg».proof.Proof.Gen.Kernel.Launch
import proofs.«155337_j27762668601764_1_alg».proof.Proof.Gen.Kernel.Skeleton
import proofs.«155337_j27762668601764_1_alg».proof.Proof.Gen.Kernel.Points
import proofs.«155337_j27762668601764_1_alg».proof.Proof.Bits.R1Data
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region: the body obligation -/

section R1

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4800000 in
/-- The body at any point: the six inputs' buffers hold their blocks; in the first column of a row of tiles the three
    thresholds are computed and the invariant takes them, elsewhere it hands them over and takes them back unchanged;
    the result's buffer ends at the masked tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6]
  have hN : t.val < 128 := lt_of_lt_of_eq t.isLt (show cfg1.N = 128 from N_1)
  by_cases h0 : t.val % 16 = 0
  · rw [sc1_first V c t h0]
    by_cases hz : t.val = 0
    · rw [PhiS1_castSucc V c t, PhiS1_zero V c _ _ hz, PhiA1_eq]
      iintro ⟨⟨⟨R0, R1, R2, R3, R4, R5, R6, R7, R8, R9, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run1_A c Set.univ (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [R0 R1 R2 R3 R4 R5 R6 R7 R8 R9 HS0 HS1 HS2 Hg]
      · isplitl [R0 R1 R2 R3 R4 R5 R6 R7 R8 R9 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS1_castSucc V c t, PhiS1_pos V c _ _ hz]
      iintro ⟨⟨⟨R0, R1, R2, R3, R4, R5, R6, R7, R8, R9, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run1_A c Set.univ (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      isplitl [HS1]; · iexists _; iexact HS1
      isplitl [HS2]; · iexists _; iexact HS2
      iintro ⟨H0, H1, H2, H3, H4, H5, H6, HS0, HS1, HS2⟩
      isplitl [R0 R1 R2 R3 R4 R5 R6 R7 R8 R9 HS0 HS1 HS2 Hg]
      · isplitl [R0 R1 R2 R3 R4 R5 R6 R7 R8 R9 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun h => h0 (by rw [h])
    rw [sc1_later V c t h0]
    rw [PhiS1_castSucc V c t, PhiS1_pos V c _ _ hz]
    · iintro ⟨⟨⟨R0, R1, R2, R3, R4, R5, R6, R7, R8, R9, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run1_B c Set.univ (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (sc1 V c (t.val - 1) (Nat.lt_of_le_of_lt (Nat.sub_le _ _) t.isLt)).1 (sc1 V c (t.val - 1) (Nat.lt_of_le_of_lt (Nat.sub_le _ _) t.isLt)).2.1 (sc1 V c (t.val - 1) (Nat.lt_of_le_of_lt (Nat.sub_le _ _) t.isLt)).2.2 _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [R0 R1 R2 R3 R4 R5 R6 R7 R8 R9 HS0 HS1 HS2 Hg]
      · isplitl [R0 R1 R2 R3 R4 R5 R6 R7 R8 R9 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the kept thresholds are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨R0, R1, R2, R3, R4, R5, R6, R7, R8, R9, HS0, HS1, HS2⟩, Hg⟩
  isplitl [R0 R1 R2 R3 R4 R5 R6 R7 R8 R9 HS0 HS1 HS2]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HS0]; · iexists _; iexact HS0
    isplitl [HS1]; · iexists _; iexact HS1
    iexists _; iexact HS2
  iexact Hg

end R1

end Cert.Kernel.Hand

end
-- ==== Proof.Bits.Run.lean ====
import proofs.«155337_j27762668601764_1_alg».proof.Proof.Gen.Kernel.Launch
import proofs.«155337_j27762668601764_1_alg».proof.Proof.Gen.Kernel.Skeleton
import proofs.«155337_j27762668601764_1_alg».proof.Proof.Gen.Kernel.Points
import proofs.«155337_j27762668601764_1_alg».proof.Proof.Bits.R0Ob
import proofs.«155337_j27762668601764_1_alg».proof.Proof.Bits.R1Ob
import proofs.«155337_j27762668601764_1_alg».proof.Proof.Gen.Kernel.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's three items — the first region, the reshape of the bias, the second region — from the launch to
    the return, every unscoped buffer's contents named at each boundary -/

variable (m : (ℓ : Loc nD τ sig) → Buf (Elt F) ℓ) (ρ : Dev nD → PrngReg)

/-- Core `c`'s buffers at launch. -/
abbrev W0 : Dev nD → Valuation τ sig (Elt F) := fun c b => m (c, b)
abbrev U0 : (c : Dev nD) → (b : Ref sig .tc) → Buf (Elt F) ((c : Thread nD τ).loc b) := fun c b => W0 m c b
/-- After the first region: its arrays at what its write-backs leave, every other buffer as before. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)
/-- After the reshape of the bias. -/
abbrev W2 (c : Dev nD) : Valuation τ sig (Elt F) := StableHlo.after hostOps1 (W1 m c)
abbrev U2 : (c : Dev nD) → (b : Ref sig .tc) → Buf (Elt F) ((c : Thread nD τ).loc b) := fun c b => W2 m c b
theorem W2_of (c : Dev nD) (r : Ref sig .tc) (h : r ∉ hostOps1_W) : W2 m c r = W1 m c r :=
  StableHlo.after_of_writes_sub hostOps1 _ hostOps1_writes h
/-- After the second region. -/
def W3 (c : Dev nD) : Valuation τ sig (Elt F) :=
  Pipeline.withArrays spec1 c (W2 m c) fun w => (dat1 (U2 m) c).arrAt w cfg1.N
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (U2 m) c).arrAt_in 0 rfl _).trans (A_eq1 (U2 m) c 0))
    _ = W1 m c (Proc.devRef .tc main_arg0) := W2_of m c main_arg0 (by decide)
    _ = W0 m c (Proc.devRef .tc main_arg0) := (W1_arr m c 0).trans (((dat0 (U0 m) c).arrAt_in 0 rfl _).trans (A_eq0 (U0 m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 1).trans (((dat1 (U2 m) c).arrAt_in 1 rfl _).trans (A_eq1 (U2 m) c 1))
    _ = W1 m c (Proc.devRef .tc main_arg1) := W2_of m c main_arg1 (by decide)
    _ = W0 m c (Proc.devRef .tc main_arg1) := (W1_arr m c 1).trans (((dat0 (U0 m) c).arrAt_in 1 rfl _).trans (A_eq0 (U0 m) c 1))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 2).trans (((dat1 (U2 m) c).arrAt_in 2 rfl _).trans (A_eq1 (U2 m) c 2))
    _ = W1 m c (Proc.devRef .tc main_arg2) := W2_of m c main_arg2 (by decide)
    _ = W0 m c (Proc.devRef .tc main_arg2) := W1_of_ne m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of m c main_arg3 (by decide)
    _ = W0 m c (Proc.devRef .tc main_arg3) := W1_of_ne m c main_arg3 (by decide)
    _ = m ((c : Thread nD τ).loc main_arg3) := rfl
/-- The result buffer ends at what the second region's write-backs leave. -/
theorem W3_main_v2 (c : Dev nD) : W3 m c (Proc.devRef .tc main_v2) = (dat1 (U2 m) c).arrAt 6 cfg1.N := W3_arr m c 6

/-! ## The proof data family and the thread state -/

abbrev admK : (p : Fin 2) → (pcfgs (F := F) p).Adm := fun p => (cfgs p).toPCfg_adm
def pdatsK : (p : Fin 2) → (c : Dev nD) → Dat τ (Elt F) Unit ℕ (UR sig nD τ) ℕ (Pipeline.pin (pcfgs (F := F)) admK p) c
  | ⟨0, _⟩ => fun c => dat0 (U0 m) c
  | ⟨1, _⟩ => fun c => dat1 (U2 m) c
abbrev 𝒱K : Variants := Variants.none
abbrev LK : GSem nD τ sig → Finset Unit := fun _ => ∅
abbrev lvK : GSem nD τ sig → Unit → ℕ := fun _ _ => 0
/-- What rides beside the buffers through every item: the generator register at some state, and nothing owed. -/
abbrev RK (c : Dev nD) : sProp 𝕄 := iprop((∃ r, prngReg c r) ∗ ∃ W, owes (c : Thread nD τ) (0 : CellTallies nD τ sig Unit) W)
abbrev hsegK (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnK (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region: entered from every unscoped buffer at the launch contents, left at `W1`. -/
def reg0 : Pipeline.RegionSeg (pcfgs (F := F)) admK (pdatsK m) () defs₀ 𝒱K LK lvK 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ LK lvK 0 fun _ _ => rfl
  pre c := iprop(StableHlo.held (c : Thread nD τ) (Pipeline.ucRefs τ sig) (W0 m c) ∗ RK c)
  post c := iprop(StableHlo.held (c : Thread nD τ) (Pipeline.ucRefs τ sig) (W1 m c) ∗ RK c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) admK (pdatsK m) launch0.win launch0.arr_whole c
      ((pdatsK m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (U0 m) c)
    unfold Pipeline.ΦA
    iintro ⟨Hp, -, Hr⟩
    isplitl [Hr]; · iexact Hr
    iexact Hp
  hout c := by
    refine (hout0 (U0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdatsK m) ((pdatsK m 0 c).share_full fun _ => rfl)
      (U0 m c) (U1 m c) ((pdatsK m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. -/
def reg1 : Pipeline.RegionSeg (pcfgs (F := F)) admK (pdatsK m) () defs₀ 𝒱K LK lvK 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ LK lvK 1 fun _ _ => rfl
  pre c := iprop(StableHlo.held (c : Thread nD τ) (Pipeline.ucRefs τ sig) (W2 m c) ∗ RK c)
  post c := iprop(TnK m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) admK (pdatsK m) launch1.win launch1.arr_whole c
      ((pdatsK m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (U2 m) c)
    unfold Pipeline.ΦA
    iintro ⟨Hp, -, Hr⟩
    isplitl [Hr]; · iexact Hr
    iexact Hp
  hout c := by
    refine (hout1 (U2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdatsK m) ((pdatsK m 1 c).share_full fun _ => rfl)
      (U2 m c) (U3 m c) ((pdatsK m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsK : List (Pipeline.Seg (pcfgs (F := F)) admK (pdatsK m) () defs₀ 𝒱K LK lvK) :=
  [ .region (reg0 m),
    .host (hsegK hostOps1 hostOps1_sub hostOps1_fresh (W1 m)),
    .region (reg1 m) ]
theorem main_runK (c : Dev nD) : main (F := F) c = Pipeline.Seg.run (segsK m) := (main_chain c).trans (by chain_rfl)

set_option backward.isDefEq.respectTransparency.types false in
/-- From any memory with zero counters every weakly fair execution of @main terminates, nothing faulting, and every
    final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) admK (pdatsK m) () cellOf_inj emb₁ defs₀ 𝒱K LK lvK m ρ main (segsK m)
    (fun c Q => by rw [main_runK m c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RK c)) (Tₙ := TnK m)
    (hch := ⟨fun _ => .rfl, fun _ => .rfl, fun _ => .rfl, fun _ => .rfl⟩)
    (hinit := by
      refine Pipeline.initEach LK lvK fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩) (run_all m ρ)

/-- The run with the result named: the result buffer ends at what the second region's write-backs leave. -/
theorem run_result : θ_run defs (onTc (τ := τ) (main (F := F))) ⟨m, fun _ => 0, ρ⟩ (fun r => ∀ c : Dev nD,
      r.2.mem ((c.tc : Thread nD τ).loc main_v2) = (dat1 (U2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c _ (mem_uc main_v2 (by decide))).trans (W3_main_v2 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩) (run_all m ρ)

end Cert.Kernel.Hand

end
-- ==== Proof.Entry.lean ====
import proofs.«155337_j27762668601764_1_alg».proof.Proof.Gen.KernelIdeal.Launch
import proofs.«155337_j27762668601764_1_alg».proof.Proof.Gen.KernelIdeal.Skeleton
import proofs.«155337_j27762668601764_1_alg».proof.Proof.Gen.KernelIdeal.Points
import proofs.«155337_j27762668601764_1_alg».proof.Proof.Run
import Idealize.ShloMosaic.Lib.StableHlo.Run
import Idealize.ShloMosaic.Lib.ValueIdx
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the second region is entered with -/

variable (m : (ℓ : Loc nD τ sig) → Buf (Elt F) ℓ)

/-- The three arguments it reads are as launched; -/
theorem U2_main_arg0 (c : Dev nD) : U2 m c main_arg0 = m ((c : Thread nD τ).loc main_arg0) :=
  (W2_of m c main_arg0 (by decide)).trans ((W1_arr m c 0).trans (((dat0 (U0 m) c).arrAt_in 0 rfl _).trans (A_eq0 (U0 m) c 0)))
theorem U2_main_arg1 (c : Dev nD) : U2 m c main_arg1 = m ((c : Thread nD τ).loc main_arg1) :=
  (W2_of m c main_arg1 (by decide)).trans ((W1_arr m c 1).trans (((dat0 (U0 m) c).arrAt_in 1 rfl _).trans (A_eq0 (U0 m) c 1)))
theorem U2_main_arg2 (c : Dev nD) : U2 m c main_arg2 = m ((c : Thread nD τ).loc main_arg2) :=
  (W2_of m c main_arg2 (by decide)).trans (W1_of_ne m c main_arg2 (by decide))
/-- the two columns of row extremes are what the first region's write-backs left; -/
theorem U2_main_v0_0 (c : Dev nD) : U2 m c main_v0_0 = (dat0 (U0 m) c).arrAt 2 cfg0.N :=
  (W2_of m c main_v0_0 (by decide)).trans (W1_arr m c 2)
theorem U2_main_v0_1 (c : Dev nD) : U2 m c main_v0_1 = (dat0 (U0 m) c).arrAt 3 cfg0.N :=
  (W2_of m c main_v0_1 (by decide)).trans (W1_arr m c 3)
/-- and the bias row is the bias vector laid out as 1 x 3. -/
theorem U2_main_v1_apply (c : Dev nD) (j : Fin 3) :
    (U2 m c main_v1 : S1x3.Idx → Elt F .f32) (ValueIdx.ix2 (0 : Fin 1) j)
      = (m ((c : Thread nD τ).loc main_arg3) : S3.Idx → Elt F .f32) (ValueIdx.ix1 j) := by
  have e : U2 m c main_v1 = (fun i => shapeCast S1x3 (W1 m c (Proc.devRef .tc main_arg3) : S3.Idx → Elt F .f32) shapeCasts_S3_S1x3 i) := by
    show StableHlo.after hostOps1 (W1 m c) (Proc.devRef .tc main_v1) = _
    after_results
    rfl
  rw [e, W1_of_ne m c main_arg3 (by decide)]
  exact shapeCast_apply _ _ _ _ (by
    show (S3.rowMajor (ValueIdx.ix1 j)).val = (S1x3.rowMajor (ValueIdx.ix2 (0 : Fin 1) j)).val
    rw [Shape.rowMajor_val_one, Shape.rowMajor_val_two]; simp)

end Cert.KernelIdeal.Hand

end
-- ==== Proof.Spec.lean ====
/-
  The specification both programs are read against, on the extended reals, entry by entry.

  Inputs: x : 4096 x 512, xn : 8192 x 512, W : 3 x 512, bias : 3, as functions of their coordinates.
  Both programs compute, for a row n and a column m,
      sim n m + logmask n m,
  where sim is the inner product of row n of x with row m of xn scaled by 1/512, the row's entries are
  normalised to sn = (sim - lo) / (hi - lo) by the row's least and greatest entry, and the mask is a soft
  threshold between a and b with exponent 1/s, the three parameters a sigmoid head of row n clipped to [eps, 1].
  The two programs differ in three spellings:
    * the scale: a product with the word of 2^-9 against a quotient by the word of 512;
    * the lower threshold: a0 - eps against min a0 (the row's greatest normalised entry) - eps;
    * the power: exp ((1/s) * log base) against base ^ (1/s).
  `outK` is the first spelling of each, `outR` the second.
-/
import Idealize.ShloMosaic.PureOps.Ideal

noncomputable section

namespace Cert.Spec

open Idealize.ShloMosaic

/-- The words the programs carry, read on the extended reals. -/
abbrev wScale : EReal := Ideal.ofBits .f32 0x3B000000#32   -- 2^-9
abbrev w512 : EReal := Ideal.ofBits .f32 0x44000000#32     -- 512
abbrev wEps : EReal := Ideal.ofBits .f32 0x2B8CBCCC#32     -- the f32 nearest 1e-12
abbrev wOne : EReal := Ideal.ofBits .f32 0x3F800000#32     -- 1
abbrev wZero : EReal := Ideal.ofBits .f32 0x00000000#32    -- 0
abbrev wPInf : EReal := Ideal.ofBits .f32 0x7F800000#32    -- +inf
abbrev wNInf : EReal := Ideal.ofBits .f32 0xFF800000#32    -- -inf

/-- The inner product of two rows of K entries. -/
def dot {K : ℕ} (u v : Fin K → EReal) : EReal := ∑ k, u k * v k

/-- The similarity, scaled by a product (the first spelling). -/
def simK {N M K : ℕ} (x : Fin N → Fin K → EReal) (xn : Fin M → Fin K → EReal) (n : Fin N) (m : Fin M) : EReal :=
  dot (x n) (xn m) * wScale

/-- The similarity, scaled by a quotient (the second spelling). -/
def simR {N M K : ℕ} (x : Fin N → Fin K → EReal) (xn : Fin M → Fin K → EReal) (n : Fin N) (m : Fin M) : EReal :=
  Ideal.div (dot (x n) (xn m)) w512

/-- The sigmoid head of row n, component j, clipped to [eps, 1]. -/
def head {N K : ℕ} (x : Fin N → Fin K → EReal) (W : Fin 3 → Fin K → EReal) (bias : Fin 3 → EReal) (n : Fin N) (j : Fin 3) : EReal :=
  min wOne (max wEps (Ideal.logistic (dot (x n) (W j) + bias j)))

/-- The upper threshold b = a0 + b0 (1 - a0). -/
def upper (a0 b0 : EReal) : EReal := a0 + b0 * (wOne - a0)

/-- An entry normalised by its row's least and greatest entry. -/
def norm (s lo hi : EReal) : EReal := Ideal.div (s - lo) (hi - lo)

/-- The logarithm of the mask from the two powers p1, p2, the normalised entry sn and the thresholds a, b. -/
def logMask (p1 p2 sn a b : EReal) : EReal :=
  let num := max p1 wEps
  let q := Ideal.div num (num + max p2 wEps)
  let lt : Prop := sn < a
  let gt : Prop := b < sn
  haveI : Decidable lt := Classical.dec _
  haveI : Decidable gt := Classical.dec _
  let v48 := if gt then wOne else q
  let v50 := if lt then wZero else v48
  let v52 := if lt then wOne else v50
  if lt then wNInf else Ideal.log v52

/-- One entry, first spelling: thresholds a, b, exponent 1/sv, powers by exp and log. -/
def entryK (s lo hi a b sv : EReal) : EReal :=
  let sn := norm s lo hi
  let inv := Ideal.div wOne sv
  s + logMask (Ideal.exp (inv * Ideal.log (max (sn - a) (-(sn - a))))) (Ideal.exp (inv * Ideal.log (max (b - sn) (-(b - sn))))) sn a b

/-- One entry, second spelling: the lower threshold min a0 top - eps, powers by pow. -/
def entryR (s lo hi top a0 b sv : EReal) : EReal :=
  let sn := norm s lo hi
  let a := min a0 top - wEps
  let inv := Ideal.div wOne sv
  s + logMask (Ideal.pow (max (sn - a) (-(sn - a))) inv) (Ideal.pow (max (b - sn) (-(b - sn))) inv) sn a b

variable {N M K : ℕ}

/-- The whole result, first spelling. -/
def outK (x : Fin N → Fin K → EReal) (xn : Fin M → Fin K → EReal) (W : Fin 3 → Fin K → EReal) (bias : Fin 3 → EReal)
    (n : Fin N) (m : Fin M) : EReal :=
  let lo := Finset.univ.inf fun m' => simK x xn n m'
  let hi := Finset.univ.sup fun m' => simK x xn n m'
  let a0 := head x W bias n 0
  entryK (simK x xn n m) lo hi (a0 - wEps) (upper a0 (head x W bias n 1)) (head x W bias n 2)

/-- The whole result, second spelling. -/
def outR (x : Fin N → Fin K → EReal) (xn : Fin M → Fin K → EReal) (W : Fin 3 → Fin K → EReal) (bias : Fin 3 → EReal)
    (n : Fin N) (m : Fin M) : EReal :=
  let lo := Finset.univ.inf fun m' => simR x xn n m'
  let hi := Finset.univ.sup fun m' => simR x xn n m'
  let top := Finset.univ.sup fun m' => norm (simR x xn n m') lo hi
  let a0 := head x W bias n 0
  entryR (simR x xn n m) lo hi top a0 (upper a0 (head x W bias n 1)) (head x W bias n 2)

end Cert.Spec

end
-- ==== Proof.Bridge.lean ====
/-
  The law on the extended reals that joins the two spellings of the specification: for real inputs the
  result spelt with a quotient by 512, the lower threshold min a0 (the row's greatest normalised entry) - eps
  and the powers base ^ (1/s) is the result spelt with a product by 2^-9, the lower threshold a0 - eps and the
  powers exp ((1/s) * log base).
-/
import proofs.«155337_j27762668601764_1_alg».proof.Proof.Spec
import Mathlib.Tactic.Linarith
import Mathlib.Tactic.NormNum

noncomputable section

namespace Cert.Bridge

open Idealize.ShloMosaic Cert.Spec

/-! ### The words -/

theorem wScale_eq : wScale = (((1 / 512 : ℝ) : ℝ) : EReal) := by
  simp [Ideal.ofBits, Ideal.ieee, -EReal.coe_mul]; norm_num

theorem w512_eq : w512 = ((512 : ℝ) : EReal) := by
  simp [Ideal.ofBits, Ideal.ieee, -EReal.coe_mul]; norm_num

theorem wOne_eq : wOne = 1 := by
  simp [Ideal.ofBits, Ideal.ieee, -EReal.coe_mul]; norm_num

theorem wZero_eq : wZero = 0 := by
  simp [Ideal.ofBits, Ideal.ieee]

theorem wPInf_eq : wPInf = ⊤ := by
  simp [Ideal.ofBits, Ideal.ieee]

theorem wNInf_eq : wNInf = ⊥ := by
  simp [Ideal.ofBits, Ideal.ieee]

theorem wEps_eq : ∃ e : ℝ, wEps = (e : EReal) ∧ 0 < e ∧ e ≤ 1 := by
  refine ⟨(9223372 : ℝ) * (2 : ℝ) ^ (-63 : ℤ), ?_, ?_, ?_⟩
  · simp [Ideal.ofBits, Ideal.ieee, -EReal.coe_mul]
  · positivity
  · norm_num

/-! ### Reals among the extended reals -/

/-- The absolute value of a real, spelt as a maximum in the extended reals, is the real maximum. -/
theorem max_neg_coe (y : ℝ) : max (y : EReal) (-(y : EReal)) = ((max y (-y) : ℝ) : EReal) := by
  rw [← EReal.coe_neg]; exact (EReal.coe_strictMono.monotone.map_max).symm

theorem max_neg_nonneg (y : ℝ) : 0 ≤ max y (-y) := by
  rcases le_total 0 y with h | h
  · exact le_max_of_le_left h
  · exact le_max_of_le_right (neg_nonneg.mpr h)

/-- A finite sum of reals is a real. -/
theorem sum_real {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih (fun i hi => hf i (Finset.mem_insert_of_mem hi))
    obtain ⟨q, hq⟩ := hf a (Finset.mem_insert_self a s)
    exact ⟨q + r, by rw [Finset.sum_insert ha, hr, hq, EReal.coe_add]⟩

/-- The inner product of two real rows is a real. -/
theorem dot_real {K : ℕ} (u v : Fin K → EReal) (hu : ∀ k, ∃ r : ℝ, u k = (r : EReal))
    (hv : ∀ k, ∃ r : ℝ, v k = (r : EReal)) : ∃ r : ℝ, dot u v = (r : EReal) := by
  unfold dot
  refine sum_real _ _ (fun k _ => ?_)
  obtain ⟨a, ha⟩ := hu k
  obtain ⟨b, hb⟩ := hv k
  exact ⟨a * b, by rw [ha, hb, EReal.coe_mul]⟩

/-! ### The scale: a quotient by 512 is a product by 2^-9 -/

theorem simR_eq_simK {N M K : ℕ} (x : Fin N → Fin K → EReal) (xn : Fin M → Fin K → EReal) (n : Fin N) (m : Fin M) :
    simR x xn n m = simK x xn n m := by
  unfold simR simK
  rw [w512_eq, wScale_eq, Ideal.div_coe (by norm_num : (512 : ℝ) ≠ 0)]

theorem simK_real {N M K : ℕ} (x : Fin N → Fin K → EReal) (xn : Fin M → Fin K → EReal)
    (hx : ∀ n k, ∃ r : ℝ, x n k = (r : EReal)) (hxn : ∀ m k, ∃ r : ℝ, xn m k = (r : EReal)) (n : Fin N) (m : Fin M) :
    ∃ r : ℝ, simK x xn n m = (r : EReal) := by
  obtain ⟨d, hd⟩ := dot_real (x n) (xn m) (hx n) (hxn m)
  unfold simK
  exact ⟨d * (1 / 512), by rw [hd, wScale_eq, EReal.coe_mul]⟩

/-! ### The head: three reals in [eps, 1] -/

theorem head_real {N K : ℕ} (x : Fin N → Fin K → EReal) (W : Fin 3 → Fin K → EReal) (bias : Fin 3 → EReal)
    (hx : ∀ n k, ∃ r : ℝ, x n k = (r : EReal)) (hW : ∀ j k, ∃ r : ℝ, W j k = (r : EReal))
    (hb : ∀ j, ∃ r : ℝ, bias j = (r : EReal)) (n : Fin N) (j : Fin 3) :
    ∃ r : ℝ, head x W bias n j = (r : EReal) ∧ 0 < r ∧ r ≤ 1 := by
  obtain ⟨e, he, he0, _⟩ := wEps_eq
  obtain ⟨d, hd⟩ := dot_real (x n) (W j) (hx n) (hW j)
  obtain ⟨c, hc⟩ := hb j
  refine ⟨min 1 (max e (1 + Real.exp (-(d + c)))⁻¹), ?_, lt_min one_pos (lt_of_lt_of_le he0 (le_max_left _ _)),
    min_le_left _ _⟩
  unfold head
  rw [hd, hc, ← EReal.coe_add, Ideal.logistic_coe, he, wOne_eq, ← EReal.coe_one]
  rw [EReal.coe_strictMono.monotone.map_min, EReal.coe_strictMono.monotone.map_max]

/-! ### The power: base ^ t is exp (t * log base) for a real base ≥ 0 and a real t > 0 -/

theorem pow_eq_exp_log {y t : ℝ} (hy : 0 ≤ y) (ht : 0 < t) :
    Ideal.pow (y : EReal) (t : EReal) = Ideal.exp ((t : EReal) * Ideal.log (y : EReal)) := by
  rw [Ideal.pow_coe_coe, Ideal.log_coe]
  rcases hy.eq_or_lt with h0 | hpos
  · subst h0
    rw [if_pos le_rfl, EReal.coe_mul_bot_of_pos ht, Ideal.exp_bot]
    show (((0 : ℝ) ^ t : ℝ) : EReal) = 0
    rw [Real.zero_rpow ht.ne', EReal.coe_zero]
  · rw [if_neg (not_le.mpr hpos), ← EReal.coe_mul, Ideal.exp_coe]
    show ((y ^ t : ℝ) : EReal) = _
    rw [Real.rpow_def_of_pos hpos, mul_comm]

theorem pow_abs_eq (y t : ℝ) (ht : 0 < t) :
    Ideal.pow (max (y : EReal) (-(y : EReal))) (t : EReal)
      = Ideal.exp ((t : EReal) * Ideal.log (max (y : EReal) (-(y : EReal)))) := by
  rw [max_neg_coe]; exact pow_eq_exp_log (max_neg_nonneg y) ht

/-- The exponent 1/s for a real s ≠ 0. -/
theorem inv_coe {sv : ℝ} (h : sv ≠ 0) : Ideal.div wOne (sv : EReal) = ((1 / sv : ℝ) : EReal) := by
  rw [wOne_eq, Ideal.div_coe h, one_mul]

/-! ### The normalised entry -/

/-- In a constant row every normalised entry is 0 / 0, which reads -inf. -/
theorem norm_const (lo : ℝ) : norm (lo : EReal) (lo : EReal) (lo : EReal) = ⊥ := by
  unfold Spec.norm Ideal.div
  rw [← EReal.coe_sub, sub_self, EReal.coe_zero, if_pos rfl, if_neg (lt_irrefl _)]

/-- In a row with lo < hi a normalised entry is the real (r - lo) / (hi - lo). -/
theorem norm_coe {r lo hi : ℝ} (h : lo < hi) :
    norm (r : EReal) (lo : EReal) (hi : EReal) = (((r - lo) / (hi - lo) : ℝ) : EReal) := by
  unfold Spec.norm
  rw [← EReal.coe_sub, ← EReal.coe_sub, Ideal.div_coe (sub_pos.mpr h).ne', ← EReal.coe_mul, mul_one_div]

/-! ### The mask in the two cases -/

/-- Below the lower threshold the logarithm of the mask is -inf. -/
theorem logMask_of_lt (p1 p2 sn a b : EReal) (h : sn < a) : logMask p1 p2 sn a b = ⊥ := by
  unfold logMask
  simp only [if_pos h]
  exact wNInf_eq

/-- Both powers +inf, the normalised entry and the lower threshold -inf: the mask is inf / inf = 0, its logarithm -inf. -/
theorem logMask_top_top (b : EReal) : logMask ⊤ ⊤ ⊥ ⊥ b = ⊥ := by
  have hdiv : Ideal.div ⊤ ⊤ = 0 := by
    unfold Ideal.div
    rw [if_neg EReal.top_ne_zero, EReal.inv_top, mul_zero]
  unfold logMask
  simp only [if_neg (lt_irrefl (⊥ : EReal)), if_neg (not_lt_bot : ¬ b < ⊥)]
  rw [max_eq_left le_top, EReal.top_add_top, hdiv, ← EReal.coe_zero, Ideal.log_coe, if_pos le_rfl]

/-- A constant row (hi = lo): both spellings give the entry plus -inf. -/
theorem entry_degenerate (s lo hi a0 b sv : EReal) (ar br svr : ℝ) (hsn : norm s lo hi = ⊥)
    (ha : a0 - wEps = (ar : EReal)) (hb : b = (br : EReal)) (hsv : sv = (svr : EReal)) (hsvpos : 0 < svr) :
    entryR s lo hi ⊥ a0 b sv = entryK s lo hi (a0 - wEps) b sv := by
  have hinv : (0 : EReal) < ((1 / svr : ℝ) : EReal) := EReal.coe_pos.mpr (one_div_pos.mpr hsvpos)
  unfold entryR entryK
  simp only []
  rw [hsn, min_eq_right bot_le, EReal.bot_sub, ha, hb, hsv, inv_coe hsvpos.ne']
  rw [logMask_of_lt _ _ _ _ _ (EReal.bot_lt_coe ar)]
  rw [EReal.bot_sub, EReal.neg_bot, max_eq_right bot_le, EReal.coe_sub_bot, EReal.neg_top, max_eq_left bot_le,
    Ideal.pow_top, if_pos hinv, logMask_top_top]

/-- A row with lo < hi: the greatest normalised entry is 1, the thresholds agree, and the powers agree. -/
theorem entry_regular (s lo hi a0 b sv : EReal) (snr ar br svr : ℝ) (hsn : norm s lo hi = (snr : EReal))
    (ha : a0 - wEps = (ar : EReal)) (hb : b = (br : EReal)) (hsv : sv = (svr : EReal)) (hsvpos : 0 < svr)
    (ha01 : a0 ≤ 1) :
    entryR s lo hi 1 a0 b sv = entryK s lo hi (a0 - wEps) b sv := by
  have hinv : 0 < 1 / svr := one_div_pos.mpr hsvpos
  unfold entryR entryK
  simp only []
  rw [min_eq_left ha01, hsn, ha, hb, hsv, inv_coe hsvpos.ne', ← EReal.coe_sub, ← EReal.coe_sub,
    pow_abs_eq _ _ hinv, pow_abs_eq _ _ hinv]

/-! ### A row of reals: its least and greatest entry -/

theorem row_facts {M : ℕ} (S : Fin M → EReal) (hS : ∀ m', ∃ r : ℝ, S m' = (r : EReal)) (m : Fin M) :
    ∃ lo hi : ℝ, Finset.univ.inf S = (lo : EReal) ∧ Finset.univ.sup S = (hi : EReal) ∧
      (∀ m', ∃ r : ℝ, S m' = (r : EReal) ∧ lo ≤ r ∧ r ≤ hi) ∧ ∃ m', S m' = (hi : EReal) := by
  have hne : (Finset.univ : Finset (Fin M)).Nonempty := ⟨m, Finset.mem_univ m⟩
  obtain ⟨i, _, hi⟩ := Finset.exists_mem_eq_inf Finset.univ hne S
  obtain ⟨j, _, hj⟩ := Finset.exists_mem_eq_sup Finset.univ hne S
  obtain ⟨lo, hlo⟩ := hS i
  obtain ⟨hi', hhi⟩ := hS j
  refine ⟨lo, hi', hi.trans hlo, hj.trans hhi, fun m' => ?_, ⟨j, hhi⟩⟩
  obtain ⟨r, hr⟩ := hS m'
  refine ⟨r, hr, ?_, ?_⟩
  · have h := Finset.inf_le (f := S) (Finset.mem_univ m')
    rw [hi, hlo, hr] at h
    exact EReal.coe_le_coe_iff.mp h
  · have h := Finset.le_sup (f := S) (Finset.mem_univ m')
    rw [hj, hhi, hr] at h
    exact EReal.coe_le_coe_iff.mp h

/-- One entry of a row of reals, with real parameters: the two spellings agree. -/
theorem entry_row {M : ℕ} (S : Fin M → EReal) (hS : ∀ m', ∃ r : ℝ, S m' = (r : EReal)) (m : Fin M)
    (a0 b sv : EReal) (a0r br svr : ℝ) (ha0 : a0 = (a0r : EReal)) (ha01 : a0r ≤ 1) (hb : b = (br : EReal))
    (hsv : sv = (svr : EReal)) (hsvpos : 0 < svr) :
    entryR (S m) (Finset.univ.inf S) (Finset.univ.sup S)
        (Finset.univ.sup fun m' => norm (S m') (Finset.univ.inf S) (Finset.univ.sup S)) a0 b sv
      = entryK (S m) (Finset.univ.inf S) (Finset.univ.sup S) (a0 - wEps) b sv := by
  obtain ⟨lo, hi, hlo, hhi, hrow, ⟨mh, hmh⟩⟩ := row_facts S hS m
  obtain ⟨e, he, _, _⟩ := wEps_eq
  have ha : a0 - wEps = ((a0r - e : ℝ) : EReal) := by rw [ha0, he, EReal.coe_sub]
  have ha01' : a0 ≤ 1 := by rw [ha0, ← EReal.coe_one]; exact EReal.coe_le_coe_iff.mpr ha01
  obtain ⟨s, hs, hslo, hshi⟩ := hrow m
  rw [hlo, hhi]
  rcases (le_trans hslo hshi).eq_or_lt with heq | hlt
  · subst heq
    have hnorm : ∀ m', norm (S m') (lo : EReal) (lo : EReal) = ⊥ := by
      intro m'
      obtain ⟨r, hr, h1, h2⟩ := hrow m'
      rw [hr, le_antisymm h2 h1]
      exact norm_const lo
    have htop : (Finset.univ.sup fun m' => norm (S m') (lo : EReal) (lo : EReal)) = ⊥ :=
      eq_bot_iff.mpr (Finset.sup_le fun m' _ => (hnorm m').le)
    rw [htop]
    exact entry_degenerate _ _ _ _ _ _ _ _ _ (hnorm m) ha hb hsv hsvpos
  · have hd : 0 < hi - lo := sub_pos.mpr hlt
    have htop : (Finset.univ.sup fun m' => norm (S m') (lo : EReal) (hi : EReal)) = 1 := by
      refine le_antisymm (Finset.sup_le fun m' _ => ?_) ?_
      · obtain ⟨r, hr, _, h2⟩ := hrow m'
        rw [hr, norm_coe hlt, ← EReal.coe_one]
        exact EReal.coe_le_coe_iff.mpr ((div_le_one hd).mpr (sub_le_sub_right h2 lo))
      · have h := Finset.le_sup (f := fun m' => norm (S m') (lo : EReal) (hi : EReal)) (Finset.mem_univ mh)
        have h1 : norm (S mh) (lo : EReal) (hi : EReal) = 1 := by
          rw [hmh, norm_coe hlt, div_self hd.ne', EReal.coe_one]
        rw [h1] at h
        exact h
    rw [htop, hs]
    rw [hs] at *
    exact entry_regular _ _ _ _ _ _ _ _ _ _ (norm_coe hlt) ha hb hsv hsvpos ha01'

/-! ### The two spellings of the whole result agree -/

theorem upper_real {a0 b0 : EReal} {a0r b0r : ℝ} (ha0 : a0 = (a0r : EReal)) (hb0 : b0 = (b0r : EReal)) :
    upper a0 b0 = ((a0r + b0r * (1 - a0r) : ℝ) : EReal) := by
  unfold upper
  rw [ha0, hb0, wOne_eq, ← EReal.coe_one, ← EReal.coe_sub, ← EReal.coe_mul, ← EReal.coe_add]

theorem outR_eq_outK {N M K : ℕ} (x : Fin N → Fin K → EReal) (xn : Fin M → Fin K → EReal)
    (W : Fin 3 → Fin K → EReal) (bias : Fin 3 → EReal)
    (hx : ∀ n k, ∃ r : ℝ, x n k = (r : EReal)) (hxn : ∀ m k, ∃ r : ℝ, xn m k = (r : EReal))
    (hW : ∀ j k, ∃ r : ℝ, W j k = (r : EReal)) (hb : ∀ j, ∃ r : ℝ, bias j = (r : EReal))
    (n : Fin N) (m : Fin M) : Cert.Spec.outR x xn W bias n m = Cert.Spec.outK x xn W bias n m := by
  obtain ⟨a0r, ha0, _, ha01⟩ := head_real x W bias hx hW hb n 0
  obtain ⟨b0r, hb0, _, _⟩ := head_real x W bias hx hW hb n 1
  obtain ⟨svr, hsv, hsvpos, _⟩ := head_real x W bias hx hW hb n 2
  simp only [outR, outK, simR_eq_simK]
  exact entry_row (fun m' => simK x xn n m') (simK_real x xn hx hxn n) m _ _ _ _ _ _ ha0 ha01
    (upper_real ha0 hb0) hsv hsvpos

end Cert.Bridge

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibMatmulRows.lean ====
/-
  A matrix product whose right operand is given by rows.

  When the right operand of a `tpu.matmul` into the zero accumulator is the transpose of an `N × K` array `r`, the entry
  at row `p`, column `q` is, at the ideal values, the inner product of row `p` of the left operand with row `q` of `r`:
  the sum over `k` of `l (p, k) · r (q, k)`.
-/
import proofs.«155337_j27762668601764_1_alg».proof.Proof.LibPlainDot
import Idealize.ShloMosaic.Lib.ValueLayout

noncomputable section

open scoped BigOperators

namespace Cert.Lib.MatmulRows

open Idealize.ShloMosaic Idealize.ShloMosaic.ValueIdx

variable {M K N : Nat}

/-- The product with a transposed right operand, at entry `(p, q)`: the inner product of two rows. -/
theorem matmul_transposed_apply {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![N, K]⟩ φ₂)
    (ht : (⟨2, ![N, K]⟩ : Shape).Transposes [1, 0] ⟨2, ![K, N]⟩) (p : Fin M) (q : Fin N) :
    FloatOps.matmul D prec l (transpose ⟨2, ![K, N]⟩ [1, 0] r ht) (constant ⟨2, ![M, N]⟩ .f32 0x00000000#32) (ix2 p q)
      = ∑ k : Fin K, l (ix2 p k) * r (ix2 q k) := by
  subst hD
  rw [Cert.Lib.PlainDot.matmul_zero_apply]
  exact Finset.sum_congr rfl fun k _ => by rw [transpose_ix2_apply]

end Cert.Lib.MatmulRows

end
-- ==== Proof.LibLeast.lean ====
/-
  General facts about reductions of an `M × N` array read at an index, at the ideal values.

  * Summing along the lanes gives, at row `p`, the sum of the row's `N` entries (`rowSum_apply`).
  * Taking the minimum along the lanes gives, at row `p`, the least of the row's entries and the starting value
    (`rowMin_apply`); along the rows, at column `q`, the least of the column's entries and the starting value
    (`colMin_apply`). The least value is the fold of `min` from the starting value over the axis's coordinates.
-/
import Idealize.ShloMosaic.Lib.ValueIdx
import Idealize.ShloMosaic.PureOps.Ideal.Laws

noncomputable section

open scoped BigOperators

namespace Cert.Lib.Least

open Idealize.ShloMosaic Idealize.ShloMosaic.ValueIdx

variable {M N : Nat}

/-- The row index `p` with lane `k` put back is `(p, k)`. -/
theorem lift_lane (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The column index `q` with row `k` put back is `(k, q)`. -/
theorem lift_row (h : (⟨2, ![M, N]⟩ : Shape).Reduces [0] ⟨1, ![N]⟩) (q : Fin N) (k : Fin M) :
    h.lift (ix1 q) k = ix2 k q := by
  funext a
  apply Fin.ext
  match a with
  | ⟨0, _⟩ => rfl
  | ⟨1, _⟩ => rfl

/-- The sum along the lanes, at row `p`. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ)
    (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_lane h p k)

/-- The minimum along the lanes, at row `p`: the least of the row's entries and the starting value. -/
theorem rowMin_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.minimumf.neutral φ hφ)
    (p : Fin M) :
    multiReduction .minimumf [1] ⟨1, ![M]⟩ src acc h hφ hacc (ix1 p)
      = (Finset.univ : Finset (Fin N)).fold min (Ideal.ofBits φ acc) fun k => src (ix2 p k) := by
  rw [multiReduction_minimumf_eq_fold]
  refine (h.fold_filter_drop_single _ _ src (ix1 p)).trans ?_
  have hf : (src ∘ h.lift (ix1 p)) = fun k : Fin N => src (ix2 p k) := funext fun (k : Fin N) => congrArg src (lift_lane h p k)
  exact congrArg (fun f => Finset.fold min (Ideal.ofBits φ acc) f (Finset.univ : Finset (Fin N))) hf

/-- The minimum along the rows, at column `q`: the least of the column's entries and the starting value. -/
theorem colMin_apply {φ : FTy} (src : FVec Ideal ⟨2, ![M, N]⟩ φ) (acc : BitVec φ.bits)
    (h : (⟨2, ![M, N]⟩ : Shape).Reduces [0] ⟨1, ![N]⟩) (hφ : FKind.Formats φ) (hacc : acc = FKind.minimumf.neutral φ hφ)
    (q : Fin N) :
    multiReduction .minimumf [0] ⟨1, ![N]⟩ src acc h hφ hacc (ix1 q)
      = (Finset.univ : Finset (Fin M)).fold min (Ideal.ofBits φ acc) fun k => src (ix2 k q) := by
  rw [multiReduction_minimumf_eq_fold]
  refine (h.fold_filter_drop_single _ _ src (ix1 q)).trans ?_
  have hf : (src ∘ h.lift (ix1 q)) = fun k : Fin M => src (ix2 k q) := funext fun (k : Fin M) => congrArg src (lift_row h q k)
  exact congrArg (fun f => Finset.fold min (Ideal.ofBits φ acc) f (Finset.univ : Finset (Fin M))) hf

/-! ## The same at f32, with the accumulator's word written out

A printed reduction carries its accumulator as a literal word and a proof that the word equals itself; these forms take
the proof with that type, so that they apply to a printed term as it stands. -/

/-- The sum along the lanes of an f32 array, from the zero word. -/
theorem rowSum_f32 (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) :=
  rowSum_apply src _ h hφ hacc p

/-- The sum down the rows of an `M × 1` f32 column, from the zero word. -/
theorem colSum_f32 (src : FVec Ideal ⟨2, ![M, 1]⟩ .f32) (h : (⟨2, ![M, 1]⟩ : Shape).Reduces [0] ⟨1, ![1]⟩)
    (hφ : FKind.Formats .f32) (hacc : (0x00000000#32 : BitVec 32) = 0x00000000#32) :
    multiReduction .add [0] ⟨1, ![1]⟩ src 0x00000000#32 h hφ hacc (ix1 (0 : Fin 1)) = ∑ k : Fin M, src (ix2 k (0 : Fin 1)) := by
  refine (Ideal.multiReduction_add_single src _ h hφ hacc (ix1 (0 : Fin 1))).trans ?_
  exact Finset.sum_congr rfl fun k _ => congrArg src (lift_row h (0 : Fin 1) k)

/-- The minimum along the lanes of an f32 array, from the word of +∞. -/
theorem rowMin_f32 (src : FVec Ideal ⟨2, ![M, N]⟩ .f32) (h : (⟨2, ![M, N]⟩ : Shape).Reduces [1] ⟨1, ![M]⟩)
    (hφ : FKind.Formats .f32) (hacc : (0x7F800000#32 : BitVec 32) = 0x7F800000#32) (p : Fin M) :
    multiReduction .minimumf [1] ⟨1, ![M]⟩ src 0x7F800000#32 h hφ hacc (ix1 p)
      = (Finset.univ : Finset (Fin N)).fold min (Ideal.ofBits .f32 0x7F800000#32) fun k => src (ix2 p k) :=
  rowMin_apply src _ h hφ hacc p

/-- The minimum down the rows of an f32 array, from the word of +∞. -/
theorem colMin_f32 (src : FVec Ideal ⟨2, ![M, N]⟩ .f32) (h : (⟨2, ![M, N]⟩ : Shape).Reduces [0] ⟨1, ![N]⟩)
    (hφ : FKind.Formats .f32) (hacc : (0x7F800000#32 : BitVec 32) = 0x7F800000#32) (q : Fin N) :
    multiReduction .minimumf [0] ⟨1, ![N]⟩ src 0x7F800000#32 h hφ hacc (ix1 q)
      = (Finset.univ : Finset (Fin M)).fold min (Ideal.ofBits .f32 0x7F800000#32) fun k => src (ix2 k q) :=
  colMin_apply src _ h hφ hacc q

end Cert.Lib.Least

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«155337_j27762668601764_1_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.KPay.lean ====
/-
  The kernel's payloads read at an index, at the ideal values: each pure value the two kernel functions store or
  carry, as the specification's term of the entries of the blocks it is computed from.
-/
import proofs.«155337_j27762668601764_1_alg».proof.Proof.Gen.KernelIdeal.Skeleton
import proofs.«155337_j27762668601764_1_alg».proof.Proof.Spec
import proofs.«155337_j27762668601764_1_alg».proof.Proof.Bridge
import proofs.«155337_j27762668601764_1_alg».proof.Proof.LibMatmulRows
import proofs.«155337_j27762668601764_1_alg».proof.Proof.LibLeast
import proofs.«155337_j27762668601764_1_alg».proof.Proof.LibBlockOps
import proofs.«155337_j27762668601764_1_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KPay

open Idealize.ShloMosaic Idealize.ShloMosaic.ValueIdx Cert.KernelIdeal Cert.KernelIdeal.Gen

/-! ### The similarity tile: a product with the transposed block, scaled by the word of 2^-9 -/

/-- The kernel's dimension numbers for a 512 x 512 by 512 x 512 product are the plain ones. -/
theorem dot512_plain : dot_S512x512_S512x512_S512x512_1_0_0_1_n_n = DotDims.plain 512 512 512 := rfl

theorem k0_pay3_apply (x0 x1 : Vec Ideal S512x512 .f32) (p q : Fin 512) :
    k0_pay3 (F := Ideal) x0 x1 (ix2 p q)
      = Cert.Spec.dot (fun k => x0 (ix2 p k)) (fun k => x1 (ix2 q k)) * Cert.Spec.wScale := by
  unfold k0_pay3
  rw [mulf_apply, broadcast_apply]
  exact congrArg (· * Cert.Spec.wScale)
    (Cert.Lib.MatmulRows.matmul_transposed_apply _ dot512_plain none x0 x1 _ p q)

theorem k1_pay7_apply (x0 x1 : Vec Ideal S512x512 .f32) (p q : Fin 512) :
    k1_pay7 (F := Ideal) x0 x1 (ix2 p q)
      = Cert.Spec.dot (fun k => x0 (ix2 p k)) (fun k => x1 (ix2 q k)) * Cert.Spec.wScale := by
  unfold k1_pay7
  rw [mulf_apply, broadcast_apply]
  exact congrArg (· * Cert.Spec.wScale)
    (Cert.Lib.MatmulRows.matmul_transposed_apply _ dot512_plain none x0 x1 _ p q)

/-! ### The two starting columns: the words of +inf and -inf -/

theorem k0_pay1_apply (p : Fin 512) : k0_pay1 (F := Ideal) (ix2 p (0 : Fin 1)) = Cert.Spec.wPInf := by
  unfold k0_pay1
  rw [shapeCast_self, broadcast_apply]
  rfl

theorem k0_pay2_apply (p : Fin 512) : k0_pay2 (F := Ideal) (ix2 p (0 : Fin 1)) = Cert.Spec.wNInf := by
  unfold k0_pay2
  rw [shapeCast_self, broadcast_apply]
  rfl

/-! ### The running columns: the least and the greatest entry of a row of the tile, joined to what was there -/

theorem k0_pay4_apply (x0 x1 : Vec Ideal S512x512 .f32) (xs : Vec Ideal S512x1 .f32) (p : Fin 512) :
    k0_pay4 (F := Ideal) x0 x1 xs (ix2 p (0 : Fin 1))
      = min (xs (ix2 p (0 : Fin 1))) (Finset.univ.inf fun q : Fin 512 => k0_pay3 (F := Ideal) x0 x1 (ix2 p q)) := by
  unfold k0_pay4
  rw [shapeCast_self, minimumf_apply, Cert.Lib.Column.col_apply]
  refine congrArg (min _) ?_
  refine (Cert.Lib.Least.rowMin_f32 (k0_pay3 (F := Ideal) x0 x1) _ _ _ p).trans ?_
  rw [show Ideal.ofBits .f32 0x7F800000#32 = (⊤ : EReal) from Cert.Bridge.wPInf_eq]
  rfl

theorem k0_pay5_apply (x0 x1 : Vec Ideal S512x512 .f32) (xs : Vec Ideal S512x1 .f32) (p : Fin 512) :
    k0_pay5 (F := Ideal) x0 x1 xs (ix2 p (0 : Fin 1))
      = max (xs (ix2 p (0 : Fin 1))) (Finset.univ.sup fun q : Fin 512 => k0_pay3 (F := Ideal) x0 x1 (ix2 p q)) := by
  unfold k0_pay5
  rw [shapeCast_self, maximumf_apply, Cert.Lib.Column.col_apply]
  refine congrArg (max _) ?_
  refine (Cert.Lib.BlockOps.rowMax_apply (k0_pay3 (F := Ideal) x0 x1) _ _ _ _ p).trans ?_
  rw [Ideal.ofBits_def, show Ideal.ofBits .f32 0xFF800000#32 = (⊥ : EReal) from Cert.Bridge.wNInf_eq]
  rfl

/-! ### Pointwise operations read at an index -/

theorem logistic_apply {s : Shape} {φ : FTy} (a : FVec Ideal s φ) (i : s.Idx) : logistic a i = Ideal.logistic (a i) := rfl
theorem log_apply {s : Shape} {φ : FTy} (a : FVec Ideal s φ) (i : s.Idx) : log a i = Ideal.log (a i) := rfl
theorem exp_apply {s : Shape} {φ : FTy} (a : FVec Ideal s φ) (i : s.Idx) : exp a i = Ideal.exp (a i) := rfl
theorem absf_apply {s : Shape} {φ : FTy} (a : FVec Ideal s φ) (i : s.Idx) : absf a i = max (a i) (-(a i)) := rfl

/-! ### The head: a product with the transposed weights, the bias row, the sigmoid, clipped to [eps, 1] -/

theorem dot3_plain : dot_S512x512_S512x3_S512x3_1_0_0_1_n_n = DotDims.plain 512 512 3 := rfl

/-- The head's three parameters of row p, as the specification spells them from the blocks. -/
abbrev headOf (x0 : Vec Ideal S512x512 .f32) (x2 : Vec Ideal S3x512 .f32) (x3 : Vec Ideal S1x3 .f32)
    (p : Fin 512) (j : Fin 3) : EReal :=
  Cert.Spec.head (fun n k => x0 (ix2 n k)) (fun j k => x2 (ix2 j k)) (fun j => x3 (ix2 (0 : Fin 1) j)) p j

theorem k1_pay2_apply (x0 : Vec Ideal S512x512 .f32) (x2 : Vec Ideal S3x512 .f32) (x3 : Vec Ideal S1x3 .f32)
    (p : Fin 512) (j : Fin 3) :
    k1_pay2 (F := Ideal) x0 x2 x3 (ix2 p j)
      = Cert.Spec.head (fun n k => x0 (ix2 n k)) (fun j k => x2 (ix2 j k)) (fun j => x3 (ix2 (0 : Fin 1) j)) p j := by
  unfold k1_pay2 Cert.Spec.head
  rw [minimumf_apply, broadcast_apply, maximumf_apply, broadcast_apply, logistic_apply, addf_apply, shapeCast_self,
    broadcastTo_1b_ab_apply]
  exact congrArg (fun t => min Cert.Spec.wOne (max Cert.Spec.wEps (Ideal.logistic (t + x3 (ix2 (0 : Fin 1) j)))))
    (Cert.Lib.MatmulRows.matmul_transposed_apply _ dot3_plain none x0 x2 _ p j)

/-- Column c of a 512 x 3 array, sliced off as a 512 x 1 column, reads the array at (p, c). -/
theorem slice_col_apply (y : FVec Ideal S512x3 .f32) (c : Fin 3) (h : S512x3.Slices ![0, c.val] S512x1) (p : Fin 512) :
    extractStridedSlice S512x1 ![0, c.val] y h (ix2 p (0 : Fin 1)) = y (ix2 p c) := by
  refine extractStridedSlice_apply ![0, c.val] y h (ix2 p (0 : Fin 1)) (ix2 p c) (fun a => ?_)
  match a with
  | ⟨0, _⟩ => show p.val = 0 + p.val; omega
  | ⟨1, _⟩ => show c.val = c.val + 0; omega

theorem k1_pay3_apply (x0 : Vec Ideal S512x512 .f32) (x2 : Vec Ideal S3x512 .f32) (x3 : Vec Ideal S1x3 .f32) (p : Fin 512) :
    k1_pay3 (F := Ideal) x0 x2 x3 (ix2 p (0 : Fin 1)) = headOf x0 x2 x3 p 0 := by
  unfold k1_pay3
  exact (slice_col_apply (k1_pay2 (F := Ideal) x0 x2 x3) 0 _ p).trans (k1_pay2_apply x0 x2 x3 p 0)

theorem k1_pay4_apply (x0 : Vec Ideal S512x512 .f32) (x2 : Vec Ideal S3x512 .f32) (x3 : Vec Ideal S1x3 .f32) (p : Fin 512) :
    k1_pay4 (F := Ideal) x0 x2 x3 (ix2 p (0 : Fin 1)) = headOf x0 x2 x3 p 0 - Cert.Spec.wEps := by
  unfold k1_pay4
  rw [shapeCast_self, subf_apply, broadcast_apply, k1_pay3_apply]
  rfl

theorem k1_pay5_apply (x0 : Vec Ideal S512x512 .f32) (x2 : Vec Ideal S3x512 .f32) (x3 : Vec Ideal S1x3 .f32) (p : Fin 512) :
    k1_pay5 (F := Ideal) x0 x2 x3 (ix2 p (0 : Fin 1)) = Cert.Spec.upper (headOf x0 x2 x3 p 0) (headOf x0 x2 x3 p 1) := by
  unfold k1_pay5 Cert.Spec.upper
  rw [shapeCast_self, addf_apply, mulf_apply, subf_apply, broadcast_apply, k1_pay3_apply]
  exact congrArg (fun t => headOf x0 x2 x3 p 0 + t * (Cert.Spec.wOne - headOf x0 x2 x3 p 0))
    ((slice_col_apply (k1_pay2 (F := Ideal) x0 x2 x3) 1 _ p).trans (k1_pay2_apply x0 x2 x3 p 1))

theorem k1_pay6_apply (x0 : Vec Ideal S512x512 .f32) (x2 : Vec Ideal S3x512 .f32) (x3 : Vec Ideal S1x3 .f32) (p : Fin 512) :
    k1_pay6 (F := Ideal) x0 x2 x3 (ix2 p (0 : Fin 1)) = headOf x0 x2 x3 p 2 := by
  unfold k1_pay6
  rw [shapeCast_self]
  exact (slice_col_apply (k1_pay2 (F := Ideal) x0 x2 x3) 2 _ p).trans (k1_pay2_apply x0 x2 x3 p 2)

/-! ### A comparison's mask choosing between two values -/

theorem select_cmp_olt {α : Type} (x y : EReal) (A B : α) :
    Scalar.select (Ideal.cmp .olt x y) A B = @ite α (x < y) (Classical.dec _) A B := by
  unfold Ideal.cmp Scalar.select
  by_cases h : x < y <;> simp [h]

theorem select_cmp_ogt {α : Type} (x y : EReal) (A B : α) :
    Scalar.select (Ideal.cmp .ogt x y) A B = @ite α (y < x) (Classical.dec _) A B := by
  unfold Ideal.cmp Scalar.select
  by_cases h : y < x <;> simp [h]

/-! ### The tile of the second kernel -/

/-- The normalised entry: the similarity minus the row's least entry, over the row's greatest minus its least. -/
theorem k1_pay8_apply (x0 x1 : Vec Ideal S512x512 .f32) (x4 x5 : Vec Ideal S512x1 .f32) (p q : Fin 512) :
    k1_pay8 (F := Ideal) x0 x1 x4 x5 (ix2 p q)
      = Cert.Spec.norm (k1_pay7 (F := Ideal) x0 x1 (ix2 p q)) (x4 (ix2 p (0 : Fin 1))) (x5 (ix2 p (0 : Fin 1))) := by
  unfold k1_pay8 Cert.Spec.norm
  rw [divf_apply, subf_apply, Cert.Lib.Column.colBroadcast_apply, Cert.Lib.Column.colBroadcast_apply, subf_apply,
    shapeCast_self, shapeCast_self]

/-- The exponent 1/s. -/
theorem k1_pay9_apply (s : Vec Ideal S512x1 .f32) (p : Fin 512) :
    k1_pay9 (F := Ideal) s (ix2 p (0 : Fin 1)) = Ideal.div Cert.Spec.wOne (s (ix2 p (0 : Fin 1))) := by
  unfold k1_pay9
  rw [divf_apply, broadcast_apply]
  rfl

/-- The first power, spelt exp ((1/s) * log |sn - a|). -/
theorem k1_pay10_apply (x0 x1 : Vec Ideal S512x512 .f32) (x4 x5 a s : Vec Ideal S512x1 .f32) (p q : Fin 512) :
    k1_pay10 (F := Ideal) x0 x1 x4 x5 a s (ix2 p q)
      = Ideal.exp (Ideal.div Cert.Spec.wOne (s (ix2 p (0 : Fin 1)))
          * Ideal.log (max (k1_pay8 (F := Ideal) x0 x1 x4 x5 (ix2 p q) - a (ix2 p (0 : Fin 1)))
              (-(k1_pay8 (F := Ideal) x0 x1 x4 x5 (ix2 p q) - a (ix2 p (0 : Fin 1)))))) := by
  unfold k1_pay10
  rw [exp_apply, mulf_apply, Cert.Lib.Column.colBroadcast_apply, k1_pay9_apply, log_apply, absf_apply, subf_apply,
    Cert.Lib.Column.colBroadcast_apply]

/-- The second power, spelt exp ((1/s) * log |b - sn|). -/
theorem k1_pay11_apply (x0 x1 : Vec Ideal S512x512 .f32) (x4 x5 b s : Vec Ideal S512x1 .f32) (p q : Fin 512) :
    k1_pay11 (F := Ideal) x0 x1 x4 x5 b s (ix2 p q)
      = Ideal.exp (Ideal.div Cert.Spec.wOne (s (ix2 p (0 : Fin 1)))
          * Ideal.log (max (b (ix2 p (0 : Fin 1)) - k1_pay8 (F := Ideal) x0 x1 x4 x5 (ix2 p q))
              (-(b (ix2 p (0 : Fin 1)) - k1_pay8 (F := Ideal) x0 x1 x4 x5 (ix2 p q))))) := by
  unfold k1_pay11
  rw [exp_apply, mulf_apply, Cert.Lib.Column.colBroadcast_apply, k1_pay9_apply, log_apply, absf_apply, subf_apply,
    Cert.Lib.Column.colBroadcast_apply]

/-- The stored tile over arbitrary operands: the entry plus the logarithm of the mask. -/
theorem k1_pay1_apply (v8 v17 : FVec Ideal S512x512 .f32) (a b : Vec Ideal S512x1 .f32) (v32 v36 : FVec Ideal S512x512 .f32)
    (p q : Fin 512) :
    k1_pay1 (F := Ideal) v8 v17 a b v32 v36 (Scalar.ofBits .f32 0x2B8CBCCC#32) (ix2 p q)
      = v8 (ix2 p q) + Cert.Spec.logMask (v32 (ix2 p q)) (v36 (ix2 p q)) (v17 (ix2 p q))
          (a (ix2 p (0 : Fin 1))) (b (ix2 p (0 : Fin 1))) := by
  unfold k1_pay1 Cert.Spec.logMask
  simp only [addf_apply, select_apply, cmpf_apply, Ideal.cmpf_def, log_apply, divf_apply, maximumf_apply, broadcast_apply,
    Cert.Lib.Column.colBroadcast_apply, select_cmp_olt, select_cmp_ogt]
  rfl

/-- THE TILE: what the second kernel stores at (p, q) is the specification's entry, first spelling. -/
theorem tile_apply (x0 x1 : Vec Ideal S512x512 .f32) (x4 x5 a b s : Vec Ideal S512x1 .f32) (p q : Fin 512) :
    k1_pay1 (F := Ideal) (k1_pay7 (F := Ideal) x0 x1) (k1_pay8 (F := Ideal) x0 x1 x4 x5) a b
        (k1_pay10 (F := Ideal) x0 x1 x4 x5 a s) (k1_pay11 (F := Ideal) x0 x1 x4 x5 b s)
        (Scalar.ofBits .f32 0x2B8CBCCC#32) (ix2 p q)
      = Cert.Spec.entryK (k1_pay7 (F := Ideal) x0 x1 (ix2 p q)) (x4 (ix2 p (0 : Fin 1))) (x5 (ix2 p (0 : Fin 1)))
          (a (ix2 p (0 : Fin 1))) (b (ix2 p (0 : Fin 1))) (s (ix2 p (0 : Fin 1))) := by
  rw [k1_pay1_apply, k1_pay10_apply, k1_pay11_apply, k1_pay8_apply]
  rfl

end Cert.KPay

end
-- ==== Proof.R0Val.lean ====
/-
  The first region's two result arrays after the region.

  The region walks an 8 x 16 grid of 512 x 512 tiles of the similarity matrix: point t is row-tile t / 16,
  column-tile t % 16. Two columns of 512 entries carry, for each row of the tile, the least and the greatest entry
  met so far along the row of tiles; they start from +inf / -inf in column-tile 0 and are written to the result
  arrays in column-tile 15. So after point t the first column holds, for row p of row-tile t / 16, the least
  similarity over the first 512 (t % 16 + 1) columns; at the last column-tile that is the least over the whole row.
-/
import proofs.«155337_j27762668601764_1_alg».proof.Proof.R0Data
import proofs.«155337_j27762668601764_1_alg».proof.Proof.KPay
import proofs.«155337_j27762668601764_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The windows' arrays -/

theorem arrRef0_0 : Pipeline.arrRef spec0 0 = main_arg0 := rfl
theorem arrRef0_1 : Pipeline.arrRef spec0 1 = main_arg1 := rfl
theorem arrRef0_2 : Pipeline.arrRef spec0 2 = main_v0_0 := rfl
theorem arrRef0_3 : Pipeline.arrRef spec0 3 = main_v0_1 := rfl

/-! ## Least and greatest over the first columns of a row, 512 more columns at a time -/

section Rows

/-- The least over the first 512 (j + 1) columns is the least over the first 512 j joined with the least over the
    next 512. -/
theorem inf_first_succ (f : Fin 8192 → EReal) (j : ℕ) (hj : 512 * (j + 1) ≤ 8192) :
    (Finset.univ.filter fun m : Fin 8192 => m.val < 512 * (j + 1)).inf f
      = min ((Finset.univ.filter fun m : Fin 8192 => m.val < 512 * j).inf f)
          (Finset.univ.inf fun q : Fin 512 => f ⟨512 * j + q.val, by have := q.isLt; omega⟩) := by
  apply le_antisymm
  · refine le_min (Finset.le_inf fun m hm => Finset.inf_le ?_) (Finset.le_inf fun q _ => Finset.inf_le ?_)
    · rw [Finset.mem_filter] at hm ⊢; exact ⟨Finset.mem_univ _, by have := hm.2; omega⟩
    · rw [Finset.mem_filter]; exact ⟨Finset.mem_univ _, by have := q.isLt; show 512 * j + q.val < _; omega⟩
  · refine Finset.le_inf fun m hm => ?_
    rw [Finset.mem_filter] at hm
    rcases Nat.lt_or_ge m.val (512 * j) with h | h
    · exact (min_le_left _ _).trans (Finset.inf_le (by rw [Finset.mem_filter]; exact ⟨Finset.mem_univ _, h⟩))
    · refine (min_le_right _ _).trans ?_
      refine (Finset.inf_le (Finset.mem_univ (⟨m.val - 512 * j, by have := hm.2; omega⟩ : Fin 512))).trans_eq ?_
      exact congrArg f (Fin.ext (by show 512 * j + (m.val - 512 * j) = m.val; omega))

/-- The greatest over the first 512 (j + 1) columns likewise. -/
theorem sup_first_succ (f : Fin 8192 → EReal) (j : ℕ) (hj : 512 * (j + 1) ≤ 8192) :
    (Finset.univ.filter fun m : Fin 8192 => m.val < 512 * (j + 1)).sup f
      = max ((Finset.univ.filter fun m : Fin 8192 => m.val < 512 * j).sup f)
          (Finset.univ.sup fun q : Fin 512 => f ⟨512 * j + q.val, by have := q.isLt; omega⟩) := by
  apply le_antisymm
  · refine Finset.sup_le fun m hm => ?_
    rw [Finset.mem_filter] at hm
    rcases Nat.lt_or_ge m.val (512 * j) with h | h
    · exact (Finset.le_sup (f := f) (by rw [Finset.mem_filter]; exact ⟨Finset.mem_univ _, h⟩)).trans (le_max_left _ _)
    · refine le_trans ?_ (le_max_right _ _)
      refine Eq.trans_le ?_ (Finset.le_sup (Finset.mem_univ (⟨m.val - 512 * j, by have := hm.2; omega⟩ : Fin 512)))
      exact congrArg f (Fin.ext (by show m.val = 512 * j + (m.val - 512 * j); omega))
  · refine max_le (Finset.sup_le fun m hm => Finset.le_sup ?_) (Finset.sup_le fun q _ => Finset.le_sup ?_)
    · rw [Finset.mem_filter] at hm ⊢; exact ⟨Finset.mem_univ _, by have := hm.2; omega⟩
    · rw [Finset.mem_filter]; exact ⟨Finset.mem_univ _, by have := q.isLt; show 512 * j + q.val < _; omega⟩

/-- No column is below 0: the least over none is the top element, the greatest the bottom. -/
theorem inf_first_zero (f : Fin 8192 → EReal) : (Finset.univ.filter fun m : Fin 8192 => m.val < 512 * 0).inf f = ⊤ := by
  rw [Finset.filter_false_of_mem (fun m _ => by omega), Finset.inf_empty]
theorem sup_first_zero (f : Fin 8192 → EReal) : (Finset.univ.filter fun m : Fin 8192 => m.val < 512 * 0).sup f = ⊥ := by
  rw [Finset.filter_false_of_mem (fun m _ => by omega), Finset.sup_empty]

/-- Every column is below 8192. -/
theorem first_all : (Finset.univ.filter fun m : Fin 8192 => m.val < 512 * (15 + 1)) = Finset.univ :=
  Finset.filter_true_of_mem fun m _ => by have := m.isLt; omega

end Rows

/-! ## The grid's index maps, and the input blocks read where they sit -/

theorem idx0_facts : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val / 16 ∧ win0_3.index t (1 : Fin 2) = 0 :=
  (by decide +kernel : ∀ t : Fin grid0.N, _)

theorem tN (t : Fin cfg0.N) : t.val < 128 := lt_of_lt_of_eq t.isLt N_0

section R0Val

variable (V : (c : Dev nD) → (b : Ref sig .tc) → Buf (Elt Ideal) ((c : Thread nD τ).loc b))

/-- Row p of the first input's block at point t is row 512 (t / 16) + p of the array. -/
theorem iblk0_0_apply (c : Dev nD) (t : Fin cfg0.N) (p k : Fin 512) :
    (iblk0 V c 0 t : Vec Ideal S512x512 .f32) (ix2 p k)
      = (V c main_arg0 : S4096x512.Idx → EReal) (ix2 ⟨512 * (t.val / 16) + p.val, by have := tN t; have := p.isLt; omega⟩ k) := by
  unfold iblk0
  rw [View.read_apply]
  show V c main_arg0 (((cfg0.win 0).blk t).view.emb (ix2 p k)) = V c main_arg0 _
  refine congrArg (V c main_arg0) ?_
  obtain ⟨e0, e1, -⟩ := idx0_facts t
  funext a
  apply Fin.ext
  match a with
  | ⟨0, _⟩ => show win0_0.index t (0 : Fin 2) * 512 + 1 * p.val = 512 * (t.val / 16) + p.val; rw [e0]; omega
  | ⟨1, _⟩ => show win0_0.index t (1 : Fin 2) * 512 + 1 * k.val = k.val; rw [e1]; omega

/-- Row q of the second input's block at point t is row 512 (t % 16) + q of the array. -/
theorem iblk0_1_apply (c : Dev nD) (t : Fin cfg0.N) (q k : Fin 512) :
    (iblk0 V c 1 t : Vec Ideal S512x512 .f32) (ix2 q k)
      = (V c main_arg1 : S8192x512.Idx → EReal) (ix2 ⟨512 * (t.val % 16) + q.val, by have := q.isLt; omega⟩ k) := by
  unfold iblk0
  rw [View.read_apply]
  show V c main_arg1 (((cfg0.win 1).blk t).view.emb (ix2 q k)) = V c main_arg1 _
  refine congrArg (V c main_arg1) ?_
  obtain ⟨-, -, e0, e1, -⟩ := idx0_facts t
  funext a
  apply Fin.ext
  match a with
  | ⟨0, _⟩ => show win0_1.index t (0 : Fin 2) * 512 + 1 * q.val = 512 * (t.val % 16) + q.val; rw [e0]; omega
  | ⟨1, _⟩ => show win0_1.index t (1 : Fin 2) * 512 + 1 * k.val = k.val; rw [e1]; omega

/-! ## What the two columns hold after each point -/

/-- The two inputs as functions of their coordinates. -/
abbrev XK (c : Dev nD) : Fin 4096 → Fin 512 → EReal := fun n k => (V c main_arg0 : S4096x512.Idx → EReal) (ix2 n k)
abbrev XNK (c : Dev nD) : Fin 8192 → Fin 512 → EReal := fun m k => (V c main_arg1 : S8192x512.Idx → EReal) (ix2 m k)

/-- Row p of the tile at point t, as a row of the array. -/
abbrev rowOf (t : Fin cfg0.N) (p : Fin 512) : Fin 4096 :=
  ⟨512 * (t.val / 16) + p.val, by have := tN t; have := p.isLt; omega⟩

/-- The least and the greatest similarity of row n over the first 512 j columns. -/
def loUpTo (c : Dev nD) (n : Fin 4096) (j : ℕ) : EReal :=
  (Finset.univ.filter fun m : Fin 8192 => m.val < 512 * j).inf (Cert.Spec.simK (XK V c) (XNK V c) n)
def hiUpTo (c : Dev nD) (n : Fin 4096) (j : ℕ) : EReal :=
  (Finset.univ.filter fun m : Fin 8192 => m.val < 512 * j).sup (Cert.Spec.simK (XK V c) (XNK V c) n)

/-- An entry of the tile's product is the similarity of its row and its column. -/
theorem tile_entry (c : Dev nD) (t : Fin cfg0.N) (p q : Fin 512) :
    k0_pay3 (F := Ideal) (iblk0 V c 0 t) (iblk0 V c 1 t) (ix2 p q)
      = Cert.Spec.simK (XK V c) (XNK V c) (rowOf t p) ⟨512 * (t.val % 16) + q.val, by have := q.isLt; omega⟩ := by
  refine (Cert.KPay.k0_pay3_apply (iblk0 V c 0 t) (iblk0 V c 1 t) p q).trans ?_
  unfold Cert.Spec.simK
  refine congrArg (· * Cert.Spec.wScale) ?_
  exact congrArg₂ Cert.Spec.dot (funext fun k => iblk0_0_apply V c t p k) (funext fun k => iblk0_1_apply V c t q k)

/-- The tile's least entry along row p is the least similarity over the tile's 512 columns. -/
theorem tile_inf (c : Dev nD) (t : Fin cfg0.N) (p : Fin 512) (j : ℕ) (hj : t.val % 16 = j) :
    (Finset.univ.inf fun q : Fin 512 => k0_pay3 (F := Ideal) (iblk0 V c 0 t) (iblk0 V c 1 t) (ix2 p q))
      = Finset.univ.inf fun q : Fin 512 =>
          Cert.Spec.simK (XK V c) (XNK V c) (rowOf t p) ⟨512 * j + q.val, by have := q.isLt; omega⟩ := by
  subst hj
  exact Finset.inf_congr rfl fun q _ => tile_entry V c t p q

theorem tile_sup (c : Dev nD) (t : Fin cfg0.N) (p : Fin 512) (j : ℕ) (hj : t.val % 16 = j) :
    (Finset.univ.sup fun q : Fin 512 => k0_pay3 (F := Ideal) (iblk0 V c 0 t) (iblk0 V c 1 t) (ix2 p q))
      = Finset.univ.sup fun q : Fin 512 =>
          Cert.Spec.simK (XK V c) (XNK V c) (rowOf t p) ⟨512 * j + q.val, by have := q.isLt; omega⟩ := by
  subst hj
  exact Finset.sup_congr rfl fun q _ => tile_entry V c t p q

/-- In the first column of tiles the two columns start from +inf / -inf. -/
theorem acc0_first_apply (c : Dev nD) (t : Fin cfg0.N) (h : t.val % 16 = 0) (p : Fin 512) :
    (acc0 V c t.val t.isLt).1 (ix2 p (0 : Fin 1)) = loUpTo V c (rowOf t p) (t.val % 16 + 1)
    ∧ (acc0 V c t.val t.isLt).2 (ix2 p (0 : Fin 1)) = hiUpTo V c (rowOf t p) (t.val % 16 + 1) := by
  rw [acc0_first V c t h, h]
  dsimp only
  constructor
  · refine (Cert.KPay.k0_pay4_apply (iblk0 V c 0 t) (iblk0 V c 1 t) (k0_pay1 (F := Ideal)) p).trans ?_
    rw [Cert.KPay.k0_pay1_apply, Cert.Bridge.wPInf_eq, tile_inf V c t p 0 h]
    unfold loUpTo
    rw [inf_first_succ _ 0 (by norm_num), inf_first_zero]
  · refine (Cert.KPay.k0_pay5_apply (iblk0 V c 0 t) (iblk0 V c 1 t) (k0_pay2 (F := Ideal)) p).trans ?_
    rw [Cert.KPay.k0_pay2_apply, Cert.Bridge.wNInf_eq, tile_sup V c t p 0 h]
    unfold hiUpTo
    rw [sup_first_succ _ 0 (by norm_num), sup_first_zero]

/-- In a later column of tiles they join what the point before left with the tile's own least / greatest. -/
theorem acc0_later_apply (c : Dev nD) (t : Fin cfg0.N) (h : ¬t.val % 16 = 0) (p : Fin 512)
    (ih : (acc0 V c (t.val - 1) (Nat.lt_of_le_of_lt (Nat.sub_le _ _) t.isLt)).1 (ix2 p (0 : Fin 1)) = loUpTo V c (rowOf t p) (t.val % 16)
      ∧ (acc0 V c (t.val - 1) (Nat.lt_of_le_of_lt (Nat.sub_le _ _) t.isLt)).2 (ix2 p (0 : Fin 1)) = hiUpTo V c (rowOf t p) (t.val % 16)) :
    (acc0 V c t.val t.isLt).1 (ix2 p (0 : Fin 1)) = loUpTo V c (rowOf t p) (t.val % 16 + 1)
    ∧ (acc0 V c t.val t.isLt).2 (ix2 p (0 : Fin 1)) = hiUpTo V c (rowOf t p) (t.val % 16 + 1) := by
  have hj : 512 * (t.val % 16 + 1) ≤ 8192 := by omega
  rw [acc0_later V c t h]
  dsimp only
  constructor
  · refine (Cert.KPay.k0_pay4_apply (iblk0 V c 0 t) (iblk0 V c 1 t) _ p).trans ?_
    rw [ih.1, tile_inf V c t p (t.val % 16) rfl]
    unfold loUpTo
    rw [inf_first_succ _ (t.val % 16) hj]
  · refine (Cert.KPay.k0_pay5_apply (iblk0 V c 0 t) (iblk0 V c 1 t) _ p).trans ?_
    rw [ih.2, tile_sup V c t p (t.val % 16) rfl]
    unfold hiUpTo
    rw [sup_first_succ _ (t.val % 16) hj]

/-- After point n the first column holds the least, the second the greatest similarity of each of the tile's rows over
    the columns of the tiles walked so far in this row of tiles. -/
theorem acc0_inv (c : Dev nD) : ∀ (n : ℕ) (hn : n < cfg0.N) (p : Fin 512),
    (acc0 V c n hn).1 (ix2 p (0 : Fin 1)) = loUpTo V c (rowOf ⟨n, hn⟩ p) (n % 16 + 1)
    ∧ (acc0 V c n hn).2 (ix2 p (0 : Fin 1)) = hiUpTo V c (rowOf ⟨n, hn⟩ p) (n % 16 + 1) := by
  intro n
  induction n with
  | zero => intro hn p; exact acc0_first_apply V c ⟨0, hn⟩ rfl p
  | succ n ih =>
    intro hn p
    by_cases h : (n + 1) % 16 = 0
    · exact acc0_first_apply V c ⟨n + 1, hn⟩ h p
    · refine acc0_later_apply V c ⟨n + 1, hn⟩ h p ?_
      have ihn := ih (Nat.lt_of_succ_lt hn) p
      have hrow : rowOf ⟨n, Nat.lt_of_succ_lt hn⟩ p = rowOf ⟨n + 1, hn⟩ p :=
        Fin.ext (by show 512 * (n / 16) + p.val = 512 * ((n + 1) / 16) + p.val; omega)
      have hcol : n % 16 + 1 = (n + 1) % 16 := by omega
      rw [hrow, hcol] at ihn
      exact ihn

/-! ## From the last column of tiles to the arrays -/

/-- Each row's least and greatest similarity over all 8192 columns, as contents of a 4096 x 1 array. -/
def G_lo (c : Dev nD) : S4096x1.Idx → EReal := fun i =>
  Finset.univ.inf fun m : Fin 8192 => Cert.Spec.simK (XK V c) (XNK V c) ⟨(i 0).val, idx2_lt0 i⟩ m
def G_hi (c : Dev nD) : S4096x1.Idx → EReal := fun i =>
  Finset.univ.sup fun m : Fin 8192 => Cert.Spec.simK (XK V c) (XNK V c) ⟨(i 0).val, idx2_lt0 i⟩ m

/-- What a point of the last column of tiles writes back to the first result array is its block of the rows' least
    similarities: by then the running column has met all 16 tiles of the row. -/
theorem flushed0_2_eq (c : Dev nD) (t : Fin cfg0.N) (hf : (cfg0.win 2).flush t = true) :
    (dat0 V c).flushed 2 t = ((cfg0.win 2).blk t).view.read (Elt Ideal) (G_lo V c) := by
  have h15 : t.val % 16 = 15 := (flush0_2 t).mp hf
  show (cfg0.win 2).cut (grid0.coords t) ((dat0 V c).after 2 t) = _
  rw [after0_2]
  funext y
  obtain ⟨p, z, rfl⟩ : ∃ (p : Fin 512) (z : Fin 1), y = ix2 p z := ⟨y 0, y 1, eq_ix2 (n0 := 512) (n1 := 1) y⟩
  obtain rfl : z = 0 := Subsingleton.elim _ _
  rw [View.read_apply]
  show (acc0 V c t.val t.isLt).1 (ix2 p (0 : Fin 1)) = G_lo V c (((cfg0.win 2).blk t).view.emb (ix2 p (0 : Fin 1)))
  rw [(acc0_inv V c t.val t.isLt p).1, h15]
  unfold loUpTo G_lo
  rw [first_all]
  refine congrArg (fun n => Finset.univ.inf (Cert.Spec.simK (XK V c) (XNK V c) n)) (Fin.ext ?_)
  show 512 * (t.val / 16) + p.val = win0_2.index t (0 : Fin 2) * 512 + 1 * p.val
  rw [(idx0_facts t).2.2.2.2.1]; omega

theorem flushed0_3_eq (c : Dev nD) (t : Fin cfg0.N) (hf : (cfg0.win 3).flush t = true) :
    (dat0 V c).flushed 3 t = ((cfg0.win 3).blk t).view.read (Elt Ideal) (G_hi V c) := by
  have h15 : t.val % 16 = 15 := (flush0_3 t).mp hf
  show (cfg0.win 3).cut (grid0.coords t) ((dat0 V c).after 3 t) = _
  rw [after0_3]
  funext y
  obtain ⟨p, z, rfl⟩ : ∃ (p : Fin 512) (z : Fin 1), y = ix2 p z := ⟨y 0, y 1, eq_ix2 (n0 := 512) (n1 := 1) y⟩
  obtain rfl : z = 0 := Subsingleton.elim _ _
  rw [View.read_apply]
  show (acc0 V c t.val t.isLt).2 (ix2 p (0 : Fin 1)) = G_hi V c (((cfg0.win 3).blk t).view.emb (ix2 p (0 : Fin 1)))
  rw [(acc0_inv V c t.val t.isLt p).2, h15]
  unfold hiUpTo G_hi
  rw [first_all]
  refine congrArg (fun n => Finset.univ.sup (Cert.Spec.simK (XK V c) (XNK V c) n)) (Fin.ext ?_)
  show 512 * (t.val / 16) + p.val = win0_3.index t (0 : Fin 2) * 512 + 1 * p.val
  rw [(idx0_facts t).2.2.2.2.2.2.1]; omega

/-- Row n of either result array lies in the block of the last point of its row of tiles, 16 (n / 512) + 15. -/
theorem cover0_2 (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  obtain ⟨t, ht⟩ : ∃ t : Fin cfg0.N, t.val = 16 * ((i 0).val / 512) + 15 :=
    ⟨⟨16 * ((i 0).val / 512) + 15, (show 16 * ((i 0).val / 512) + 15 < 128 by omega).trans_eq N_0.symm⟩, rfl⟩
  refine ⟨t, (flush0_2 t).mpr (by omega), ?_⟩
  show i ∈ ((View.whole main_v0_0).slice (win0_2.rect t)).set
  rw [View.set_slice_whole, Rect.mem_set_unit]
  obtain ⟨-, -, -, -, e0, e1, -⟩ := idx0_facts t
  intro a
  match a with
  | ⟨0, _⟩ =>
    show win0_2.index t (0 : Fin 2) * 512 ≤ (i 0).val ∧ (i 0).val < win0_2.index t (0 : Fin 2) * 512 + 512
    rw [e0]; omega
  | ⟨1, _⟩ =>
    show win0_2.index t (1 : Fin 2) * 1 ≤ (i 1).val ∧ (i 1).val < win0_2.index t (1 : Fin 2) * 1 + 1
    rw [e1]; omega

theorem cover0_3 (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  obtain ⟨t, ht⟩ : ∃ t : Fin cfg0.N, t.val = 16 * ((i 0).val / 512) + 15 :=
    ⟨⟨16 * ((i 0).val / 512) + 15, (show 16 * ((i 0).val / 512) + 15 < 128 by omega).trans_eq N_0.symm⟩, rfl⟩
  refine ⟨t, (flush0_3 t).mpr (by omega), ?_⟩
  show i ∈ ((View.whole main_v0_1).slice (win0_3.rect t)).set
  rw [View.set_slice_whole, Rect.mem_set_unit]
  obtain ⟨-, -, -, -, -, -, e0, e1⟩ := idx0_facts t
  intro a
  match a with
  | ⟨0, _⟩ =>
    show win0_3.index t (0 : Fin 2) * 512 ≤ (i 0).val ∧ (i 0).val < win0_3.index t (0 : Fin 2) * 512 + 512
    rw [e0]; omega
  | ⟨1, _⟩ =>
    show win0_3.index t (1 : Fin 2) * 1 ≤ (i 1).val ∧ (i 1).val < win0_3.index t (1 : Fin 2) * 1 + 1
    rw [e1]; omega

/-- After the region the first result array holds each row's least similarity, the second its greatest. -/
theorem arr0_lo_all (c : Dev nD) : (dat0 V c).arrAt 2 cfg0.N = G_lo V c :=
  (dat0 V c).arrAt_eq_of_cover 2 _ (flushed0_2_eq V c) cover0_2

theorem arr0_hi_all (c : Dev nD) : (dat0 V c).arrAt 3 cfg0.N = G_hi V c :=
  (dat0 V c).arrAt_eq_of_cover 3 _ (flushed0_3_eq V c) cover0_3

theorem arr0_lo (c : Dev nD) (n : Fin 4096) :
    ((dat0 V c).arrAt 2 cfg0.N : S4096x1.Idx → EReal) (ix2 n (0 : Fin 1))
      = Finset.univ.inf fun m : Fin 8192 => Cert.Spec.simK (XK V c) (XNK V c) n m := by
  rw [arr0_lo_all]; rfl

theorem arr0_hi (c : Dev nD) (n : Fin 4096) :
    ((dat0 V c).arrAt 3 cfg0.N : S4096x1.Idx → EReal) (ix2 n (0 : Fin 1))
      = Finset.univ.sup fun m : Fin 8192 => Cert.Spec.simK (XK V c) (XNK V c) n m := by
  rw [arr0_hi_all]; rfl

end R0Val

end Cert.KernelIdeal.Hand

end
-- ==== Proof.R1Val.lean ====
/-
  From the second kernel's blocks to its array, at the ideal values: the result array after the second region holds,
  at row n and column m, the specification's entry (first spelling) of the argument arrays as the region finds them.
-/
import proofs.«155337_j27762668601764_1_alg».proof.Proof.R1Data
import proofs.«155337_j27762668601764_1_alg».proof.Proof.KPay

noncomputable section

namespace Cert.R1Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

/-! ### The index maps, decided once over the grid -/

/-- The printed index maps over the 8 x 16 grid: point t is row tile t / 16, column tile t % 16. -/
theorem idx1 : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 16 ∧ win1_4.index t (1 : Fin 2) = 0
    ∧ win1_5.index t (0 : Fin 2) = t.val / 16 ∧ win1_5.index t (1 : Fin 2) = 0
    ∧ win1_6.index t (0 : Fin 2) = t.val / 16 ∧ win1_6.index t (1 : Fin 2) = t.val % 16 :=
  (by decide +kernel : ∀ t : Fin grid1.N, _)

/-- Row p of the tile at point t is row 512 (t / 16) + p of the array. -/
def rowIdx (t : Fin cfg1.N) (p : Fin 512) : Fin 4096 :=
  ⟨512 * (t.val / 16) + p.val, by have ht : t.val < 128 := t.isLt; have hp := p.isLt; omega⟩

/-- Column q of the tile at point t is column 512 (t % 16) + q of the array. -/
def colIdx (t : Fin cfg1.N) (q : Fin 512) : Fin 8192 :=
  ⟨512 * (t.val % 16) + q.val, by have hq := q.isLt; omega⟩

section Region

variable (V : (c : Dev nD) → (b : Ref sig .tc) → Buf (Elt Ideal) ((c : Thread nD τ).loc b))

/-! ### The arrays as the region finds them, as functions of their coordinates -/

abbrev X (c : Dev nD) : Fin 4096 → Fin 512 → EReal := fun n k => (V c main_arg0 : S4096x512.Idx → EReal) (ix2 n k)
abbrev XN (c : Dev nD) : Fin 8192 → Fin 512 → EReal := fun m k => (V c main_arg1 : S8192x512.Idx → EReal) (ix2 m k)
abbrev Wt (c : Dev nD) : Fin 3 → Fin 512 → EReal := fun j k => (V c main_arg2 : S3x512.Idx → EReal) (ix2 j k)
abbrev Bs (c : Dev nD) : Fin 3 → EReal := fun j => (V c main_v1 : S1x3.Idx → EReal) (ix2 (0 : Fin 1) j)
abbrev LO (c : Dev nD) : Fin 4096 → EReal := fun n => (V c main_v0_0 : S4096x1.Idx → EReal) (ix2 n (0 : Fin 1))
abbrev HI (c : Dev nD) : Fin 4096 → EReal := fun n => (V c main_v0_1 : S4096x1.Idx → EReal) (ix2 n (0 : Fin 1))

/-! ### Each input block, read where it sits in its array -/

theorem iblk1_0_apply (c : Dev nD) (t : Fin cfg1.N) (p k : Fin 512) :
    iblk1 (F := Ideal) V c 0 t (ix2 p k) = X V c (rowIdx t p) k := by
  obtain ⟨e0, e1, -⟩ := idx1 t
  show V c main_arg0 (((cfg1.win 0).blk t).view.emb (ix2 p k)) = V c main_arg0 (ix2 (rowIdx t p) k)
  refine congrArg (V c main_arg0) (funext fun a => Fin.ext ?_)
  match a with
  | ⟨0, _⟩ => show win1_0.index t (0 : Fin 2) * 512 + 1 * p.val = 512 * (t.val / 16) + p.val; omega
  | ⟨1, _⟩ => show win1_0.index t (1 : Fin 2) * 512 + 1 * k.val = k.val; omega

theorem iblk1_1_apply (c : Dev nD) (t : Fin cfg1.N) (q k : Fin 512) :
    iblk1 (F := Ideal) V c 1 t (ix2 q k) = XN V c (colIdx t q) k := by
  obtain ⟨-, -, e0, e1, -⟩ := idx1 t
  show V c main_arg1 (((cfg1.win 1).blk t).view.emb (ix2 q k)) = V c main_arg1 (ix2 (colIdx t q) k)
  refine congrArg (V c main_arg1) (funext fun a => Fin.ext ?_)
  match a with
  | ⟨0, _⟩ => show win1_1.index t (0 : Fin 2) * 512 + 1 * q.val = 512 * (t.val % 16) + q.val; omega
  | ⟨1, _⟩ => show win1_1.index t (1 : Fin 2) * 512 + 1 * k.val = k.val; omega

theorem iblk1_2_apply (c : Dev nD) (t : Fin cfg1.N) (j : Fin 3) (k : Fin 512) :
    iblk1 (F := Ideal) V c 2 t (ix2 j k) = Wt V c j k := by
  obtain ⟨-, -, -, -, e0, e1, -⟩ := idx1 t
  show V c main_arg2 (((cfg1.win 2).blk t).view.emb (ix2 j k)) = V c main_arg2 (ix2 j k)
  refine congrArg (V c main_arg2) (funext fun a => Fin.ext ?_)
  match a with
  | ⟨0, _⟩ => show win1_2.index t (0 : Fin 2) * 3 + 1 * j.val = j.val; omega
  | ⟨1, _⟩ => show win1_2.index t (1 : Fin 2) * 512 + 1 * k.val = k.val; omega

theorem iblk1_3_apply (c : Dev nD) (t : Fin cfg1.N) (j : Fin 3) :
    iblk1 (F := Ideal) V c 3 t (ix2 (0 : Fin 1) j) = Bs V c j := by
  obtain ⟨-, -, -, -, -, -, e0, e1, -⟩ := idx1 t
  show V c main_v1 (((cfg1.win 3).blk t).view.emb (ix2 (0 : Fin 1) j)) = V c main_v1 (ix2 (0 : Fin 1) j)
  refine congrArg (V c main_v1) (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 3 + 1 * j.val = j.val; omega

theorem iblk1_4_apply (c : Dev nD) (t : Fin cfg1.N) (p : Fin 512) :
    iblk1 (F := Ideal) V c 4 t (ix2 p (0 : Fin 1)) = LO V c (rowIdx t p) := by
  obtain ⟨-, -, -, -, -, -, -, -, e0, e1, -⟩ := idx1 t
  show V c main_v0_0 (((cfg1.win 4).blk t).view.emb (ix2 p (0 : Fin 1))) = V c main_v0_0 (ix2 (rowIdx t p) (0 : Fin 1))
  refine congrArg (V c main_v0_0) (funext fun a => Fin.ext ?_)
  match a with
  | ⟨0, _⟩ => show win1_4.index t (0 : Fin 2) * 512 + 1 * p.val = 512 * (t.val / 16) + p.val; omega
  | ⟨1, _⟩ => show win1_4.index t (1 : Fin 2) * 1 + 1 * (0 : Fin 1).val = (0 : Fin 1).val; omega

theorem iblk1_5_apply (c : Dev nD) (t : Fin cfg1.N) (p : Fin 512) :
    iblk1 (F := Ideal) V c 5 t (ix2 p (0 : Fin 1)) = HI V c (rowIdx t p) := by
  obtain ⟨-, -, -, -, -, -, -, -, -, -, e0, e1, -⟩ := idx1 t
  show V c main_v0_1 (((cfg1.win 5).blk t).view.emb (ix2 p (0 : Fin 1))) = V c main_v0_1 (ix2 (rowIdx t p) (0 : Fin 1))
  refine congrArg (V c main_v0_1) (funext fun a => Fin.ext ?_)
  match a with
  | ⟨0, _⟩ => show win1_5.index t (0 : Fin 2) * 512 + 1 * p.val = 512 * (t.val / 16) + p.val; omega
  | ⟨1, _⟩ => show win1_5.index t (1 : Fin 2) * 1 + 1 * (0 : Fin 1).val = (0 : Fin 1).val; omega

/-! ### The head and the thresholds of a row of tiles -/

/-- The head of row p of the tile at point t, from its blocks, is the head of that row of the array. -/
theorem head_blocks (c : Dev nD) (t : Fin cfg1.N) (p : Fin 512) (j : Fin 3) :
    Cert.KPay.headOf (iblk1 (F := Ideal) V c 0 t) (iblk1 (F := Ideal) V c 2 t) (iblk1 (F := Ideal) V c 3 t) p j
      = Cert.Spec.head (X V c) (Wt V c) (Bs V c) (rowIdx t p) j := by
  unfold Cert.KPay.headOf Cert.Spec.head Cert.Spec.dot
  simp only [iblk1_0_apply, iblk1_2_apply, iblk1_3_apply]

/-- Within a row of tiles the row of the array a tile's row p sits in does not change. -/
theorem rowIdx_succ (n : ℕ) (hn : n + 1 < cfg1.N) (h : ¬ (n + 1) % 16 = 0) (p : Fin 512) :
    rowIdx ⟨n + 1, hn⟩ p = rowIdx ⟨n, Nat.lt_of_succ_lt hn⟩ p := by
  apply Fin.ext
  show 512 * ((n + 1) / 16) + p.val = 512 * (n / 16) + p.val
  omega

/-- The three scratch columns after point n: the thresholds a, b and the exponent's s of the array's rows the tile covers. -/
theorem sc1_apply (c : Dev nD) : ∀ (n : ℕ) (hn : n < cfg1.N) (p : Fin 512),
    (sc1 (F := Ideal) V c n hn).1 (ix2 p (0 : Fin 1))
        = Cert.Spec.head (X V c) (Wt V c) (Bs V c) (rowIdx ⟨n, hn⟩ p) 0 - Cert.Spec.wEps
    ∧ (sc1 (F := Ideal) V c n hn).2.1 (ix2 p (0 : Fin 1))
        = Cert.Spec.upper (Cert.Spec.head (X V c) (Wt V c) (Bs V c) (rowIdx ⟨n, hn⟩ p) 0)
            (Cert.Spec.head (X V c) (Wt V c) (Bs V c) (rowIdx ⟨n, hn⟩ p) 1)
    ∧ (sc1 (F := Ideal) V c n hn).2.2 (ix2 p (0 : Fin 1))
        = Cert.Spec.head (X V c) (Wt V c) (Bs V c) (rowIdx ⟨n, hn⟩ p) 2 := by
  have first : ∀ (t : Fin cfg1.N), t.val % 16 = 0 → ∀ p : Fin 512,
      (sc1 (F := Ideal) V c t.val t.isLt).1 (ix2 p (0 : Fin 1))
          = Cert.Spec.head (X V c) (Wt V c) (Bs V c) (rowIdx t p) 0 - Cert.Spec.wEps
      ∧ (sc1 (F := Ideal) V c t.val t.isLt).2.1 (ix2 p (0 : Fin 1))
          = Cert.Spec.upper (Cert.Spec.head (X V c) (Wt V c) (Bs V c) (rowIdx t p) 0)
              (Cert.Spec.head (X V c) (Wt V c) (Bs V c) (rowIdx t p) 1)
      ∧ (sc1 (F := Ideal) V c t.val t.isLt).2.2 (ix2 p (0 : Fin 1))
          = Cert.Spec.head (X V c) (Wt V c) (Bs V c) (rowIdx t p) 2 := by
    intro t h p
    rw [sc1_first V c t h]
    refine ⟨?_, ?_, ?_⟩
    · show k1_pay4 (F := Ideal) _ _ _ (ix2 p (0 : Fin 1)) = _
      rw [Cert.KPay.k1_pay4_apply, head_blocks]
    · show k1_pay5 (F := Ideal) _ _ _ (ix2 p (0 : Fin 1)) = _
      rw [Cert.KPay.k1_pay5_apply, head_blocks, head_blocks]
    · show k1_pay6 (F := Ideal) _ _ _ (ix2 p (0 : Fin 1)) = _
      rw [Cert.KPay.k1_pay6_apply, head_blocks]
  intro n
  induction n with
  | zero => intro hn p; exact first ⟨0, hn⟩ rfl p
  | succ n ih =>
    intro hn p
    by_cases h : (n + 1) % 16 = 0
    · exact first ⟨n + 1, hn⟩ h p
    · have hl := sc1_later (F := Ideal) V c ⟨n + 1, hn⟩ h
      have e : sc1 (F := Ideal) V c (n + 1) hn = sc1 (F := Ideal) V c n (Nat.lt_of_succ_lt hn) := hl
      rw [e, rowIdx_succ n hn h p]
      exact ih (Nat.lt_of_succ_lt hn) p

/-! ### What a point stores, and the array it is a block of -/

/-- The specification's entry (first spelling) at row n, column m, of the arrays as the region finds them. -/
def outAt (c : Dev nD) (n : Fin 4096) (m : Fin 8192) : EReal :=
  Cert.Spec.entryK (Cert.Spec.simK (X V c) (XN V c) n m) (LO V c n) (HI V c n)
    (Cert.Spec.head (X V c) (Wt V c) (Bs V c) n 0 - Cert.Spec.wEps)
    (Cert.Spec.upper (Cert.Spec.head (X V c) (Wt V c) (Bs V c) n 0) (Cert.Spec.head (X V c) (Wt V c) (Bs V c) n 1))
    (Cert.Spec.head (X V c) (Wt V c) (Bs V c) n 2)

/-- The result array as one function of its index. -/
def G1 (c : Dev nD) : S4096x8192.Idx → EReal :=
  fun i => outAt V c ⟨(i 0).val, (i 0).isLt⟩ ⟨(i 1).val, (i 1).isLt⟩

/-- What point t stores at (p, q) of its tile: the entry at the array's row and column the tile's (p, q) sits at. -/
theorem tile_at (c : Dev nD) (t : Fin cfg1.N) (p q : Fin 512) :
    tile1 (F := Ideal) (iblk1 (F := Ideal) V c 0 t) (iblk1 (F := Ideal) V c 1 t) (iblk1 (F := Ideal) V c 4 t)
        (iblk1 (F := Ideal) V c 5 t) (sc1 (F := Ideal) V c t.val t.isLt).1 (sc1 (F := Ideal) V c t.val t.isLt).2.1
        (sc1 (F := Ideal) V c t.val t.isLt).2.2 (ix2 p q)
      = outAt V c (rowIdx t p) (colIdx t q) := by
  obtain ⟨ha, hb, hs⟩ := sc1_apply V c t.val t.isLt p
  unfold tile1 outAt
  rw [Cert.KPay.tile_apply, Cert.KPay.k1_pay7_apply, ha, hb, hs, iblk1_4_apply, iblk1_5_apply]
  unfold Cert.Spec.simK Cert.Spec.dot
  simp only [iblk1_0_apply, iblk1_1_apply]

/-- The array's entry at the place the tile's (p, q) sits at. -/
theorem G1_emb (c : Dev nD) (t : Fin cfg1.N) (p q : Fin 512) :
    G1 V c (((cfg1.win 6).blk t).view.emb (ix2 p q)) = outAt V c (rowIdx t p) (colIdx t q) := by
  obtain ⟨-, -, -, -, -, -, -, -, -, -, -, -, e0, e1⟩ := idx1 t
  unfold G1
  refine congrArg₂ (outAt V c) (Fin.ext ?_) (Fin.ext ?_)
  · show win1_6.index t (0 : Fin 2) * 512 + 1 * p.val = 512 * (t.val / 16) + p.val; omega
  · show win1_6.index t (1 : Fin 2) * 512 + 1 * q.val = 512 * (t.val % 16) + q.val; omega

/-- WHAT POINT t WRITES BACK is block t of the array G1. -/
theorem flushed1_6_eq (c : Dev nD) (t : Fin cfg1.N) :
    (dat1 (F := Ideal) V c).flushed 6 t = ((cfg1.win 6).blk t).view.read (Elt Ideal) (G1 V c) := by
  show (cfg1.win 6).cut (grid1.coords t) ((dat1 (F := Ideal) V c).after 6 t) = _
  rw [after1_6]
  funext (y : S512x512.Idx)
  obtain ⟨p, q, rfl⟩ : ∃ (p q : Fin 512), y = ix2 p q := ⟨y 0, y 1, eq_ix2 y⟩
  exact (tile_at V c t p q).trans (G1_emb V c t p q).symm

/-- An index of the array is in point t's block iff each coordinate is in the block's range on its axis. -/
theorem mem_blk1_6 (t : Fin cfg1.N) (i : S4096x8192.Idx) :
    i ∈ ((cfg1.win 6).blk t).view.set
      ↔ ∀ a : Fin 2, win1_6.index t a * S512x512.size a ≤ (i a).val
          ∧ (i a).val < win1_6.index t a * S512x512.size a + S512x512.size a := by
  show i ∈ ((View.whole main_v2).slice (win1_6.rect t)).set ↔ _
  rw [View.set_slice_whole, Rect.mem_set_unit]
  exact Iff.rfl

/-- Every entry of the array is in the block of the point 16 (n / 512) + m / 512, which writes its block back. -/
theorem cover1_6 (i : S4096x8192.Idx) :
    ∃ t : Fin cfg1.N, (cfg1.win 6).flush t = true ∧ i ∈ ((cfg1.win 6).blk t).view.set := by
  have h0 : (i 0).val < 4096 := (i 0).isLt
  have h1 : (i 1).val < 8192 := (i 1).isLt
  obtain ⟨T, hT⟩ : ∃ T : ℕ, T = 16 * ((i 0).val / 512) + (i 1).val / 512 := ⟨_, rfl⟩
  have hlt : T < cfg1.N := by show T < 128; omega
  refine ⟨⟨T, hlt⟩, flush1_6 _, ?_⟩
  obtain ⟨-, -, -, -, -, -, -, -, -, -, -, -, e0, e1⟩ := idx1 ⟨T, hlt⟩
  have e0' : win1_6.index ⟨T, hlt⟩ (0 : Fin 2) = T / 16 := e0
  have e1' : win1_6.index ⟨T, hlt⟩ (1 : Fin 2) = T % 16 := e1
  rw [mem_blk1_6]
  intro a
  match a with
  | ⟨0, _⟩ =>
    show win1_6.index ⟨T, hlt⟩ (0 : Fin 2) * 512 ≤ (i 0).val ∧ (i 0).val < win1_6.index ⟨T, hlt⟩ (0 : Fin 2) * 512 + 512
    rw [e0']; omega
  | ⟨1, _⟩ =>
    show win1_6.index ⟨T, hlt⟩ (1 : Fin 2) * 512 ≤ (i 1).val ∧ (i 1).val < win1_6.index ⟨T, hlt⟩ (1 : Fin 2) * 512 + 512
    rw [e1']; omega

/-! ### The array after the region -/

/-- THE ARRAY after the second region: the specification's entries, first spelling, index by index. -/
theorem arr1_eq (c : Dev nD) : (dat1 (F := Ideal) V c).arrAt 6 cfg1.N = G1 V c :=
  (dat1 (F := Ideal) V c).arrAt_eq_of_cover 6 (G1 V c) (fun t _ => flushed1_6_eq V c t) cover1_6

theorem arr1_out (c : Dev nD) (n : Fin 4096) (m : Fin 8192) :
    ((dat1 (F := Ideal) V c).arrAt 6 cfg1.N : S4096x8192.Idx → EReal) (ix2 n m)
      = Cert.Spec.entryK (Cert.Spec.simK (X V c) (XN V c) n m) (LO V c n) (HI V c n)
          (Cert.Spec.head (X V c) (Wt V c) (Bs V c) n 0 - Cert.Spec.wEps)
          (Cert.Spec.upper (Cert.Spec.head (X V c) (Wt V c) (Bs V c) n 0) (Cert.Spec.head (X V c) (Wt V c) (Bs V c) n 1))
          (Cert.Spec.head (X V c) (Wt V c) (Bs V c) n 2) := by
  rw [arr1_eq]
  rfl

end Region

end Cert.R1Val

end
-- ==== Proof.RefRead.lean ====
/-
  The reference's result read entry by entry.

  Each stage of the reference is read at an index and named by the specification's functions: the
  similarity entry, the clipped sigmoid head and its three columns, the row's least and greatest
  similarity (a reduction by min from +inf is the infimum over the row, by max from -inf the supremum),
  the normalised entry, the row's greatest normalised entry, the lower threshold, and last the masked
  logarithm added to the similarity.
-/
import proofs.«155337_j27762668601764_1_alg».proof.Proof.Gen.ReferenceIdeal.Read
import proofs.«155337_j27762668601764_1_alg».proof.Proof.Spec
import Idealize.ShloMosaic.Lib.IdealHost

noncomputable section

namespace Cert.RefRead

open Cert.ReferenceIdeal Cert.ReferenceIdeal.Gen Cert.ReferenceIdeal.Read Idealize.ShloMosaic Idealize.ShloMosaic.ValueIdx

/-- The contents of the four argument arrays on the extended reals. -/
abbrev C0 := (⟨S4096x512, .f32⟩ : BufTy).Contents (Elt Ideal)
abbrev C1 := (⟨S8192x512, .f32⟩ : BufTy).Contents (Elt Ideal)
abbrev C2 := (⟨S3x512, .f32⟩ : BufTy).Contents (Elt Ideal)
abbrev C3 := (⟨S3, .f32⟩ : BufTy).Contents (Elt Ideal)

/-- The arrays as functions of their coordinates. -/
abbrev X (A0 : C0) : Fin 4096 → Fin 512 → EReal := fun n k => A0 (ix2 n k)
abbrev XN (A1 : C1) : Fin 8192 → Fin 512 → EReal := fun m k => A1 (ix2 m k)
abbrev Wt (A2 : C2) : Fin 3 → Fin 512 → EReal := fun j k => A2 (ix2 j k)
abbrev Bs (A3 : C3) : Fin 3 → EReal := fun j => A3 (ix1 j)

/-! ## The words of +inf and -inf -/

theorem ofBits_pinf : Ideal.ofBits .f32 0x7F800000#32 = (⊤ : EReal) := by
  simp [Ideal.ofBits, Ideal.ieee]

theorem ofBits_ninf : Ideal.ofBits .f32 0xFF800000#32 = (⊥ : EReal) := by
  simp [Ideal.ofBits, Ideal.ieee]

/-! ## The similarity entry -/

theorem lidx20 (n : Fin 4096) (m : Fin 8192) (k : Fin 512) : lidx_main_v20 (ix2 n m) k = ix2 n k :=
  funext fun a => Fin.ext (by match a with | ⟨0, _⟩ => rfl | ⟨1, _⟩ => rfl)

theorem ridx20 (n : Fin 4096) (m : Fin 8192) (k : Fin 512) : idx_main_v19 (ridx_main_v20 (ix2 n m) k) = ix2 m k :=
  funext fun a => Fin.ext (by match a with | ⟨0, _⟩ => rfl | ⟨1, _⟩ => rfl)

/-- The quotient of the inner product by 512 is the specification's similarity. -/
theorem sim_entry (A0 : C0) (A1 : C1) (n : Fin 4096) (m : Fin 8192) :
    val_main_v22 (F := Ideal) A0 A1 (ix2 n m) = Spec.simR (X A0) (XN A1) n m := by
  rw [val_main_v22_apply, val_main_v20_apply, val_main_v21_apply, val_main_cst_4_apply]
  simp only [val_main_v19_apply, lidx20, ridx20, Ideal.hostDivf_def, Ideal.ofBits_def]
  rfl

/-! ## The sigmoid head, clipped, and its three columns -/

theorem lidx1 (n : Fin 4096) (j : Fin 3) (k : Fin 512) : lidx_main_v1 (ix2 n j) k = ix2 n k :=
  funext fun a => Fin.ext (by match a with | ⟨0, _⟩ => rfl | ⟨1, _⟩ => rfl)

theorem ridx1 (n : Fin 4096) (j : Fin 3) (k : Fin 512) : idx_main_v0 (ridx_main_v1 (ix2 n j) k) = ix2 j k :=
  funext fun a => Fin.ext (by match a with | ⟨0, _⟩ => rfl | ⟨1, _⟩ => rfl)

theorem idx3 (n : Fin 4096) (j : Fin 3) : idx_main_v2 (idx_main_v3 (ix2 n j)) = ix1 j :=
  funext fun a => Fin.ext (by match a with | ⟨0, _⟩ => rfl)

/-- The clip's minimum with one of its maximum with eps of 1 / (1 + exp (-z)) is the specification's head. -/
theorem head_entry (A0 : C0) (A2 : C2) (A3 : C3) (n : Fin 4096) (j : Fin 3) :
    val_main_v11 (F := Ideal) A0 A2 A3 (ix2 n j) = Spec.head (X A0) (Wt A2) (Bs A3) n j := by
  rw [val_main_v11_apply, val_main_call0_v4_apply, val_main_call0_v3_apply, val_main_cst_2_apply,
    val_main_call0_v2_apply, val_main_call0_v1_apply, val_main_call0_v0_apply, val_main_cst_1_apply,
    val_main_v10_apply, val_main_v9_apply, val_main_cst_0_apply, val_main_v8_apply, val_main_v7_apply,
    val_main_cst_apply, val_main_v6_apply, val_main_v5_apply, val_main_v4_apply, val_main_v1_apply,
    val_main_v3_apply, val_main_v2_apply]
  simp only [val_main_v0_apply, lidx1, ridx1, idx3, Ideal.hostDivf_def, Ideal.ofBits_def, Ideal.minimumf_def,
    Ideal.maximumf_def, Ideal.addf_def, Ideal.hostNegf_def, Ideal.negf_def, Ideal.hostUnary_exp_def]
  unfold Spec.head Spec.dot Ideal.logistic Spec.wOne Spec.wEps
  simp only [Ideal.ofBits_one_f32]

theorem idx12 (n : Fin 4096) : idx_main_v12 (ix2 n (0 : Fin 1)) = ix2 n (0 : Fin 3) :=
  funext fun a => Fin.ext (by match a with | ⟨0, _⟩ => rfl | ⟨1, _⟩ => rfl)

theorem idx13 (n : Fin 4096) : idx_main_v13 (ix2 n (0 : Fin 1)) = ix2 n (1 : Fin 3) :=
  funext fun a => Fin.ext (by match a with | ⟨0, _⟩ => rfl | ⟨1, _⟩ => rfl)

theorem idx14 (n : Fin 4096) : idx_main_v14 (ix2 n (0 : Fin 1)) = ix2 n (2 : Fin 3) :=
  funext fun a => Fin.ext (by match a with | ⟨0, _⟩ => rfl | ⟨1, _⟩ => rfl)

theorem col0 (A0 : C0) (A2 : C2) (A3 : C3) (n : Fin 4096) :
    val_main_v12 (F := Ideal) A0 A2 A3 (ix2 n (0 : Fin 1)) = Spec.head (X A0) (Wt A2) (Bs A3) n 0 := by
  rw [val_main_v12_apply, idx12, head_entry]

theorem col1 (A0 : C0) (A2 : C2) (A3 : C3) (n : Fin 4096) :
    val_main_v13 (F := Ideal) A0 A2 A3 (ix2 n (0 : Fin 1)) = Spec.head (X A0) (Wt A2) (Bs A3) n 1 := by
  rw [val_main_v13_apply, idx13, head_entry]

theorem col2 (A0 : C0) (A2 : C2) (A3 : C3) (n : Fin 4096) :
    val_main_v14 (F := Ideal) A0 A2 A3 (ix2 n (0 : Fin 1)) = Spec.head (X A0) (Wt A2) (Bs A3) n 2 := by
  rw [val_main_v14_apply, idx14, head_entry]

/-- The upper threshold a0 + b0 (1 - a0). -/
theorem upper_entry (A0 : C0) (A2 : C2) (A3 : C3) (n : Fin 4096) :
    val_main_v18 (F := Ideal) A0 A2 A3 (ix2 n (0 : Fin 1))
      = Spec.upper (Spec.head (X A0) (Wt A2) (Bs A3) n 0) (Spec.head (X A0) (Wt A2) (Bs A3) n 1) := by
  rw [val_main_v18_apply, val_main_v17_apply, val_main_v16_apply, val_main_v15_apply, val_main_cst_3_apply,
    col0, col1]
  rfl

/-! ## The row's least and greatest similarity -/

/-- The axis-1 reduction of a 4096 x 8192 array. -/
theorem red1 : S4096x8192.Reduces [1] S4096 := by decide

theorem lift1 (n : Fin 4096) (k : Fin 8192) : red1.lift (ix1 n) k = ix2 n k :=
  funext fun a => Fin.ext (by match a with | ⟨0, _⟩ => rfl | ⟨1, _⟩ => rfl)

/-- A fold of min from the top element over a finite type is the infimum. -/
theorem fold_min_top {ι : Type} [Fintype ι] (g : ι → EReal) :
    (Finset.univ : Finset ι).fold (FloatOps.minimumf (F := Ideal) (φ := .f32)) (⊤ : EReal) g = Finset.univ.inf g := rfl

/-- A fold of max from the bottom element over a finite type is the supremum. -/
theorem fold_max_bot {ι : Type} [Fintype ι] (g : ι → EReal) :
    (Finset.univ : Finset ι).fold (FloatOps.maximumf (F := Ideal) (φ := .f32)) (⊥ : EReal) g = Finset.univ.sup g := rfl

/-- A reduction by min from +inf along the row is the infimum of the row. -/
theorem rowmin (V : S4096x8192.Idx → EReal) (n : Fin 4096) :
    Host.reduce (FloatOps.minimumf (F := Ideal) (φ := .f32)) V (val_main_cst_5 (F := Ideal)) reducesTo_S4096x8192_S4096_d1 h_S_ (ix1 n)
      = Finset.univ.inf fun m : Fin 8192 => V (ix2 n m) := by
  rw [Host.reduce_eq_fold_single _ V _ reducesTo_S4096x8192_S4096_d1 red1 h_S_ (ix1 n), val_main_cst_5_apply,
    Ideal.ofBits_def, ofBits_pinf]
  show (Finset.univ : Finset (Fin 8192)).fold _ ⊤ (fun k => V (red1.lift (ix1 n) k)) = _
  exact (Finset.fold_congr (g := fun m : Fin 8192 => V (ix2 n m)) (fun k _ => congrArg V (lift1 n k))).trans
    (fold_min_top (ι := Fin 8192) _)

/-- A reduction by max from -inf along the row is the supremum of the row. -/
theorem rowmax (V : S4096x8192.Idx → EReal) (c : S_.Idx → EReal) (hc : ∀ i, c i = Ideal.ofBits .f32 0xFF800000#32) (n : Fin 4096) :
    Host.reduce (FloatOps.maximumf (F := Ideal) (φ := .f32)) V c reducesTo_S4096x8192_S4096_d1 h_S_ (ix1 n)
      = Finset.univ.sup fun m : Fin 8192 => V (ix2 n m) := by
  rw [Host.reduce_eq_fold_single _ V _ reducesTo_S4096x8192_S4096_d1 red1 h_S_ (ix1 n), hc, ofBits_ninf]
  show (Finset.univ : Finset (Fin 8192)).fold _ ⊥ (fun k => V (red1.lift (ix1 n) k)) = _
  exact (Finset.fold_congr (g := fun m : Fin 8192 => V (ix2 n m)) (fun k _ => congrArg V (lift1 n k))).trans
    (fold_max_bot (ι := Fin 8192) _)

/-- The row's least similarity, its greatest, the normalised entry, the row's greatest normalised entry. -/
def lo (A0 : C0) (A1 : C1) (n : Fin 4096) : EReal := Finset.univ.inf fun m' => Spec.simR (X A0) (XN A1) n m'
def hi (A0 : C0) (A1 : C1) (n : Fin 4096) : EReal := Finset.univ.sup fun m' => Spec.simR (X A0) (XN A1) n m'
def sn (A0 : C0) (A1 : C1) (n : Fin 4096) (m : Fin 8192) : EReal :=
  Spec.norm (Spec.simR (X A0) (XN A1) n m) (lo A0 A1 n) (hi A0 A1 n)
def top (A0 : C0) (A1 : C1) (n : Fin 4096) : EReal := Finset.univ.sup fun m' => sn A0 A1 n m'

theorem lo_entry (A0 : C0) (A1 : C1) (n : Fin 4096) : val_main_v23 (F := Ideal) A0 A1 (ix1 n) = lo A0 A1 n := by
  unfold val_main_v23
  rw [rowmin]
  simp only [sim_entry]
  rfl

theorem hi_entry (A0 : C0) (A1 : C1) (n : Fin 4096) : val_main_v25 (F := Ideal) A0 A1 (ix1 n) = hi A0 A1 n := by
  unfold val_main_v25
  rw [rowmax _ (val_main_cst_6 (F := Ideal)) (fun _ => rfl)]
  simp only [sim_entry]
  rfl

/-- A column's one entry sits over the row's number. -/
theorem idx24 (n : Fin 4096) : idx_main_v24 (ix2 n (0 : Fin 1)) = ix1 n :=
  funext fun a => Fin.ext (by match a with | ⟨0, _⟩ => rfl)
theorem idx26 (n : Fin 4096) : idx_main_v26 (ix2 n (0 : Fin 1)) = ix1 n :=
  funext fun a => Fin.ext (by match a with | ⟨0, _⟩ => rfl)
theorem idx33 (n : Fin 4096) : idx_main_v33 (ix2 n (0 : Fin 1)) = ix1 n :=
  funext fun a => Fin.ext (by match a with | ⟨0, _⟩ => rfl)

/-- A column spread along the row reads the column's one entry. -/
theorem idx27 (n : Fin 4096) (m : Fin 8192) : idx_main_v27 (ix2 n m) = ix2 n (0 : Fin 1) :=
  funext fun a => Fin.ext (by match a with | ⟨0, _⟩ => rfl | ⟨1, _⟩ => rfl)
theorem idx30 (n : Fin 4096) (m : Fin 8192) : idx_main_v30 (ix2 n m) = ix2 n (0 : Fin 1) :=
  funext fun a => Fin.ext (by match a with | ⟨0, _⟩ => rfl | ⟨1, _⟩ => rfl)
theorem idx37 (n : Fin 4096) (m : Fin 8192) : idx_main_v37 (ix2 n m) = ix2 n (0 : Fin 1) :=
  funext fun a => Fin.ext (by match a with | ⟨0, _⟩ => rfl | ⟨1, _⟩ => rfl)
theorem idx42 (n : Fin 4096) (m : Fin 8192) : idx_main_v42 (ix2 n m) = ix2 n (0 : Fin 1) :=
  funext fun a => Fin.ext (by match a with | ⟨0, _⟩ => rfl | ⟨1, _⟩ => rfl)
theorem idx46 (n : Fin 4096) (m : Fin 8192) : idx_main_v46 (ix2 n m) = ix2 n (0 : Fin 1) :=
  funext fun a => Fin.ext (by match a with | ⟨0, _⟩ => rfl | ⟨1, _⟩ => rfl)
theorem idx51 (n : Fin 4096) (m : Fin 8192) : idx_main_v51 (ix2 n m) = ix2 n (0 : Fin 1) :=
  funext fun a => Fin.ext (by match a with | ⟨0, _⟩ => rfl | ⟨1, _⟩ => rfl)
theorem idx57 (n : Fin 4096) (m : Fin 8192) : idx_main_v57 (ix2 n m) = ix2 n (0 : Fin 1) :=
  funext fun a => Fin.ext (by match a with | ⟨0, _⟩ => rfl | ⟨1, _⟩ => rfl)
theorem idx59 (n : Fin 4096) (m : Fin 8192) : idx_main_v59 (ix2 n m) = ix2 n (0 : Fin 1) :=
  funext fun a => Fin.ext (by match a with | ⟨0, _⟩ => rfl | ⟨1, _⟩ => rfl)

theorem lo_col (A0 : C0) (A1 : C1) (n : Fin 4096) : val_main_v24 (F := Ideal) A0 A1 (ix2 n (0 : Fin 1)) = lo A0 A1 n := by
  rw [val_main_v24_apply, idx24, lo_entry]

theorem hi_col (A0 : C0) (A1 : C1) (n : Fin 4096) : val_main_v26 (F := Ideal) A0 A1 (ix2 n (0 : Fin 1)) = hi A0 A1 n := by
  rw [val_main_v26_apply, idx26, hi_entry]

/-- The normalised entry (sim - lo) / (hi - lo). -/
theorem sn_entry (A0 : C0) (A1 : C1) (n : Fin 4096) (m : Fin 8192) :
    val_main_v31 (F := Ideal) A0 A1 (ix2 n m) = sn A0 A1 n m := by
  rw [val_main_v31_apply, val_main_v28_apply, val_main_v27_apply, idx27, lo_col, val_main_v30_apply, idx30,
    val_main_v29_apply, hi_col, lo_col, sim_entry]
  rfl

/-- The row's greatest normalised entry. -/
theorem top_entry (A0 : C0) (A1 : C1) (n : Fin 4096) : val_main_v32 (F := Ideal) A0 A1 (ix1 n) = top A0 A1 n := by
  unfold val_main_v32
  rw [rowmax _ (val_main_cst_7 (F := Ideal)) (fun _ => rfl)]
  simp only [sn_entry]
  rfl

theorem top_col (A0 : C0) (A1 : C1) (n : Fin 4096) : val_main_v33 (F := Ideal) A0 A1 (ix2 n (0 : Fin 1)) = top A0 A1 n := by
  rw [val_main_v33_apply, idx33, top_entry]

/-- The lower threshold min a0 top - eps. -/
theorem a_col (A0 : C0) (A1 : C1) (A2 : C2) (A3 : C3) (n : Fin 4096) :
    val_main_v36 (F := Ideal) A0 A1 A2 A3 (ix2 n (0 : Fin 1))
      = min (Spec.head (X A0) (Wt A2) (Bs A3) n 0) (top A0 A1 n) - Spec.wEps := by
  rw [val_main_v36_apply, val_main_v34_apply, col0, top_col, val_main_v35_apply, val_main_cst_8_apply]
  rfl

/-! ## The masked logarithm and the result -/

/-- The columns spread along the row: the lower threshold, the upper threshold, the exponent 1 / s. -/
theorem a_bc37 (A0 : C0) (A1 : C1) (A2 : C2) (A3 : C3) (n : Fin 4096) (m : Fin 8192) :
    val_main_v37 (F := Ideal) A0 A1 A2 A3 (ix2 n m)
      = min (Spec.head (X A0) (Wt A2) (Bs A3) n 0) (top A0 A1 n) - Spec.wEps := by
  rw [val_main_v37_apply, idx37, a_col]

theorem a_bc57 (A0 : C0) (A1 : C1) (A2 : C2) (A3 : C3) (n : Fin 4096) (m : Fin 8192) :
    val_main_v57 (F := Ideal) A0 A1 A2 A3 (ix2 n m)
      = min (Spec.head (X A0) (Wt A2) (Bs A3) n 0) (top A0 A1 n) - Spec.wEps := by
  rw [val_main_v57_apply, idx57, a_col]

theorem b_bc46 (A0 : C0) (A2 : C2) (A3 : C3) (n : Fin 4096) (m : Fin 8192) :
    val_main_v46 (F := Ideal) A0 A2 A3 (ix2 n m)
      = Spec.upper (Spec.head (X A0) (Wt A2) (Bs A3) n 0) (Spec.head (X A0) (Wt A2) (Bs A3) n 1) := by
  rw [val_main_v46_apply, idx46, upper_entry]

theorem b_bc59 (A0 : C0) (A2 : C2) (A3 : C3) (n : Fin 4096) (m : Fin 8192) :
    val_main_v59 (F := Ideal) A0 A2 A3 (ix2 n m)
      = Spec.upper (Spec.head (X A0) (Wt A2) (Bs A3) n 0) (Spec.head (X A0) (Wt A2) (Bs A3) n 1) := by
  rw [val_main_v59_apply, idx59, upper_entry]

theorem inv_bc42 (A0 : C0) (A2 : C2) (A3 : C3) (n : Fin 4096) (m : Fin 8192) :
    val_main_v42 (F := Ideal) A0 A2 A3 (ix2 n m) = Ideal.div Spec.wOne (Spec.head (X A0) (Wt A2) (Bs A3) n 2) := by
  rw [val_main_v42_apply, idx42, val_main_v41_apply, col2, val_main_v40_apply, val_main_cst_9_apply]
  rfl

theorem inv_bc51 (A0 : C0) (A2 : C2) (A3 : C3) (n : Fin 4096) (m : Fin 8192) :
    val_main_v51 (F := Ideal) A0 A2 A3 (ix2 n m) = Ideal.div Spec.wOne (Spec.head (X A0) (Wt A2) (Bs A3) n 2) := by
  rw [val_main_v51_apply, idx51, val_main_v50_apply, col2, val_main_v49_apply, val_main_cst_11_apply]
  rfl

/-- A select on the bit of a decided proposition is the if-then-else on the proposition. -/
theorem select_ofBool (p : Prop) [Decidable p] (a b : EReal) :
    Scalar.select (BitVec.ofBool (decide p)) a b = @ite _ p (Classical.dec p) a b := by
  by_cases h : p
  · rw [if_pos h, decide_eq_true h]; exact select_one a b
  · rw [if_neg h, decide_eq_false h]; exact select_zero a b

theorem cmp_olt (x y : EReal) : FloatOps.cmpf (F := Ideal) (φ := .f32) .olt x y = BitVec.ofBool (decide (x < y)) := rfl
theorem cmp_ogt (x y : EReal) : FloatOps.cmpf (F := Ideal) (φ := .f32) .ogt x y = BitVec.ofBool (decide (y < x)) := rfl
theorem habs (x : EReal) : FloatOps.hostAbsf (F := Ideal) (φ := .f32) x = max x (-x) := rfl

/-- The result entry: the similarity plus the logarithm of the mask. -/
theorem ref_entry (A0 : C0) (A1 : C1) (A2 : C2) (A3 : C3) (n : Fin 4096) (m : Fin 8192) :
    val_main_v66 (F := Ideal) A0 A1 A2 A3 (ix2 n m)
      = Spec.entryR (Spec.simR (X A0) (XN A1) n m) (lo A0 A1 n) (hi A0 A1 n) (top A0 A1 n)
          (Spec.head (X A0) (Wt A2) (Bs A3) n 0)
          (Spec.upper (Spec.head (X A0) (Wt A2) (Bs A3) n 0) (Spec.head (X A0) (Wt A2) (Bs A3) n 1))
          (Spec.head (X A0) (Wt A2) (Bs A3) n 2) := by
  rw [val_main_v66_apply, val_main_v65_apply, val_main_v64_apply, val_main_v63_apply, val_main_v62_apply,
    val_main_v61_apply, val_main_v60_apply, val_main_v58_apply, val_main_v56_apply, val_main_v55_apply,
    val_main_v54_apply, val_main_v52_apply, val_main_v48_apply, val_main_v47_apply, val_main_v45_apply,
    val_main_v43_apply, val_main_v39_apply, val_main_v38_apply]
  simp only [val_main_call4_v1_apply, val_main_call4_v0_apply, val_main_cst_16_apply,
    val_main_call3_v1_apply, val_main_call3_v0_apply, val_main_cst_15_apply,
    val_main_call2_v1_apply, val_main_call2_v0_apply, val_main_cst_14_apply,
    val_main_call1_v1_apply, val_main_call1_v0_apply, val_main_cst_13_apply,
    val_main_v53_apply, val_main_cst_12_apply, val_main_v44_apply, val_main_cst_10_apply,
    a_bc37, a_bc57, b_bc46, b_bc59, inv_bc42, inv_bc51, sn_entry, sim_entry,
    cmp_olt, cmp_ogt, habs, select_ofBool, Ideal.ofBits_def, Ideal.addf_def, Ideal.subf_def, Ideal.maximumf_def,
    Ideal.hostDivf_def, Ideal.hostPowf_def, Ideal.hostUnary_log_def]
  rfl

/-! ## The reference is the specification's second spelling -/

/-- The reference's result at row n, column m. -/
theorem ref_is_outR (A0 : C0) (A1 : C1) (A2 : C2) (A3 : C3) (n : Fin 4096) (m : Fin 8192) :
    val_main_v66 (F := Ideal) A0 A1 A2 A3 (ix2 n m)
      = Spec.outR (fun n k => A0 (ix2 n k)) (fun m k => A1 (ix2 m k)) (fun j k => A2 (ix2 j k)) (fun j => A3 (ix1 j)) n m := by
  rw [ref_entry]
  rfl

/-- The same for the whole array: at every index, by its two coordinates. -/
theorem ref_is_outR_all (A0 : C0) (A1 : C1) (A2 : C2) (A3 : C3) :
    val_main_v66 (F := Ideal) A0 A1 A2 A3
      = fun i : S4096x8192.Idx =>
          Spec.outR (N := 4096) (M := 8192) (K := 512) (fun n k => A0 (ix2 n k)) (fun m k => A1 (ix2 m k))
            (fun j k => A2 (ix2 j k)) (fun j => A3 (ix1 j)) (i 0) (i 1) := by
  funext i
  obtain ⟨n, m, rfl⟩ : ∃ (n : Fin 4096) (m : Fin 8192), i = ix2 n m := ⟨i 0, i 1, eq_ix2 i⟩
  exact ref_is_outR A0 A1 A2 A3 n m

open Idealize.ShloMosaic.TcCoe Idealize.SL.Sem in
/-- The term the reference's run leaves in its result buffer, at row n, column m, from the launch memory's four
    argument arrays. -/
theorem run_term_is_outR (mem : (ℓ : Loc nD τ sig) → Buf (Elt Ideal) ℓ) (c : Dev nD) (n : Fin 4096) (m : Fin 8192) :
    (Cert.ReferenceIdeal.Value.res_main_v66 (F := Ideal) mem c : S4096x8192.Idx → EReal) (ix2 n m)
      = Spec.outR (fun n k => (mem ((c.tc : Thread nD τ).loc main_arg0) : C0) (ix2 n k))
          (fun m k => (mem ((c.tc : Thread nD τ).loc main_arg1) : C1) (ix2 m k))
          (fun j k => (mem ((c.tc : Thread nD τ).loc main_arg2) : C2) (ix2 j k))
          (fun j => (mem ((c.tc : Thread nD τ).loc main_arg3) : C3) (ix1 j)) n m := by
  rw [val_main_v66_eq]
  exact ref_is_outR _ _ _ _ n m

end Cert.RefRead

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.RefFinite.lean ====
/-
  From the precondition to "every entry is a real".

  The precondition is the conjunction, over the four argument arrays, of "every entry's absolute value is below
  +inf". A conjunction of one-bit words is 1 exactly when each is; a reduction by "and" that is 1 had a 1 at
  every index; and an extended real whose absolute value is below the top element is a real.
-/
import proofs.«155337_j27762668601764_1_alg».proof.Proof.Gen.Pre_finite_inputs
import proofs.«155337_j27762668601764_1_alg».proof.Proof.LibFiniteEntry
import Idealize.ShloMosaic.Lib.IdealHost

noncomputable section

namespace Cert.RefFinite

open Idealize.ShloMosaic Idealize.ShloMosaic.ValueIdx Cert.Pre_finite_inputs Cert.Pre_finite_inputs.Facts

/-- The scalar shape has one index. -/
instance : Subsingleton S_.Idx := ⟨fun a b => funext fun d => d.elim0⟩

/-- The +inf word broadcast over any shape reads that word at every index. -/
theorem bound_apply {T : Shape} (h : S_.BroadcastsInDim T ![]) (i : T.Idx) :
    broadcastInDim T ![] h (constant (F := Ideal) S_ .f32 0x7F800000#32) i
      = FloatOps.ofBits (F := Ideal) .f32 0x7F800000#32 :=
  broadcastInDim_scalar_apply h _ i

/-- Under the precondition every entry of the four argument arrays is a real. -/
theorem entries_real [Cert.Pre_finite_inputs.Facts] (a0 : FVec Ideal S4096x512 .f32) (a1 : FVec Ideal S8192x512 .f32)
    (a2 : FVec Ideal S3x512 .f32) (a3 : FVec Ideal S3 .f32)
    (h : Cert.Pre_finite_inputs.fn (F := Ideal) a0 a1 a2 a3 = fun _ => 1#1) :
    (∀ i, ∃ r : ℝ, (a0 i : EReal) = (r : EReal)) ∧ (∀ i, ∃ r : ℝ, (a1 i : EReal) = (r : EReal))
      ∧ (∀ i, ∃ r : ℝ, (a2 i : EReal) = (r : EReal)) ∧ (∀ i, ∃ r : ℝ, (a3 i : EReal) = (r : EReal)) := by
  have h0 := congrFun h ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => ProofLib.Finite.all_real_of_all_abs_lt_inf a0 _ (bound_apply _) _ _ _ _ h0' i,
    fun i => ProofLib.Finite.all_real_of_all_abs_lt_inf a1 _ (bound_apply _) _ _ _ _ h1 i,
    fun i => ProofLib.Finite.all_real_of_all_abs_lt_inf a2 _ (bound_apply _) _ _ _ _ h2 i,
    fun i => ProofLib.Finite.all_real_of_all_abs_lt_inf a3 _ (bound_apply _) _ _ _ _ h3 i⟩

end Cert.RefFinite

end
-- ==== Proof.Assemble.lean ====
/-
  The two idealized programs end with equal results.

  The kernel's result array, after its two regions, is entry by entry the specification's first spelling `outK` of
  the four argument arrays: the second region's write-backs leave `entryK` of the scaled inner products, the row
  extremes the first region left, and the thresholds of the row (R1Val); the row extremes are the least and the
  greatest scaled inner product of the row over all 8192 columns (R0Val); the arrays the second region reads are the
  arguments as launched and the bias laid out as a row (Entry). The reference's result is the second spelling `outR`
  (RefRead). On real entries — which the precondition gives (RefFinite) — the two spellings agree (Bridge).
-/
import proofs.«155337_j27762668601764_1_alg».proof.Defs
import proofs.«155337_j27762668601764_1_alg».proof.Proof.Gen.Kernel
import proofs.«155337_j27762668601764_1_alg».proof.Proof.Gen.KernelIdeal
import proofs.«155337_j27762668601764_1_alg».proof.Proof.Gen.ReferenceIdeal
import proofs.«155337_j27762668601764_1_alg».proof.Proof.Gen.Pre_finite_inputs
import proofs.«155337_j27762668601764_1_alg».proof.Proof.Gen.ReferenceIdeal.Run
import proofs.«155337_j27762668601764_1_alg».proof.Proof.Entry
import proofs.«155337_j27762668601764_1_alg».proof.Proof.R0Val
import proofs.«155337_j27762668601764_1_alg».proof.Proof.R1Val
import proofs.«155337_j27762668601764_1_alg».proof.Proof.RefRead
import proofs.«155337_j27762668601764_1_alg».proof.Proof.RefFinite
import proofs.«155337_j27762668601764_1_alg».proof.Proof.Bridge

set_option maxRecDepth 16384

noncomputable section

namespace Cert.Assemble

open Idealize.ShloMosaic Idealize.ShloMosaic.TcCoe Idealize.ShloMosaic.ValueIdx Idealize.SL.Sem
open Cert.KernelIdeal Cert.KernelIdeal.Gen Cert.KernelIdeal.Hand

/-- The kernel's result array, entry by entry, is the first spelling of the specification at the arguments as launched. -/
theorem kernel_value (m : (ℓ : Loc nD τ sig) → Buf (Elt Ideal) ℓ) (c : Dev nD) (n : Fin 4096) (mm : Fin 8192) :
    ((dat1 (F := Ideal) (U2 m) c).arrAt 6 cfg1.N : S4096x8192.Idx → EReal) (ix2 n mm)
      = Cert.Spec.outK (fun n k => (m ((c : Thread nD τ).loc main_arg0) : S4096x512.Idx → EReal) (ix2 n k))
          (fun m' k => (m ((c : Thread nD τ).loc main_arg1) : S8192x512.Idx → EReal) (ix2 m' k))
          (fun j k => (m ((c : Thread nD τ).loc main_arg2) : S3x512.Idx → EReal) (ix2 j k))
          (fun j => (m ((c : Thread nD τ).loc main_arg3) : S3.Idx → EReal) (ix1 j)) n mm := by
  rw [Cert.R1Val.arr1_out]
  have hX : Cert.R1Val.X (U2 m) c = fun n k => (m ((c : Thread nD τ).loc main_arg0) : S4096x512.Idx → EReal) (ix2 n k) := by
    funext n k; exact congrFun (U2_main_arg0 (F := Ideal) m c) (ix2 n k)
  have hXN : Cert.R1Val.XN (U2 m) c = fun m' k => (m ((c : Thread nD τ).loc main_arg1) : S8192x512.Idx → EReal) (ix2 m' k) := by
    funext m' k; exact congrFun (U2_main_arg1 (F := Ideal) m c) (ix2 m' k)
  have hW : Cert.R1Val.Wt (U2 m) c = fun j k => (m ((c : Thread nD τ).loc main_arg2) : S3x512.Idx → EReal) (ix2 j k) := by
    funext j k; exact congrFun (U2_main_arg2 (F := Ideal) m c) (ix2 j k)
  have hB : Cert.R1Val.Bs (U2 m) c = fun j => (m ((c : Thread nD τ).loc main_arg3) : S3.Idx → EReal) (ix1 j) := by
    funext j; exact U2_main_v1_apply (F := Ideal) m c j
  have hLO : Cert.R1Val.LO (U2 m) c = fun n => Finset.univ.inf fun m' : Fin 8192 =>
      Cert.Spec.simK (fun n k => (m ((c : Thread nD τ).loc main_arg0) : S4096x512.Idx → EReal) (ix2 n k))
        (fun m' k => (m ((c : Thread nD τ).loc main_arg1) : S8192x512.Idx → EReal) (ix2 m' k)) n m' := by
    funext n; exact (congrFun (U2_main_v0_0 (F := Ideal) m c) (ix2 n (0 : Fin 1))).trans (arr0_lo (U0 m) c n)
  have hHI : Cert.R1Val.HI (U2 m) c = fun n => Finset.univ.sup fun m' : Fin 8192 =>
      Cert.Spec.simK (fun n k => (m ((c : Thread nD τ).loc main_arg0) : S4096x512.Idx → EReal) (ix2 n k))
        (fun m' k => (m ((c : Thread nD τ).loc main_arg1) : S8192x512.Idx → EReal) (ix2 m' k)) n m' := by
    funext n; exact (congrFun (U2_main_v0_1 (F := Ideal) m c) (ix2 n (0 : Fin 1))).trans (arr0_hi (U0 m) c n)
  rw [hX, hXN, hW, hB, hLO, hHI]
  rfl

/-- At the ideal instance the kernel and the reference, run from memories agreeing on the arguments, end with equal
    results: the kernel's array is `outK`, the reference's `outR`, and on the real entries the precondition gives
    the two spellings are one function. -/
theorem algebraic : Cert.algebraic_KernelIdeal_ReferenceIdeal := by
  intro m ρ m' ρ' hpre hagree
  refine ⟨fun c => (dat1 (F := Ideal) (U2 m) c).arrAt 6 cfg1.N, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := Cert.RefFinite.entries_real _ _ _ _ (hpre c)
  funext i
  obtain ⟨n, mm, rfl⟩ : ∃ (n : Fin 4096) (mm : Fin 8192), i = ix2 n mm := ⟨i 0, i 1, eq_ix2 i⟩
  refine (Cert.RefRead.run_term_is_outR m' c n mm).trans ?_
  rw [(hagree c).1, (hagree c).2.1, (hagree c).2.2.1, (hagree c).2.2.2]
  refine (Cert.Bridge.outR_eq_outK _ _ _ _ (fun n k => h0 (ix2 n k)) (fun m' k => h1 (ix2 m' k)) (fun j k => h2 (ix2 j k)) (fun j => h3 (ix1 j)) n mm).trans ?_
  exact (kernel_value m c n mm).symm

end Cert.Assemble

end
-- ==== Proof.lean ====
/-
  The certificate: a two-pass kernel against its plain reference, equal on the extended reals.

  Both programs take x (4096 x 512), xn (8192 x 512), W (3 x 512) and a bias (3) and return the 4096 x 8192 array
      sim + log mask,
  sim the inner products of the rows of x and xn divided by 512, the mask a soft threshold of each entry normalised by
  its row's least and greatest entry, between thresholds given by a sigmoid head of the row. The kernel walks an
  8 x 16 grid of 512 x 512 tiles twice: a first region keeps each row's running least and greatest entry across the 16
  column tiles and writes them out in the last one; after the bias is laid out as a row, a second region computes the
  thresholds in the first column tile of each row of tiles, keeps them, and stores the masked tile at every point.

  The three frames: each region's body is run case by case (the first, a middle and the last column tile; the first and
  a later column tile) on whole staging buffers, the scratch the kernel carries between grid points tracked by the
  region's invariant; the regions and the reshape between them are chained from the launch to the return, every
  unscoped buffer's contents named at each boundary, so the arguments are read back as launched — for the word-level
  program and for its idealization alike, the two being one text. The reference's frame is its run.
  No operation was rewritten by the idealization, so there is nothing to preserve.
  The values: Assemble.lean.
-/
import proofs.«155337_j27762668601764_1_alg».proof.Defs
import proofs.«155337_j27762668601764_1_alg».proof.Proof.Gen.Kernel
import proofs.«155337_j27762668601764_1_alg».proof.Proof.Gen.KernelIdeal
import proofs.«155337_j27762668601764_1_alg».proof.Proof.Gen.ReferenceIdeal
import proofs.«155337_j27762668601764_1_alg».proof.Proof.Gen.Pre_finite_inputs
import proofs.«155337_j27762668601764_1_alg».proof.Proof.Gen.ReferenceIdeal.Run
import proofs.«155337_j27762668601764_1_alg».proof.Proof.Run
import proofs.«155337_j27762668601764_1_alg».proof.Proof.Bits.Run
import proofs.«155337_j27762668601764_1_alg».proof.Proof.Assemble

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.Value.run (F := Ideal) m ρ),
  trivial,
  Cert.Assemble.algebraic⟩

end Cert.Proof

end
